-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x256 : Shape := ⟨2, ![2000, 256]⟩
abbrev S8000x128 : Shape := ⟨2, ![8000, 128]⟩
abbrev S10000x10000 : Shape := ⟨2, ![10000, 10000]⟩
abbrev S128x256 : Shape := ⟨2, ![128, 256]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S2000x256 : S_.BroadcastsInDim S2000x256 (![] : Fin 0 → Fin S2000x256.rank)
  reducesTo_S2000x256_S_d0_1 : S2000x256.ReducesTo [0, 1] S_
  h_S_ : 0 < S_.numel
  bcast_S_S8000x128 : S_.BroadcastsInDim S8000x128 (![] : Fin 0 → Fin S8000x128.rank)
  reducesTo_S8000x128_S_d0_1 : S8000x128.ReducesTo [0, 1] S_
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S64 .f32) (main_arg8 : FVec F S64x40 .f32) (main_arg9 : FVec F S40 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x40 .f32 := Host.absf main_arg8
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg9
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg4 : FVec F S128x256 .f32) (main_arg5 : FVec F S128 .f32) (main_arg6 : FVec F S128x64 .f32) (main_arg7 : FVec F S64 .f32) (main_arg8 : FVec F S64x40 .f32) (main_arg9 : FVec F S40 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S2000x256 .f32) (main_arg1 : FVec F S8000x128 .f32) (main_arg2 : FVec F S10000x10000 .f32) (main_arg3 : FVec F S10000x10000 .f32) (main_arg4 : FVec F S128x256 .f32) (main_arg5 : FVec F S128 .f32) (main_arg6 : FVec F S128x64 .f32) (main_arg7 : FVec F S64 .f32) (main_arg8 : FVec F S64x40 .f32) (main_arg9 : FVec F S40 .f32) : IVec S_ 1 :=
  let main_v0 : FVec F S2000x256 .f32 := Host.absf main_arg0
  let main_cst : FVec F S_ .f32 := constant S_ .f32 0x7F800000#32
  let main_v1 : FVec F S2000x256 .f32 := broadcastInDim S2000x256 ![] bcast_S_S2000x256 main_cst
  let main_v2 : IVec S2000x256 1 := cmpf .olt main_v0 main_v1
  let main_c : IVec S_ 1 := constantI S_ 1 1#1
  let main_v3 : IVec S_ 1 := (fun x v => Host.reduce IntOp.andi x v reducesTo_S2000x256_S_d0_1 h_S_) main_v2 main_c
  let main_v4 : FVec F S8000x128 .f32 := Host.absf main_arg1
  let main_cst_0 : FVec F S_ .f32 := constant S_ .f32 0x7F800000#32
  let main_v5 : FVec F S8000x128 .f32 := broadcastInDim S8000x128 ![] bcast_S_S8000x128 main_cst_0
  let main_v6 : IVec S8000x128 1 := cmpf .olt main_v4 main_v5
  let main_c_1 : IVec S_ 1 := constantI S_ 1 1#1
  let main_v7 : IVec S_ 1 := (fun x v => Host.reduce IntOp.andi x v reducesTo_S8000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_arg7 main_arg8 main_arg9 main_v13 main_v16
-- ==== Kernel.lean ====
abbrev S2000x256 : Shape := ⟨2, ![2000, 256]⟩
abbrev S8000x128 : Shape := ⟨2, ![8000, 128]⟩
abbrev S10000x10000 : Shape := ⟨2, ![10000, 10000]⟩
abbrev S128x256 : Shape := ⟨2, ![128, 256]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S128x1 : Shape := ⟨2, ![128, 1]⟩
abbrev S1x64 : Shape := ⟨2, ![1, 64]⟩
abbrev S1x40 : Shape := ⟨2, ![1, 40]⟩
abbrev S10000x40 : Shape := ⟨2, ![10000, 40]⟩
abbrev S10000x64 : Shape := ⟨2, ![10000, 64]⟩
abbrev S200x10000 : Shape := ⟨2, ![200, 10000]⟩
abbrev S200x40 : Shape := ⟨2, ![200, 40]⟩
abbrev S200x64 : Shape := ⟨2, ![200, 64]⟩
abbrev S64x10000 : Shape := ⟨2, ![64, 10000]⟩
abbrev S64x8000 : Shape := ⟨2, ![64, 8000]⟩
abbrev S128x2000 : Shape := ⟨2, ![128, 2000]⟩
abbrev S64x2000 : Shape := ⟨2, ![64, 2000]⟩
abbrev S200 : Shape := ⟨1, ![200]⟩
abbrev S200x1 : Shape := ⟨2, ![200, 1]⟩

abbrev nBuf : Space → Nat
  | .hbm => 15
  | .vmem => 18
  | .smem => 0
  | _ => 0

abbrev bufTy : (tb : Table) → Fin (tcTables nBuf tb) → BufTy
  | .hbm, ⟨0, _⟩ => ⟨S2000x256, .f32⟩
  | .hbm, ⟨1, _⟩ => ⟨S8000x128, .f32⟩
  | .hbm, ⟨2, _⟩ => ⟨S10000x10000, .f32⟩
  | .hbm, ⟨3, _⟩ => ⟨S10000x10000, .f32⟩
  | .hbm, ⟨4, _⟩ => ⟨S128x256, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S128x1, .f32⟩
  | .hbm, ⟨11, _⟩ => ⟨S1x64, .f32⟩
  | .hbm, ⟨12, _⟩ => ⟨S1x40, .f32⟩
  | .hbm, ⟨13, _⟩ => ⟨S10000x40, .f32⟩
  | .hbm, ⟨14, _⟩ => ⟨S10000x64, .f32⟩
  | .local _ .vmem, ⟨0, _⟩ => ⟨S2000x256, .f32⟩
  | .local _ .vmem, ⟨1, _⟩ => ⟨S8000x128, .f32⟩
  | .local _ .vmem, ⟨2, _⟩ => ⟨S128x256, .f32⟩
  | .local _ .vmem, ⟨3, _⟩ => ⟨S128x1, .f32⟩
  | .local _ .vmem, ⟨4, _⟩ => ⟨S128x64, .f32⟩
  | .local _ .vmem, ⟨5, _⟩ => ⟨S1x64, .f32⟩
  | .local _ .vmem, ⟨6, _⟩ => ⟨S64x40, .f32⟩
  | .local _ .vmem, ⟨7, _⟩ => ⟨S1x40, .f32⟩
  | .local _ .vmem, ⟨8, _⟩ => ⟨S200x10000, .f32⟩
  | .local _ .vmem, ⟨9, _⟩ => ⟨S200x10000, .f32⟩
  | .local _ .vmem, ⟨10, _⟩ => ⟨S200x10000, .f32⟩
  | .local _ .vmem, ⟨11, _⟩ => ⟨S200x10000, .f32⟩
  | .local _ .vmem, ⟨12, _⟩ => ⟨S200x40, .f32⟩
  | .local _ .vmem, ⟨13, _⟩ => ⟨S200x40, .f32⟩
  | .local _ .vmem, ⟨14, _⟩ => ⟨S200x64, .f32⟩
  | .local _ .vmem, ⟨15, _⟩ => ⟨S200x64, .f32⟩
  | .local _ .vmem, ⟨16, _⟩ => ⟨S64x10000, .f32⟩
  | .local _ .vmem, ⟨17, _⟩ => ⟨S10000x40, .f32⟩
  | _, _ => ⟨S2000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c50_i32 : BitVec 32 := 50#32
  let v3 : BitVec 1 := Scalar.cmpi .slt arg0 c50_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c200_i32 : BitVec 32 := 200#32
  let v21 : BitVec 32 := Scalar.muli arg0 c200_i32
  let v22 : Index := Scalar.indexCast v21
  let c0_15 : Index := 0#32
  ![v22.toNat, 0]
def k0_cond3 (i : grid0.Coords) : BitVec 1 :=
  let arg0 : BitVec 32 := BitVec.ofNat 32 (i 0).val
  let c50_i32_2 : BitVec 32 := 50#32
  let v6 : BitVec 1 := Scalar.cmpi .sge arg0 c50_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c50_i32 : BitVec 32 := 50#32
  let v0 : BitVec 32 := Scalar.subi arg0 c50_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c50_i32 : BitVec 32 := 50#32
  let v0 : BitVec 32 := Scalar.subi arg0 c50_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![v0.toNat, c0_i32.toNat]

abbrev stage0_0 : Fin 1 → Memref sig .tc .vmem S2000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S200x10000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S200x10000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S200x40 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S200x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S128_S128x1 : S128.ShapeCasts S128x1
  shapeCasts_S64_S1x64 : S64.ShapeCasts S1x64
  shapeCasts_S40_S1x40 : S40.ShapeCasts S1x40
  inb_S128x64_S128x64_0_0 : ∀ a, (![0, 0] : Fin 2 → Nat) a + S128x64.size a ≤ S128x64.size a
  h_S128x64 : 0 < S128x64.numel
  inb_S8000x128_S8000x128_0_0 : ∀ a, (![0, 0] : Fin 2 → Nat) a + S8000x128.size a ≤ S8000x128.size a
  h_S8000x128 : 0 < S8000x128.numel
  inb_S64x10000_S64x8000_0_0 : ∀ a, (![0, 0] : Fin 2 → Nat) a + S64x8000.size a ≤ S64x10000.size a
  h_S64x8000 : 0 < S64x8000.numel
  shapeCasts_S64x8000_S64x8000 : S64x8000.ShapeCasts S64x8000
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x2000 : S128x1.Broadcasts S128x2000
  inb_S64x10000_S64x2000_0_8000 : ∀ a, (![0, 8000] : Fin 2 → Nat) a + S64x2000.size a ≤ S64x10000.size a
  h_S64x2000 : 0 < S64x2000.numel
  shapeCasts_S64x2000_S64x2000 : S64x2000.ShapeCasts S64x2000
  inb_S200x10000_S200x10000_0_0 : ∀ a, (![0, 0] : Fin 2 → Nat) a + S200x10000.size a ≤ S200x10000.size a
  h_S200x10000 : 0 < S200x10000.numel
  inb_S64x10000_S64x10000_0_0 : ∀ a, (![0, 0] : Fin 2 → Nat) a + S64x10000.size a ≤ S64x10000.size a
  h_S64x10000 : 0 < S64x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  inb_S64x40_S64x40_0_0 : ∀ a, (![0, 0] : Fin 2 → Nat) a + S64x40.size a ≤ S64x40.size a
  h_S64x40 : 0 < S64x40.numel
  h_S200x40 : 0 < S200x40.numel
  shapeCasts_S200x40_S200x40 : S200x40.ShapeCasts S200x40
  inb_S10000x40_S10000x40_0_0 : ∀ a, (![0, 0] : Fin 2 → Nat) a + S10000x40.size a ≤ S10000x40.size a
  h_S10000x40 : 0 < S10000x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S200x40 : S1x40.Broadcasts S200x40
  reduces_S200x40_S200 : S200x40.Reduces [1] S200
  shapeCasts_S200_S200x1 : S200.ShapeCasts S200x1
  broadcasts_S200x1_S200x40 : S200x1.Broadcasts S200x40
  inb_S200x40_S200x40_0_0 : ∀ a, (![0, 0] : Fin 2 → Nat) a + S200x40.size a ≤ S200x40.size a
  dot_S128x64_S8000x128_S64x8000_0_1_1_0_n_n_wf : DotDims.WF S128x64 S8000x128 S64x8000 [0] [1] [1] [0] [] []
  dot_S128x256_S2000x256_S128x2000_1_1_0_0_n_n_wf : DotDims.WF S128x256 S2000x256 S128x2000 [1] [1] [0] [0] [] []
  dot_S128x64_S128x2000_S64x2000_0_0_1_1_n_n_wf : DotDims.WF S128x64 S128x2000 S64x2000 [0] [0] [1] [1] [] []
  dot_S200x10000_S64x10000_S200x64_1_1_0_0_n_n_wf : DotDims.WF S200x10000 S64x10000 S200x64 [1] [1] [0] [0] [] []
  dot_S200x64_S64x40_S200x40_1_0_0_1_n_n_wf : DotDims.WF S200x64 S64x40 S200x40 [1] [0] [0] [1] [] []
  dot_S200x10000_S10000x40_S200x40_1_0_0_1_n_n_wf : DotDims.WF S200x10000 S10000x40 S200x40 [1] [0] [0] [1] [] []
  hrank0 : 0 < grid0.rank
  k0_off1_inb : ∀ i : grid0.Coords, ∀ (k0_h2 : k0_cond2 i = 1#1), ∀ a, (k0_off1 i) a + S200x40.size a ≤ S10000x40.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S2000x256.size a
  hwx0_0 : ∀ i : grid0.Coords, EltTy.bits .f32 = 32 ∨ (Rect.block (s := S2000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S8000x128.size a
  hwx0_1 : ∀ i : grid0.Coords, EltTy.bits .f32 = 32 ∨ (Rect.block (s := S8000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x40.size a ≤ S64x40.size a
  hwx0_6 : ∀ i : grid0.Coords, EltTy.bits .f32 = 32 ∨ (Rect.block (s := S64x40) S64x40.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x40.size a ≤ S1x40.size a
  hwx0_7 : ∀ i : grid0.Coords, EltTy.bits .f32 = 32 ∨ (Rect.block (s := S1x40) S1x40.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x10000.size a ≤ S10000x10000.size a
  hwx0_8 : ∀ i : grid0.Coords, EltTy.bits .f32 = 32 ∨ (Rect.block (s := S10000x10000) S200x10000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S200x10000.size a ≤ S10000x10000.size a
  hwx0_9 : ∀ i : grid0.Coords, EltTy.bits .f32 = 32 ∨ (Rect.block (s := S10000x10000) S200x10000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S200x40.size a ≤ S10000x40.size a
  hwx0_10 : ∀ i : grid0.Coords, EltTy.bits .f32 = 32 ∨ (Rect.block (s := S10000x40) S200x40.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S200x64.size a ≤ S10000x64.size a
  hwx0_11 : ∀ i : grid0.Coords, EltTy.bits .f32 = 32 ∨ (Rect.block (s := S10000x64) S200x64.size (cc0_transform_11 i) (hinb0_11 i)).WholeWords (EltTy.packing .f32)

variable [Facts₀]

def dot_S128x64_S8000x128_S64x8000_0_1_1_0_n_n : DotDims S128x64 S8000x128 S64x8000 where
  lhsContracting := [0]
  rhsContracting := [1]
  lhsNonContracting := [1]
  rhsNonContracting := [0]
  lhsBatch := []
  rhsBatch := []
  wf := dot_S128x64_S8000x128_S64x8000_0_1_1_0_n_n_wf
def dot_S128x256_S2000x256_S128x2000_1_1_0_0_n_n : DotDims S128x256 S2000x256 S128x2000 where
  lhsContracting := [1]
  rhsContracting := [1]
  lhsNonContracting := [0]
  rhsNonContracting := [0]
  lhsBatch := []
  rhsBatch := []
  wf := dot_S128x256_S2000x256_S128x2000_1_1_0_0_n_n_wf
def dot_S128x64_S128x2000_S64x2000_0_0_1_1_n_n : DotDims S128x64 S128x2000 S64x2000 where
  lhsContracting := [0]
  rhsContracting := [0]
  lhsNonContracting := [1]
  rhsNonContracting := [1]
  lhsBatch := []
  rhsBatch := []
  wf := dot_S128x64_S128x2000_S64x2000_0_0_1_1_n_n_wf
def dot_S200x10000_S64x10000_S200x64_1_1_0_0_n_n : DotDims S200x10000 S64x10000 S200x64 where
  lhsContracting := [1]
  rhsContracting := [1]
  lhsNonContracting := [0]
  rhsNonContracting := [0]
  lhsBatch := []
  rhsBatch := []
  wf := dot_S200x10000_S64x10000_S200x64_1_1_0_0_n_n_wf
def dot_S200x64_S64x40_S200x40_1_0_0_1_n_n : DotDims S200x64 S64x40 S200x40 where
  lhsContracting := [1]
  rhsContracting := [0]
  lhsNonContracting := [0]
  rhsNonContracting := [1]
  lhsBatch := []
  rhsBatch := []
  wf := dot_S200x64_S64x40_S200x40_1_0_0_1_n_n_wf
def dot_S200x10000_S10000x40_S200x40_1_0_0_1_n_n : DotDims S200x10000 S10000x40 S200x40 where
  lhsContracting := [1]
  rhsContracting := [0]
  lhsNonContracting := [0]
  rhsNonContracting := [1]
  lhsBatch := []
  rhsBatch := []
  wf := dot_S200x10000_S10000x40_S200x40_1_0_0_1_n_n_wf

abbrev win0_0 : Pipeline.Window sig grid0 :=
  Pipeline.Window.ofSpec (Memref.whole main_arg0) S2000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S200x10000.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg3) S200x10000.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_0) S200x40.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_1) S200x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S2000x256 : Shape := ⟨2, ![2000, 256]⟩
abbrev S8000x128 : Shape := ⟨2, ![8000, 128]⟩
abbrev S10000x10000 : Shape := ⟨2, ![10000, 10000]⟩
abbrev S128x256 : Shape := ⟨2, ![128, 256]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S256x128 : Shape := ⟨2, ![256, 128]⟩
abbrev S2000x128 : Shape := ⟨2, ![2000, 128]⟩
abbrev S1x128 : Shape := ⟨2, ![1, 128]⟩
abbrev S10000x128 : Shape := ⟨2, ![10000, 128]⟩
abbrev S10000x64 : Shape := ⟨2, ![10000, 64]⟩
abbrev S1x64 : Shape := ⟨2, ![1, 64]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S2000x256, .f32⟩
  | .hbm, ⟨1, _⟩ => ⟨S8000x128, .f32⟩
  | .hbm, ⟨2, _⟩ => ⟨S10000x10000, .f32⟩
  | .hbm, ⟨3, _⟩ => ⟨S10000x10000, .f32⟩
  | .hbm, ⟨4, _⟩ => ⟨S128x256, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S256x128, .f32⟩
  | .hbm, ⟨11, _⟩ => ⟨S2000x128, .f32⟩
  | .hbm, ⟨12, _⟩ => ⟨S1x128, .f32⟩
  | .hbm, ⟨13, _⟩ => ⟨S2000x128, .f32⟩
  | .hbm, ⟨14, _⟩ => ⟨S2000x128, .f32⟩
  | .hbm, ⟨15, _⟩ => ⟨S10000x128, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x40, .f32⟩
  | .hbm, ⟨25, _⟩ => ⟨S10000x40, .f32⟩
  | .hbm, ⟨26, _⟩ => ⟨S1x40, .f32⟩
  | .hbm, ⟨27, _⟩ => ⟨S10000x40, .f32⟩
  | .hbm, ⟨28, _⟩ => ⟨S10000x40, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x40, .f32⟩
  | .hbm, ⟨36, _⟩ => ⟨S10000x40, .f32⟩
  | .hbm, ⟨37, _⟩ => ⟨S10000x40, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x40, .f32⟩
  | .hbm, ⟨43, _⟩ => ⟨S10000x40, .f32⟩
  | _, _ => ⟨S2000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_call1_cst_0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_cst_1 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_v17 : Ref sig .tc := ⟨.hbm, 43, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S2000x128_0_1 : S1x128.BroadcastsInDim S2000x128 (![0, 1] : Fin 2 → Fin S2000x128.rank)
  concatenates_S8000x128_S2000x128_S10000x128_d0 : Shape.Concatenates [S8000x128, S2000x128] S10000x128 0
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S2000x256_S256x128_S2000x128_1_0_0_1_n_n_wf : DotDims.WF S2000x256 S256x128 S2000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x40_S10000x40_1_0_0_1_n_n_wf : DotDims.WF S10000x64 S64x40 S10000x40 [1] [0] [0] [1] [] []
  dot_S10000x10000_S10000x40_S10000x40_1_0_0_1_n_n_wf : DotDims.WF S10000x10000 S10000x40 S10000x40 [1] [0] [0] [1] [] []

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.KConds.lean ====
import proofs.«152448_g84250078479002_cont_sun_c4_284_34_alg».proof.Proof.Gen.Kernel.Frame
import proofs.«152448_g84250078479002_cont_sun_c4_284_34_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions of the body, decided over the hundred grid points -/

/-- The first branch (the preparation of the transposed first projection) is taken at grid point 0 only. -/
abbrev condPrep (i : grid0.Coords) : Prop := (Scalar.cmpi .ne (Scalar.extui (Scalar.cmpi .eq (BitVec.ofNat 32 (i 0).val) 0#32)) 0#32) = 1#1
theorem condPrep_iff : ∀ t : Fin cfg0.N, condPrep (grid0.coords t) ↔ t.val = 0 :=
  (by decide +kernel : ∀ t : Fin grid0.N, condPrep (grid0.coords t) ↔ t.val = 0)

/-- The second branch (a row block of the first adjacency product) is taken at the points below 50. -/
abbrev condF (i : grid0.Coords) : Prop := k0_cond2 i = 1#1
theorem condF_iff : ∀ t : Fin cfg0.N, condF (grid0.coords t) ↔ t.val < 50 :=
  (by decide +kernel : ∀ t : Fin grid0.N, condF (grid0.coords t) ↔ t.val < 50)

/-- The third branch (a row block of the second adjacency product and its log-softmax) is taken from point 50 on. -/
abbrev condC (i : grid0.Coords) : Prop := k0_cond3 i = 1#1
theorem condC_iff : ∀ t : Fin cfg0.N, condC (grid0.coords t) ↔ 50 ≤ t.val :=
  (by decide +kernel : ∀ t : Fin grid0.N, condC (grid0.coords t) ↔ 50 ≤ t.val)

/-- The grid has a hundred points. -/
theorem N_eq : cfg0.N = 100 := N_0

end Cert.Kernel.Hand

end
-- ==== Proof.KRunB.lean ====
import proofs.«152448_g84250078479002_cont_sun_c4_284_34_alg».proof.Proof.KConds
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a point of the first phase after the first (points 1 to 49)

The body loads the adjacency row block and the transposed projection kept in scratch, stores the block of the hidden
embedding whole into its output window, and stores that block's second projection into the rows of the second scratch
that the point owns. -/

set_option maxHeartbeats 1000000 in
/-- The stores of the body at such a point, as pieces (last first), found by running it: those into the hidden
    embedding's window and those into the second scratch, the latter written over the contents `xs1` it was handed. -/
noncomputable def runB (c : Dev nD) (i : grid0.Coords) (arg1 : Memref sig .tc .vmem S2000x256 .f32) (harg1 : arg1.IsWhole) (arg2 : Memref sig .tc .vmem S8000x128 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S200x40 .f32) (harg11 : arg11.IsWhole) (arg12 : Memref sig .tc .vmem S200x64 .f32) (harg12 : arg12.IsWhole) (arg13 : Memref sig .tc .vmem S64x10000 .f32) (harg13 : arg13.IsWhole) (arg14 : Memref sig .tc .vmem S10000x40 .f32) (harg14 : arg14.IsWhole) (hc0 : ¬condPrep i) (hc1 : condF i) (hc2 : ¬condC i)
    (x0 : Vec F S2000x256 .f32) (x1 : Vec F S8000x128 .f32) (x2 : Vec F S128x256 .f32) (x3 : Vec F S128x1 .f32) (x4 : Vec F S128x64 .f32) (x5 : Vec F S1x64 .f32) (x6 : Vec F S64x40 .f32) (x7 : Vec F S1x40 .f32) (x8 : Vec F S200x10000 .f32) (x9 : Vec F S200x10000 .f32) (xs0 : Vec F S64x10000 .f32) (xs1 : Vec F S10000x40 .f32) :
    { LL : List (View.Piece (Elt F) S200x64 .f32) × List (View.Piece (Elt F) S10000x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg12.view.loc (c : Thread nD τ) ↦[arg12.view.set]{fullShare} arg12.view.writes (Elt F) f LL.1) ∗ owns (c : Thread nD τ) arg13 fullShare xs0 ∗ (arg14.view.loc (c : Thread nD τ) ↦[arg14.view.set]{fullShare} arg14.view.writes (Elt F) (harg14.unread xs1) LL.2)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨(?_, ?_), fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hfs0; obtain rfl := harg14.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H11]
    · iexists _; iexact H11
    isplitl [HS0]
    · iexists _; isplitr; · ipureintro; exact harg13.read_unread _
      iexact HS0
    iexact HS1

end Cert.Kernel.Hand

end
-- ==== Proof.KRunA.lean ====
import proofs.«152448_g84250078479002_cont_sun_c4_284_34_alg».proof.Proof.KRunB
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the first grid point

Besides what every point of the first phase does, the body first fills the first scratch with the transposed first
projection, in two column ranges (the columns of Y, then the columns of the re-embedded X). -/

set_option maxHeartbeats 1000000 in
/-- The stores of the body at the first point, as pieces (last first), found by running it: into the first scratch
    (which they cover), into the hidden embedding's window, and into the second scratch over the contents `xs1`. -/
noncomputable def runA (c : Dev nD) (i : grid0.Coords) (arg1 : Memref sig .tc .vmem S2000x256 .f32) (harg1 : arg1.IsWhole) (arg2 : Memref sig .tc .vmem S8000x128 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S200x40 .f32) (harg11 : arg11.IsWhole) (arg12 : Memref sig .tc .vmem S200x64 .f32) (harg12 : arg12.IsWhole) (arg13 : Memref sig .tc .vmem S64x10000 .f32) (harg13 : arg13.IsWhole) (arg14 : Memref sig .tc .vmem S10000x40 .f32) (harg14 : arg14.IsWhole) (hc0 : condPrep i) (hc1 : condF i) (hc2 : ¬condC i)
    (x0 : Vec F S2000x256 .f32) (x1 : Vec F S8000x128 .f32) (x2 : Vec F S128x256 .f32) (x3 : Vec F S128x1 .f32) (x4 : Vec F S128x64 .f32) (x5 : Vec F S1x64 .f32) (x6 : Vec F S64x40 .f32) (x7 : Vec F S1x40 .f32) (x8 : Vec F S200x10000 .f32) (x9 : Vec F S200x10000 .f32) (xs1 : Vec F S10000x40 .f32) :
    { LL : List (View.Piece (Elt F) S64x10000 .f32) × List (View.Piece (Elt F) S200x64 .f32) × List (View.Piece (Elt F) S10000x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg12 fullShare d) ∗ (∃ d, owns (c : Thread nD τ) arg13 fullShare d) ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg12.view.loc (c : Thread nD τ) ↦[arg12.view.set]{fullShare} arg12.view.writes (Elt F) f LL.2.1) ∗ (∃ f, arg13.view.loc (c : Thread nD τ) ↦[arg13.view.set]{fullShare} arg13.view.writes (Elt F) f LL.1) ∗ (arg14.view.loc (c : Thread nD τ) ↦[arg14.view.set]{fullShare} arg14.view.writes (Elt F) (harg14.unread xs1) LL.2.2)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨(?_, ?_, ?_), fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H11]
    · iexists _; iexact H11
    isplitl [HS0]
    · iexists _; iexact HS0
    iexact HS1

end Cert.Kernel.Hand

end
-- ==== Proof.KRunC.lean ====
import proofs.«152448_g84250078479002_cont_sun_c4_284_34_alg».proof.Proof.KRunA
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a point of the second phase (points 50 to 99)

The body loads the second adjacency's row block and the whole second scratch, and stores the block of log-softmaxed
class scores whole into its output window. It touches neither the hidden embedding's window nor the first scratch. -/

set_option maxHeartbeats 1000000 in
/-- The stores of the body at such a point into the scores' window, as pieces (last first), found by running it. -/
noncomputable def runC (c : Dev nD) (i : grid0.Coords) (arg1 : Memref sig .tc .vmem S2000x256 .f32) (harg1 : arg1.IsWhole) (arg2 : Memref sig .tc .vmem S8000x128 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S200x40 .f32) (harg11 : arg11.IsWhole) (arg12 : Memref sig .tc .vmem S200x64 .f32) (harg12 : arg12.IsWhole) (arg13 : Memref sig .tc .vmem S64x10000 .f32) (harg13 : arg13.IsWhole) (arg14 : Memref sig .tc .vmem S10000x40 .f32) (harg14 : arg14.IsWhole) (hc0 : ¬condPrep i) (hc1 : ¬condF i) (hc2 : condC i)
    (x0 : Vec F S2000x256 .f32) (x1 : Vec F S8000x128 .f32) (x2 : Vec F S128x256 .f32) (x3 : Vec F S128x1 .f32) (x4 : Vec F S128x64 .f32) (x5 : Vec F S1x64 .f32) (x6 : Vec F S64x40 .f32) (x7 : Vec F S1x40 .f32) (x8 : Vec F S200x10000 .f32) (x9 : Vec F S200x10000 .f32) (xs1 : Vec F S10000x40 .f32) :
    { L : List (View.Piece (Elt F) S200x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L) ∗ owns (c : Thread nD τ) arg14 fullShare xs1) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; iexact H10
    iexists _; isplitr; · ipureintro; exact harg14.read_unread _
    iexact HS1

end Cert.Kernel.Hand

end
-- ==== Proof.KPieces.lean ====
import proofs.«152448_g84250078479002_cont_sun_c4_284_34_alg».proof.Proof.KRunC
import Idealize.ShloMosaic.Lib.Pipeline.FrameBody
import Idealize.ShloMosaic.Lib.Ring
import Idealize.ShloMosaic.Lib.Pipeline.Value
import Idealize.ShloMosaic.Lib.WritesUnit
import Idealize.ShloMosaic.Lib.ValueIdx
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body's stores are, case by case

Each store's payload is one of the five pure functions of the loaded blocks; a load of a whole staging buffer reads
its contents; the first scratch, read back whole after its two column-range stores, reads as their overlay. -/

theorem hz2 : (![0, 0] : Fin 2 → Nat) = fun _ => 0 := funext fun a => by fin_cases a <;> rfl

/-- The two stores into the first scratch at the first point: columns 8000 to 9999, then columns 0 to 7999. -/
def s1Pieces (x0 : Vec F S2000x256 .f32) (x1 : Vec F S8000x128 .f32) (x2 : Vec F S128x256 .f32) (x3 : Vec F S128x1 .f32) (x4 : Vec F S128x64 .f32) :
    List (View.Piece (Elt F) S64x10000 .f32) :=
  [⟨Rect.unit (s := S64x10000) ![0, 8000] S64x2000.size inb_S64x10000_S64x2000_0_8000, k0_pay2 x4 x2 x0 x3⟩,
   ⟨Rect.unit (s := S64x10000) ![0, 0] S64x8000.size inb_S64x10000_S64x8000_0_0, k0_pay1 x4 x1⟩]

/-- The two column ranges tile the first scratch. -/
theorem s1Pieces_cover (x0 : Vec F S2000x256 .f32) (x1 : Vec F S8000x128 .f32) (x2 : Vec F S128x256 .f32) (x3 : Vec F S128x1 .f32) (x4 : Vec F S128x64 .f32)
    (y : S64x10000.Idx) : ∃ pc ∈ s1Pieces x0 x1 x2 x3 x4, y ∈ pc.1.set :=
  View.cover_of_tiledBy (s1Pieces x0 x1 x2 x3 x4) ![64, 2000] (by sl_kernel_rfl) y

/-- The transposed first projection: what the first scratch holds once the first point has run. -/
def s1Of (x0 : Vec F S2000x256 .f32) (x1 : Vec F S8000x128 .f32) (x2 : Vec F S128x256 .f32) (x3 : Vec F S128x1 .f32) (x4 : Vec F S128x64 .f32) :
    Vec F S64x10000 .f32 := View.canon (s1Pieces x0 x1 x2 x3 x4)

/-- The stores of a later point of the first phase. -/
theorem runB_pieces (c : Dev nD) (i : grid0.Coords) (arg1 : Memref sig .tc .vmem S2000x256 .f32) (harg1 : arg1.IsWhole) (arg2 : Memref sig .tc .vmem S8000x128 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S200x40 .f32) (harg11 : arg11.IsWhole) (arg12 : Memref sig .tc .vmem S200x64 .f32) (harg12 : arg12.IsWhole) (arg13 : Memref sig .tc .vmem S64x10000 .f32) (harg13 : arg13.IsWhole) (arg14 : Memref sig .tc .vmem S10000x40 .f32) (harg14 : arg14.IsWhole) (hc0 : ¬condPrep i) (hc1 : condF i) (hc2 : ¬condC i)
    (x0 : Vec F S2000x256 .f32) (x1 : Vec F S8000x128 .f32) (x2 : Vec F S128x256 .f32) (x3 : Vec F S128x1 .f32) (x4 : Vec F S128x64 .f32) (x5 : Vec F S1x64 .f32) (x6 : Vec F S64x40 .f32) (x7 : Vec F S1x40 .f32) (x8 : Vec F S200x10000 .f32) (x9 : Vec F S200x10000 .f32) (xs0 : Vec F S64x10000 .f32) (xs1 : Vec F S10000x40 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 x9 xs0 xs1).1
      = ([⟨Rect.unit (s := S200x64) ![0, 0] S200x64.size inb_S200x64_S200x64_0_0, k0_pay3 x8 xs0 x5⟩],
         [⟨Rect.unit (s := S10000x40) (k0_off1 i) S200x40.size (k0_off1_inb i hc1), k0_pay4 x8 xs0 x5 x6⟩]) := by
  unfold runB
  dsimp only
  sl_unfold_words
  simp only [View.readAt_eq_ld, Memref.IsWhole.read_unread, View.ld_unit_zero (S := S200x10000) hz2, View.ld_unit_zero (S := S64x10000) hz2,
    View.ld_unit_zero (S := S1x64) hz2, View.ld_unit_zero (S := S64x40) hz2]

/-- The stores of a point of the second phase. -/
theorem runC_pieces (c : Dev nD) (i : grid0.Coords) (arg1 : Memref sig .tc .vmem S2000x256 .f32) (harg1 : arg1.IsWhole) (arg2 : Memref sig .tc .vmem S8000x128 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S200x40 .f32) (harg11 : arg11.IsWhole) (arg12 : Memref sig .tc .vmem S200x64 .f32) (harg12 : arg12.IsWhole) (arg13 : Memref sig .tc .vmem S64x10000 .f32) (harg13 : arg13.IsWhole) (arg14 : Memref sig .tc .vmem S10000x40 .f32) (harg14 : arg14.IsWhole) (hc0 : ¬condPrep i) (hc1 : ¬condF i) (hc2 : condC i)
    (x0 : Vec F S2000x256 .f32) (x1 : Vec F S8000x128 .f32) (x2 : Vec F S128x256 .f32) (x3 : Vec F S128x1 .f32) (x4 : Vec F S128x64 .f32) (x5 : Vec F S1x64 .f32) (x6 : Vec F S64x40 .f32) (x7 : Vec F S1x40 .f32) (x8 : Vec F S200x10000 .f32) (x9 : Vec F S200x10000 .f32) (xs1 : Vec F S10000x40 .f32) :
    (runC c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 x9 xs1).1
      = [⟨Rect.unit (s := S200x40) ![0, 0] S200x40.size inb_S200x40_S200x40_0_0, k0_pay5 x9 xs1 x7⟩] := by
  unfold runC
  dsimp only
  sl_unfold_words
  simp only [View.readAt_eq_ld, Memref.IsWhole.read_unread, View.ld_unit_zero (S := S200x10000) hz2, View.ld_unit_zero (S := S10000x40) hz2,
    View.ld_unit_zero (S := S1x40) hz2]

/-- The stores of the first point. -/
theorem runA_pieces (c : Dev nD) (i : grid0.Coords) (arg1 : Memref sig .tc .vmem S2000x256 .f32) (harg1 : arg1.IsWhole) (arg2 : Memref sig .tc .vmem S8000x128 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S200x40 .f32) (harg11 : arg11.IsWhole) (arg12 : Memref sig .tc .vmem S200x64 .f32) (harg12 : arg12.IsWhole) (arg13 : Memref sig .tc .vmem S64x10000 .f32) (harg13 : arg13.IsWhole) (arg14 : Memref sig .tc .vmem S10000x40 .f32) (harg14 : arg14.IsWhole) (hc0 : condPrep i) (hc1 : condF i) (hc2 : ¬condC i)
    (x0 : Vec F S2000x256 .f32) (x1 : Vec F S8000x128 .f32) (x2 : Vec F S128x256 .f32) (x3 : Vec F S128x1 .f32) (x4 : Vec F S128x64 .f32) (x5 : Vec F S1x64 .f32) (x6 : Vec F S64x40 .f32) (x7 : Vec F S1x40 .f32) (x8 : Vec F S200x10000 .f32) (x9 : Vec F S200x10000 .f32) (xs1 : Vec F S10000x40 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 x9 xs1).1
      = (s1Pieces x0 x1 x2 x3 x4,
         [⟨Rect.unit (s := S200x64) ![0, 0] S200x64.size inb_S200x64_S200x64_0_0, k0_pay3 x8 (s1Of x0 x1 x2 x3 x4) x5⟩],
         [⟨Rect.unit (s := S10000x40) (k0_off1 i) S200x40.size (k0_off1_inb i hc1), k0_pay4 x8 (s1Of x0 x1 x2 x3 x4) x5 x6⟩]) := by
  have hcov : arg13.view.readCov (s1Pieces x0 x1 x2 x3 x4) (Rect.unit (s := S64x10000) ![0, 0] S64x10000.size inb_S64x10000_S64x10000_0_0).toLoadRect
      = s1Of x0 x1 x2 x3 x4 := by
    rw [View.readCov_eq_canon_ld _ _ _ (s1Pieces_cover x0 x1 x2 x3 x4), View.ld_unit_zero (S := S64x10000) hz2]; rfl
  unfold runA
  dsimp only
  sl_unfold_words
  simp only [View.readAt_eq_ld, Memref.IsWhole.read_unread, View.ld_unit_zero (S := S200x10000) hz2, View.ld_unit_zero (S := S2000x256) hz2,
    View.ld_unit_zero (S := S8000x128) hz2, View.ld_unit_zero (S := S128x256) hz2, View.ld_unit_zero (S := S128x1) hz2, View.ld_unit_zero (S := S128x64) hz2,
    View.ld_unit_zero (S := S1x64) hz2, View.ld_unit_zero (S := S64x40) hz2]
  rw [← hcov]
  rfl

end Cert.Kernel.Hand

end
-- ==== Proof.KFacts.lean ====
import proofs.«152448_g84250078479002_cont_sun_c4_284_34_alg».proof.Proof.KRunC
import Idealize.ShloMosaic.Lib.Pipeline.FrameBody
import Idealize.ShloMosaic.Lib.Ring
import Idealize.ShloMosaic.Lib.Pipeline.Value
import Idealize.ShloMosaic.Lib.WritesUnit
import Idealize.ShloMosaic.Lib.ValueIdx
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule: staging memrefs, the scratch buffers, and where the two output windows are idle or written back -/

/-- Each window's current staging memref at a grid point, as the pipeline hands it to the body. -/
abbrev stg0 (t : Fin cfg0.N) : Memref sig .tc .vmem S2000x256 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S8000x128 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S128x256 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S128x1 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S128x64 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1x64 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S64x40 .f32 := win0_6.stage (cfg0.slots t 6)
abbrev hstg6 (t : Fin cfg0.N) : (stg6 t).IsWhole := hstage0_6 ((cfg0.slots t 6).cast nbuf0_6)
abbrev stg7 (t : Fin cfg0.N) : Memref sig .tc .vmem S1x40 .f32 := win0_7.stage (cfg0.slots t 7)
abbrev hstg7 (t : Fin cfg0.N) : (stg7 t).IsWhole := hstage0_7 ((cfg0.slots t 7).cast nbuf0_7)
abbrev stg8 (t : Fin cfg0.N) : Memref sig .tc .vmem S200x10000 .f32 := win0_8.stage (cfg0.slots t 8)
abbrev hstg8 (t : Fin cfg0.N) : (stg8 t).IsWhole := hstage0_8 ((cfg0.slots t 8).cast nbuf0_8)
abbrev stg9 (t : Fin cfg0.N) : Memref sig .tc .vmem S200x10000 .f32 := win0_9.stage (cfg0.slots t 9)
abbrev hstg9 (t : Fin cfg0.N) : (stg9 t).IsWhole := hstage0_9 ((cfg0.slots t 9).cast nbuf0_9)
abbrev stg10 (t : Fin cfg0.N) : Memref sig .tc .vmem S200x40 .f32 := win0_10.stage (cfg0.slots t 10)
abbrev hstg10 (t : Fin cfg0.N) : (stg10 t).IsWhole := hstage0_10 ((cfg0.slots t 10).cast nbuf0_10)
abbrev stg11 (t : Fin cfg0.N) : Memref sig .tc .vmem S200x64 .f32 := win0_11.stage (cfg0.slots t 11)
abbrev hstg11 (t : Fin cfg0.N) : (stg11 t).IsWhole := hstage0_11 ((cfg0.slots t 11).cast nbuf0_11)

/-- The two scratch buffers: the transposed first projection, and the second projection. -/
abbrev scrS1 : Memref sig .tc .vmem S64x10000 .f32 := Memref.whole cc0_scratch0
abbrev scrS2 : Memref sig .tc .vmem S10000x40 .f32 := Memref.whole cc0_scratch1
theorem hscrS2 : scrS2.IsWhole := Memref.isWhole_whole _

/-- What the launch hands the region: both scratch buffers at some contents and the generator register at some state. -/
theorem PhiA_eq (c : Dev nD) :
    (Pipeline.ΦA spec0 c : sProp 𝕄)
      = iprop(iprop((∃ d, owns (c : Thread nD τ) scrS1 fullShare d) ∗ (∃ d, owns (c : Thread nD τ) scrS2 fullShare d)) ∗ (∃ r, prngReg c r)) := by
  unfold Pipeline.ΦA; rw [scopedRest0_eq]; simp only [scrS1, scrS2, owns_whole]; try rfl

/-- No input window is ever idle. -/
theorem live_in : ∀ (w : Fin 12), w.val < 10 → ∀ t : Fin cfg0.N, cfg0.idle w (grid0.coords t) = false := by decide +kernel

/-- The scores' window is idle during the first phase, and written back at every point of the second. -/
theorem idle10_iff : ∀ t : Fin cfg0.N, cfg0.idle 10 (grid0.coords t) = true ↔ t.val < 50 :=
  (by decide +kernel : ∀ t : Fin grid0.N, cfg0.idle 10 (grid0.coords t) = true ↔ t.val < 50)
theorem flush10_iff : ∀ t : Fin cfg0.N, (cfg0.win 10).flush t = true ↔ 50 ≤ t.val :=
  (by decide +kernel : ∀ t : Fin grid0.N, win0_10.flush t = true ↔ 50 ≤ t.val)

/-- The hidden embedding's window is idle during the second phase; it is written back at every point whose successor
    moves its block index (the points below 49) and, once more, at the last point. -/
theorem idle11_iff : ∀ t : Fin cfg0.N, cfg0.idle 11 (grid0.coords t) = true ↔ 50 ≤ t.val :=
  (by decide +kernel : ∀ t : Fin grid0.N, cfg0.idle 11 (grid0.coords t) = true ↔ 50 ≤ t.val)
theorem flush11_iff : ∀ t : Fin cfg0.N, (cfg0.win 11).flush t = true ↔ (t.val < 49 ∨ t.val = 99) :=
  (by decide +kernel : ∀ t : Fin grid0.N, win0_11.flush t = true ↔ (t.val < 49 ∨ t.val = 99))

/-- The rows of the second scratch a point of the first phase stores into start at two hundred times the point. -/
theorem off_eq0 : ∀ t : Fin cfg0.N, t.val < 50 → k0_off1 (grid0.coords t) 0 = 200 * t.val ∧ k0_off1 (grid0.coords t) 1 = 0 :=
  (by decide +kernel : ∀ t : Fin grid0.N, t.val < 50 → k0_off1 (grid0.coords t) 0 = 200 * t.val ∧ k0_off1 (grid0.coords t) 1 = 0)
theorem off_eq (t : Fin cfg0.N) (h : t.val < 50) : k0_off1 (grid0.coords t) = ![200 * t.val, 0] := by
  obtain ⟨h0, h1⟩ := off_eq0 t h
  funext a
  match a with
  | ⟨0, _⟩ => exact h0
  | ⟨1, _⟩ => exact h1

end Cert.Kernel.Hand

end
-- ==== Proof.KData.lean ====
import proofs.«152448_g84250078479002_cont_sun_c4_284_34_alg».proof.Proof.KPieces
import proofs.«152448_g84250078479002_cont_sun_c4_284_34_alg».proof.Proof.KFacts
import Idealize.ShloMosaic.Lib.Pipeline.FrameBody
import Idealize.ShloMosaic.Lib.Ring
import Idealize.ShloMosaic.Lib.Pipeline.Value
import Idealize.ShloMosaic.Lib.WritesUnit
import Idealize.ShloMosaic.Lib.ValueIdx
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers and the output windows hold, point by point -/

/-- Grid point number `n`. -/
abbrev pt (n : ℕ) (h : n < 100) : Fin cfg0.N := ⟨n, lt_of_lt_of_eq h N_eq.symm⟩

/-- The transposed first projection, from the blocks the first point loads. -/
def s1T (c : Dev nD) : Vec F S64x10000 .f32 :=
  s1Of (iblk m c 0 (pt 0 (by omega))) (iblk m c 1 (pt 0 (by omega))) (iblk m c 2 (pt 0 (by omega))) (iblk m c 3 (pt 0 (by omega))) (iblk m c 4 (pt 0 (by omega)))

/-- The block of the hidden embedding a point of the first phase computes. -/
def yembBlk (c : Dev nD) (t : Fin cfg0.N) : Vec F S200x64 .f32 := k0_pay3 (iblk m c 8 t) (s1T m c) (iblk m c 5 t)

/-- and that block's second projection, the rows of the second scratch the point owns. -/
def s2Blk (c : Dev nD) (t : Fin cfg0.N) : Vec F S200x40 .f32 := k0_pay4 (iblk m c 8 t) (s1T m c) (iblk m c 5 t) (iblk m c 6 t)

/-- The second projection whole: row `r` is row `r % 200` of the block of point `r / 200`. -/
def s2Full (c : Dev nD) : Vec F S10000x40 .f32 := fun y =>
  s2Blk m c (pt ((y 0).val / 200) (by have h : (y 0).val < 10000 := (y 0).isLt; omega))
    (ValueIdx.ix2 (⟨(y 0).val % 200, Nat.mod_lt _ (by omega)⟩ : Fin 200) (⟨(y 1).val, (y 1).isLt⟩ : Fin 40))

/-- The second scratch after `k` points of the first phase, over what it held before: its first `200 k` rows filled. -/
def s2Part (c : Dev nD) (k : ℕ) (d : Vec F S10000x40 .f32) : Vec F S10000x40 .f32 := fun y =>
  if (y 0).val < 200 * k then s2Full m c y else d y

theorem s2Part_zero (c : Dev nD) (d : Vec F S10000x40 .f32) : s2Part m c 0 d = d := by
  funext y; unfold s2Part; rw [if_neg (by omega)]

theorem s2Part_full (c : Dev nD) (k : ℕ) (hk : 50 ≤ k) (d : Vec F S10000x40 .f32) : s2Part m c k d = s2Full m c := by
  funext y; unfold s2Part; have h : (y 0).val < 10000 := (y 0).isLt; rw [if_pos (by omega)]

/-- One point of the first phase extends the filled rows by its own two hundred. -/
theorem s2Part_step (c : Dev nD) (t : Fin cfg0.N) (ht : t.val < 50) (d : Vec F S10000x40 .f32)
    (inb : ∀ a, k0_off1 (grid0.coords t) a + S200x40.size a ≤ S10000x40.size a) :
    scrS2.view.read (Elt F) (scrS2.view.writes (Elt F) (hscrS2.unread (s2Part m c t.val d))
      [⟨Rect.unit (s := S10000x40) (k0_off1 (grid0.coords t)) S200x40.size inb, s2Blk m c t⟩])
      = s2Part m c (t.val + 1) d := by
  funext y
  have hy : (y 0).val < 10000 := (y 0).isLt
  rw [View.read_writes_cons_rows (o := 200 * t.val) (W := 200) scrS2.view _ inb (s2Blk m c t) [] y (off_eq t ht) rfl rfl]
  split
  · rename_i h
    unfold s2Part s2Full
    rw [if_pos (by omega)]
    have e : pt ((y 0).val / 200) (by omega) = t := Fin.ext (by show (y 0).val / 200 = t.val; omega)
    rw [e]
    refine congrArg (s2Blk m c t) (funext fun a => Fin.ext ?_)
    match a with
    | ⟨0, _⟩ => show (y 0).val - 200 * t.val = (y 0).val % 200; omega
    | ⟨1, _⟩ => show (y 1).val - 0 = (y 1).val; omega
  · rename_i h
    rw [View.writes_nil, hscrS2.read_unread]
    unfold s2Part
    by_cases h1 : (y 0).val < 200 * t.val
    · rw [if_pos h1, if_pos (by omega)]
    · rw [if_neg h1, if_neg (by omega)]

/-- The block of log-softmaxed class scores a point of the second phase computes. -/
def outBlk (c : Dev nD) (t : Fin cfg0.N) : Vec F S200x40 .f32 := k0_pay5 (iblk m c 9 t) (s2Full m c) (iblk m c 7 t)

/-- The region's invariant before point `n`: what the launch hands over before the first point; afterwards the first
    scratch at the transposed first projection, the second scratch with the rows of the points run so far filled,
    and the generator register at some state. -/
def Phi (c : Dev nD) : ℕ → sProp 𝕄
  | 0 => Pipeline.ΦA spec0 c
  | n + 1 => iprop(iprop(owns (c : Thread nD τ) scrS1 fullShare (s1T m c) ∗ (∃ d, owns (c : Thread nD τ) scrS2 fullShare (s2Part m c (n + 1) d))) ∗ (∃ r, prngReg c r))

theorem Phi_succ (c : Dev nD) (n : ℕ) :
    Phi m c (n + 1) = iprop(iprop(owns (c : Thread nD τ) scrS1 fullShare (s1T m c) ∗ (∃ d, owns (c : Thread nD τ) scrS2 fullShare (s2Part m c (n + 1) d))) ∗ (∃ r, prngReg c r)) := rfl

theorem Phi_pos (c : Dev nD) (n : ℕ) (hn : n ≠ 0) :
    Phi m c n = iprop(iprop(owns (c : Thread nD τ) scrS1 fullShare (s1T m c) ∗ (∃ d, owns (c : Thread nD τ) scrS2 fullShare (s2Part m c n d))) ∗ (∃ r, prngReg c r)) := by
  cases n with
  | zero => exact absurd rfl hn
  | succ n => rfl

/-- The proof data of the pipeline on core `c`: each input's buffer at its block; the scores' window at the point's block
    of scores; the hidden embedding's window at the block of the point, and from point 49 on at the block of point 49,
    which it keeps to the end. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk m c t
    | ⟨11, _⟩ => yembBlk m c (pt (min t.val 49) (by omega))
  Φ t := Phi m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_out10 (c : Dev nD) (t : Fin cfg0.N) : (dats m 0 c).after 10 t = outBlk m c t := by dsimp only [dats]
theorem after_out11 (c : Dev nD) (t : Fin cfg0.N) : (dats m 0 c).after 11 t = yembBlk m c (pt (min t.val 49) (by omega)) := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d
theorem before_in6 (c : Dev nD) (t : Fin cfg0.N) (d) : (dats m 0 c).before 6 t d = iblk m c 6 t :=
  before0_6_of m (dats m 0 c) (A_eq m c 6) (after_in6 m c) t d
theorem before_in7 (c : Dev nD) (t : Fin cfg0.N) (d) : (dats m 0 c).before 7 t d = iblk m c 7 t :=
  before0_7_of m (dats m 0 c) (A_eq m c 7) (after_in7 m c) t d
theorem before_in8 (c : Dev nD) (t : Fin cfg0.N) (d) : (dats m 0 c).before 8 t d = iblk m c 8 t :=
  before0_8_of m (dats m 0 c) (A_eq m c 8) (after_in8 m c) t d
theorem before_in9 (c : Dev nD) (t : Fin cfg0.N) (d) : (dats m 0 c).before 9 t d = iblk m c 9 t :=
  before0_9_of m (dats m 0 c) (A_eq m c 9) (after_in9 m c) t d

end Cert.Kernel.Hand

end
-- ==== Proof.KBefore.lean ====
import proofs.«152448_g84250078479002_cont_sun_c4_284_34_alg».proof.Proof.KData
import Idealize.ShloMosaic.Lib.Pipeline.FrameBody
import Idealize.ShloMosaic.Lib.Ring
import Idealize.ShloMosaic.Lib.Pipeline.Value
import Idealize.ShloMosaic.Lib.WritesUnit
import Idealize.ShloMosaic.Lib.ValueIdx
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The hidden embedding's window through the second phase

Its block index stops moving at point 49, so point 49 does not write it back; every later point is idle for it and
none but the last writes it back: the buffer keeps what point 49 left. -/

theorem after11_late (c : Dev nD) (t : Fin cfg0.N) (ht : 49 ≤ t.val) :
    (dats m 0 c).after 11 t = yembBlk m c (pt 49 (by omega)) := by
  rw [after_out11]
  exact congrArg (yembBlk m c) (Fin.ext (by show min t.val 49 = 49; omega))

theorem before11_aux (c : Dev nD) (d) : ∀ (k : ℕ) (t : Fin cfg0.N), t.val = 50 + k →
    (dats m 0 c).before 11 t d = yembBlk m c (pt 49 (by omega))
  | 0, t, ht => by
    have hN : t.val < 100 := lt_of_lt_of_eq t.isLt N_eq
    rw [(dats m 0 c).before_of_pos 11 t (by omega) ((cfg0.win 11).fetch_out rfl t)]
    have hfl : (cfg0.win 11).flush ⟨t.val - 1, Nat.lt_of_le_of_lt (Nat.sub_le _ _) t.isLt⟩ = false :=
      Bool.eq_false_iff.mpr fun h => by have := (flush11_iff _).mp h; dsimp only at this; omega
    rw [hfl, if_neg Bool.false_ne_true]
    unfold Dat.left
    have hidle : cfg0.idle 11 (cfg0.grid.coords ⟨t.val - 1, Nat.lt_of_le_of_lt (Nat.sub_le _ _) t.isLt⟩) = false :=
      Bool.eq_false_iff.mpr fun h => by have := (idle11_iff _).mp h; dsimp only at this; omega
    rw [hidle]
    unfold Dat.kept
    rw [Pipeline.fill_of_clip_none (cfg := cfg0) 11 _ (fun _ => rfl) d ((dats m 0 c).after 11 _), Window.fill_cut]
    exact after11_late m c ⟨t.val - 1, Nat.lt_of_le_of_lt (Nat.sub_le _ _) t.isLt⟩ (by show 49 ≤ t.val - 1; omega)
  | k + 1, t, ht => by
    have hN : t.val < 100 := lt_of_lt_of_eq t.isLt N_eq
    rw [(dats m 0 c).before_of_pos 11 t (by omega) ((cfg0.win 11).fetch_out rfl t)]
    have hfl : (cfg0.win 11).flush ⟨t.val - 1, Nat.lt_of_le_of_lt (Nat.sub_le _ _) t.isLt⟩ = false :=
      Bool.eq_false_iff.mpr fun h => by have := (flush11_iff _).mp h; dsimp only at this; omega
    rw [hfl, if_neg Bool.false_ne_true]
    unfold Dat.left
    have hidle : cfg0.idle 11 (cfg0.grid.coords ⟨t.val - 1, Nat.lt_of_le_of_lt (Nat.sub_le _ _) t.isLt⟩) = true :=
      (idle11_iff _).mpr (by show 50 ≤ t.val - 1; omega)
    rw [hidle]
    exact before11_aux c d k ⟨t.val - 1, Nat.lt_of_le_of_lt (Nat.sub_le _ _) t.isLt⟩ (by show t.val - 1 = 50 + k; omega)

/-- At a point of the second phase the window's buffer holds the block of point 49: what the proof data says it
    leaves there. -/
theorem before11_late (c : Dev nD) (t : Fin cfg0.N) (ht : 50 ≤ t.val) (d) :
    (dats m 0 c).before 11 t d = (dats m 0 c).after 11 t :=
  (before11_aux m c d (t.val - 50) t (by omega)).trans (after11_late m c t (by omega)).symm

end Cert.Kernel.Hand

end
-- ==== Proof.KBody.lean ====
import proofs.«152448_g84250078479002_cont_sun_c4_284_34_alg».proof.Proof.KBefore
import Idealize.ShloMosaic.Lib.Pipeline.FrameBody
import Idealize.ShloMosaic.Lib.Ring
import Idealize.ShloMosaic.Lib.Pipeline.Value
import Idealize.ShloMosaic.Lib.WritesUnit
import Idealize.ShloMosaic.Lib.ValueIdx
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation at a generic grid point, the run of the region, and the frame -/

/-- What the body is called with at point `t`: the invariant, what the core owes, and every window's current buffer. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- At the first point the blocks the body loads give the transposed first projection. -/
theorem s1T_eq (c : Dev nD) (t : Fin cfg0.N) (h0 : t.val = 0) :
    s1Of (iblk m c 0 t) (iblk m c 1 t) (iblk m c 2 t) (iblk m c 3 t) (iblk m c 4 t) = s1T m c := by
  obtain ⟨n, hn⟩ := t
  cases n with
  | zero => rfl
  | succ k => exact absurd h0 (Nat.succ_ne_zero k)

/-- Before the first point no row of the second scratch is filled. -/
theorem s2Part_at0 (c : Dev nD) (t : Fin cfg0.N) (h0 : t.val = 0) (d : Vec F S10000x40 .f32) : s2Part m c t.val d = d := by
  rw [h0]; exact s2Part_zero m c d

set_option maxHeartbeats 4000000 in
/-- The body at any point. In the first phase the scores' window is idle and handed back as found; the first point
    fills the first scratch, every point of the phase stores its block of the hidden embedding and extends the filled
    rows of the second scratch. In the second phase the hidden embedding's window is idle: handed back as found, which
    at the last point, where it is written back once more, is the block point 49 left in it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9]
  rw [show (dats m 0 c).owesAt () t.succ = (dats m 0 c).owesAt () t.castSucc from rfl]
  rw [show (dats m 0 c).Φ t.succ = Phi m c (t.val + 1) from rfl, Phi_succ,
    show (dats m 0 c).Φ t.castSucc = Phi m c t.val from rfl]
  rw [show (dats m 0 c).leavesExact 0 t = owns (c : Thread nD τ) (stg0 t) fullShare ((dats m 0 c).after 0 t) from by
    unfold Dat.leavesExact; rw [live_in 0 (by decide) t], after_in0]
  rw [show (dats m 0 c).leavesExact 1 t = owns (c : Thread nD τ) (stg1 t) fullShare ((dats m 0 c).after 1 t) from by
    unfold Dat.leavesExact; rw [live_in 1 (by decide) t], after_in1]
  rw [show (dats m 0 c).leavesExact 2 t = owns (c : Thread nD τ) (stg2 t) fullShare ((dats m 0 c).after 2 t) from by
    unfold Dat.leavesExact; rw [live_in 2 (by decide) t], after_in2]
  rw [show (dats m 0 c).leavesExact 3 t = owns (c : Thread nD τ) (stg3 t) fullShare ((dats m 0 c).after 3 t) from by
    unfold Dat.leavesExact; rw [live_in 3 (by decide) t], after_in3]
  rw [show (dats m 0 c).leavesExact 4 t = owns (c : Thread nD τ) (stg4 t) fullShare ((dats m 0 c).after 4 t) from by
    unfold Dat.leavesExact; rw [live_in 4 (by decide) t], after_in4]
  rw [show (dats m 0 c).leavesExact 5 t = owns (c : Thread nD τ) (stg5 t) fullShare ((dats m 0 c).after 5 t) from by
    unfold Dat.leavesExact; rw [live_in 5 (by decide) t], after_in5]
  rw [show (dats m 0 c).leavesExact 6 t = owns (c : Thread nD τ) (stg6 t) fullShare ((dats m 0 c).after 6 t) from by
    unfold Dat.leavesExact; rw [live_in 6 (by decide) t], after_in6]
  rw [show (dats m 0 c).leavesExact 7 t = owns (c : Thread nD τ) (stg7 t) fullShare ((dats m 0 c).after 7 t) from by
    unfold Dat.leavesExact; rw [live_in 7 (by decide) t], after_in7]
  rw [show (dats m 0 c).leavesExact 8 t = owns (c : Thread nD τ) (stg8 t) fullShare ((dats m 0 c).after 8 t) from by
    unfold Dat.leavesExact; rw [live_in 8 (by decide) t], after_in8]
  rw [show (dats m 0 c).leavesExact 9 t = owns (c : Thread nD τ) (stg9 t) fullShare ((dats m 0 c).after 9 t) from by
    unfold Dat.leavesExact; rw [live_in 9 (by decide) t], after_in9]
  have hN : t.val < 100 := lt_of_lt_of_eq t.isLt N_eq
  by_cases h1 : t.val < 50
  · have hi10 : cfg0.idle 10 (grid0.coords t) = true := (idle10_iff t).mpr h1
    have hf10 : (cfg0.win 10).flush t = false := Bool.eq_false_iff.mpr fun h => by have := (flush10_iff t).mp h; omega
    have hi11 : cfg0.idle 11 (grid0.coords t) = false := Bool.eq_false_iff.mpr fun h => by have := (idle11_iff t).mp h; omega
    rw [(dats m 0 c).leavesExact_idle 10 t hi10 hf10]
    rw [show (dats m 0 c).leavesExact 11 t = owns (c : Thread nD τ) (stg11 t) fullShare ((dats m 0 c).after 11 t) from by
      unfold Dat.leavesExact; rw [hi11], after_out11]
    rw [show pt (min t.val 49) (by omega) = t from Fin.ext (by show min t.val 49 = t.val; omega)]
    by_cases h0 : t.val = 0
    · rw [show Phi m c t.val = Pipeline.ΦA spec0 c from by rw [h0]; rfl, PhiA_eq]
      iintro ⟨⟨⟨⟨%d0, HS0⟩, ⟨%d1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, H10, ⟨%e11, H11⟩⟩
      have hrun := fun K => (runA c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) (stg11 t) (hstg11 t) scrS1 (Memref.isWhole_whole _) scrS2 hscrS2 ((condPrep_iff t).mpr h0) ((condF_iff t).mpr h1) (fun h => by have := (condC_iff t).mp h; omega) (iblk m c 0 t) (iblk m c 1 t) (iblk m c 2 t) (iblk m c 3 t) (iblk m c 4 t) (iblk m c 5 t) (iblk m c 6 t) (iblk m c 7 t) (iblk m c 8 t) (iblk m c 9 t) d1).2 Set.univ K
      simp only [runA_pieces] at hrun
      rw [s1T_eq m c t h0] at hrun
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexists _; iexact H11
      isplitl [HS0]; · iexists _; iexact HS0
      isplitl [HS1]; · iexact HS1
      iintro ⟨H0, H1, H2, H3, H4, H5, H6, H7, H8, H9, ⟨%f12, H11⟩, ⟨%f13, HS0⟩, HS1⟩
      isplitl [HS0 HS1 Hg]
      · isplitl [HS0 HS1]
        · isplitl [HS0]
          · unfold owns; iexists _; isplitr
            swap; · iexact HS0
            ipureintro
            exact (View.read_writes_eq_canon _ _ _ (s1Pieces_cover _ _ _ _ _)).trans (s1T_eq m c t h0)
          · iexists d1
            unfold owns; iexists _; isplitr
            swap; · iexact HS1
            ipureintro
            have hs := s2Part_step m c t h1 d1 (k0_off1_inb _ ((condF_iff t).mpr h1))
            rw [s2Part_at0 m c t h0 d1] at hs
            exact hs
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro
      exact (View.read_writes_eq_canon _ _ _ (fun y => ⟨_, List.mem_singleton_self _, View.mem_set_unit_zero hz2 inb_S200x64_S200x64_0_0 y⟩)).trans (View.canon_unit_zero hz2 inb_S200x64_S200x64_0_0 _)
    · rw [Phi_pos m c t.val h0]
      iintro ⟨⟨⟨HS0, ⟨%d1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, H10, ⟨%e11, H11⟩⟩
      have hrun := fun K => (runB c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) (stg11 t) (hstg11 t) scrS1 (Memref.isWhole_whole _) scrS2 hscrS2 (fun h => h0 ((condPrep_iff t).mp h)) ((condF_iff t).mpr h1) (fun h => by have := (condC_iff t).mp h; omega) (iblk m c 0 t) (iblk m c 1 t) (iblk m c 2 t) (iblk m c 3 t) (iblk m c 4 t) (iblk m c 5 t) (iblk m c 6 t) (iblk m c 7 t) (iblk m c 8 t) (iblk m c 9 t) (s1T m c) (s2Part m c t.val d1)).2 Set.univ K
      simp only [runB_pieces] at hrun
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexists _; iexact H11
      isplitl [HS0]; · iexact HS0
      isplitl [HS1]; · iexact HS1
      iintro ⟨H0, H1, H2, H3, H4, H5, H6, H7, H8, H9, ⟨%f12, H11⟩, HS0, HS1⟩
      isplitl [HS0 HS1 Hg]
      · isplitl [HS0 HS1]
        · isplitl [HS0]
          · iexact HS0
          · iexists d1
            unfold owns; iexists _; isplitr
            swap; · iexact HS1
            ipureintro
            exact s2Part_step m c t h1 d1 (k0_off1_inb _ ((condF_iff t).mpr h1))
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro
      exact (View.read_writes_eq_canon _ _ _ (fun y => ⟨_, List.mem_singleton_self _, View.mem_set_unit_zero hz2 inb_S200x64_S200x64_0_0 y⟩)).trans (View.canon_unit_zero hz2 inb_S200x64_S200x64_0_0 _)
  · have h0 : t.val ≠ 0 := by omega
    have hi10 : cfg0.idle 10 (grid0.coords t) = false := Bool.eq_false_iff.mpr fun h => by have := (idle10_iff t).mp h; omega
    have hi11 : cfg0.idle 11 (grid0.coords t) = true := (idle11_iff t).mpr (by omega)
    rw [show (dats m 0 c).leavesExact 10 t = owns (c : Thread nD τ) (stg10 t) fullShare ((dats m 0 c).after 10 t) from by
      unfold Dat.leavesExact; rw [hi10], after_out10]
    rw [Phi_pos m c t.val h0]
    simp only [s2Part_full m c t.val (by omega), s2Part_full m c (t.val + 1) (by omega)]
    have hrun := fun K => (runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) (stg11 t) (hstg11 t) scrS1 (Memref.isWhole_whole _) scrS2 hscrS2 (fun h => h0 ((condPrep_iff t).mp h)) (fun h => h1 ((condF_iff t).mp h)) ((condC_iff t).mpr (by omega)) (iblk m c 0 t) (iblk m c 1 t) (iblk m c 2 t) (iblk m c 3 t) (iblk m c 4 t) (iblk m c 5 t) (iblk m c 6 t) (iblk m c 7 t) (iblk m c 8 t) (iblk m c 9 t) (s2Full m c)).2 Set.univ K
    simp only [runC_pieces] at hrun
    by_cases h99 : t.val = 99
    · have hf11 : (cfg0.win 11).flush t = true := (flush11_iff t).mpr (Or.inr h99)
      rw [show (dats m 0 c).leavesExact 11 t = owns (c : Thread nD τ) (stg11 t) fullShare ((dats m 0 c).after 11 t) from by
        unfold Dat.leavesExact; rw [hi11, hf11]]
      iintro ⟨⟨⟨HS0, ⟨%d1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
      rw [before11_late m c t (by omega) e11]
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS1]; · iexact HS1
      iintro ⟨H0, H1, H2, H3, H4, H5, H6, H7, H8, H9, ⟨%f10, H10⟩, HS1⟩
      isplitl [HS0 HS1 Hg]
      · isplitl [HS0 HS1]
        · isplitl [HS0]
          · iexact HS0
          · iexists d1; iexact HS1
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro
        exact (View.read_writes_eq_canon _ _ _ (fun y => ⟨_, List.mem_singleton_self _, View.mem_set_unit_zero hz2 inb_S200x40_S200x40_0_0 y⟩)).trans (View.canon_unit_zero hz2 inb_S200x40_S200x40_0_0 _)
      iexact H11
    · have hf11 : (cfg0.win 11).flush t = false := Bool.eq_false_iff.mpr fun h => by have := (flush11_iff t).mp h; omega
      rw [(dats m 0 c).leavesExact_idle 11 t hi11 hf11]
      iintro ⟨⟨⟨HS0, ⟨%d1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, H11⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS1]; · iexact HS1
      iintro ⟨H0, H1, H2, H3, H4, H5, H6, H7, H8, H9, ⟨%f10, H10⟩, HS1⟩
      isplitl [HS0 HS1 Hg]
      · isplitl [HS0 HS1]
        · isplitl [HS0]
          · iexact HS0
          · iexists d1; iexact HS1
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro
        exact (View.read_writes_eq_canon _ _ _ (fun y => ⟨_, List.mem_singleton_self _, View.mem_set_unit_zero hz2 inb_S200x40_S200x40_0_0 y⟩)).trans (View.canon_unit_zero hz2 inb_S200x40_S200x40_0_0 _)
      iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := Idealize.SL.BI.Entails.refl _

/-- After the last point the invariant gives back what the launch handed over: the scratch contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 100 := N_eq; omega), PhiA_eq]
  iintro ⟨⟨HS0, ⟨%d, HS1⟩⟩, Hg⟩
  isplitl [HS0 HS1]
  · isplitl [HS0]
    · iexists _; iexact HS0
    iexists _; iexact HS1
  iexact Hg

set_option backward.isDefEq.respectTransparency.types false in
/-- Every weakly fair execution of @main terminates, with every array of the pipeline at what the proof data's
    write-backs make of it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  frame_of m ρ (dats m) (A_eq m) (run_main m ρ)

end Cert.Kernel.Hand

end
-- ==== Proof.KIConds.lean ====
import proofs.«152448_g84250078479002_cont_sun_c4_284_34_alg».proof.Proof.Gen.KernelIdeal.Frame
import proofs.«152448_g84250078479002_cont_sun_c4_284_34_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions of the body, decided over the hundred grid points -/

/-- The first branch (the preparation of the transposed first projection) is taken at grid point 0 only. -/
abbrev condPrep (i : grid0.Coords) : Prop := (Scalar.cmpi .ne (Scalar.extui (Scalar.cmpi .eq (BitVec.ofNat 32 (i 0).val) 0#32)) 0#32) = 1#1
theorem condPrep_iff : ∀ t : Fin cfg0.N, condPrep (grid0.coords t) ↔ t.val = 0 :=
  (by decide +kernel : ∀ t : Fin grid0.N, condPrep (grid0.coords t) ↔ t.val = 0)

/-- The second branch (a row block of the first adjacency product) is taken at the points below 50. -/
abbrev condF (i : grid0.Coords) : Prop := k0_cond2 i = 1#1
theorem condF_iff : ∀ t : Fin cfg0.N, condF (grid0.coords t) ↔ t.val < 50 :=
  (by decide +kernel : ∀ t : Fin grid0.N, condF (grid0.coords t) ↔ t.val < 50)

/-- The third branch (a row block of the second adjacency product and its log-softmax) is taken from point 50 on. -/
abbrev condC (i : grid0.Coords) : Prop := k0_cond3 i = 1#1
theorem condC_iff : ∀ t : Fin cfg0.N, condC (grid0.coords t) ↔ 50 ≤ t.val :=
  (by decide +kernel : ∀ t : Fin grid0.N, condC (grid0.coords t) ↔ 50 ≤ t.val)

/-- The grid has a hundred points. -/
theorem N_eq : cfg0.N = 100 := N_0

end Cert.KernelIdeal.Hand

end
-- ==== Proof.KIRunB.lean ====
import proofs.«152448_g84250078479002_cont_sun_c4_284_34_alg».proof.Proof.KIConds
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a point of the first phase after the first (points 1 to 49)

The body loads the adjacency row block and the transposed projection kept in scratch, stores the block of the hidden
embedding whole into its output window, and stores that block's second projection into the rows of the second scratch
that the point owns. -/

set_option maxHeartbeats 1000000 in
/-- The stores of the body at such a point, as pieces (last first), found by running it: those into the hidden
    embedding's window and those into the second scratch, the latter written over the contents `xs1` it was handed. -/
noncomputable def runB (c : Dev nD) (i : grid0.Coords) (arg1 : Memref sig .tc .vmem S2000x256 .f32) (harg1 : arg1.IsWhole) (arg2 : Memref sig .tc .vmem S8000x128 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S200x40 .f32) (harg11 : arg11.IsWhole) (arg12 : Memref sig .tc .vmem S200x64 .f32) (harg12 : arg12.IsWhole) (arg13 : Memref sig .tc .vmem S64x10000 .f32) (harg13 : arg13.IsWhole) (arg14 : Memref sig .tc .vmem S10000x40 .f32) (harg14 : arg14.IsWhole) (hc0 : ¬condPrep i) (hc1 : condF i) (hc2 : ¬condC i)
    (x0 : Vec F S2000x256 .f32) (x1 : Vec F S8000x128 .f32) (x2 : Vec F S128x256 .f32) (x3 : Vec F S128x1 .f32) (x4 : Vec F S128x64 .f32) (x5 : Vec F S1x64 .f32) (x6 : Vec F S64x40 .f32) (x7 : Vec F S1x40 .f32) (x8 : Vec F S200x10000 .f32) (x9 : Vec F S200x10000 .f32) (xs0 : Vec F S64x10000 .f32) (xs1 : Vec F S10000x40 .f32) :
    { LL : List (View.Piece (Elt F) S200x64 .f32) × List (View.Piece (Elt F) S10000x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg12.view.loc (c : Thread nD τ) ↦[arg12.view.set]{fullShare} arg12.view.writes (Elt F) f LL.1) ∗ owns (c : Thread nD τ) arg13 fullShare xs0 ∗ (arg14.view.loc (c : Thread nD τ) ↦[arg14.view.set]{fullShare} arg14.view.writes (Elt F) (harg14.unread xs1) LL.2)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨(?_, ?_), fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hfs0; obtain rfl := harg14.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H11]
    · iexists _; iexact H11
    isplitl [HS0]
    · iexists _; isplitr; · ipureintro; exact harg13.read_unread _
      iexact HS0
    iexact HS1

end Cert.KernelIdeal.Hand

end
-- ==== Proof.KIRunA.lean ====
import proofs.«152448_g84250078479002_cont_sun_c4_284_34_alg».proof.Proof.KIRunB
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the first grid point

Besides what every point of the first phase does, the body first fills the first scratch with the transposed first
projection, in two column ranges (the columns of Y, then the columns of the re-embedded X). -/

set_option maxHeartbeats 1000000 in
/-- The stores of the body at the first point, as pieces (last first), found by running it: into the first scratch
    (which they cover), into the hidden embedding's window, and into the second scratch over the contents `xs1`. -/
noncomputable def runA (c : Dev nD) (i : grid0.Coords) (arg1 : Memref sig .tc .vmem S2000x256 .f32) (harg1 : arg1.IsWhole) (arg2 : Memref sig .tc .vmem S8000x128 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S200x40 .f32) (harg11 : arg11.IsWhole) (arg12 : Memref sig .tc .vmem S200x64 .f32) (harg12 : arg12.IsWhole) (arg13 : Memref sig .tc .vmem S64x10000 .f32) (harg13 : arg13.IsWhole) (arg14 : Memref sig .tc .vmem S10000x40 .f32) (harg14 : arg14.IsWhole) (hc0 : condPrep i) (hc1 : condF i) (hc2 : ¬condC i)
    (x0 : Vec F S2000x256 .f32) (x1 : Vec F S8000x128 .f32) (x2 : Vec F S128x256 .f32) (x3 : Vec F S128x1 .f32) (x4 : Vec F S128x64 .f32) (x5 : Vec F S1x64 .f32) (x6 : Vec F S64x40 .f32) (x7 : Vec F S1x40 .f32) (x8 : Vec F S200x10000 .f32) (x9 : Vec F S200x10000 .f32) (xs1 : Vec F S10000x40 .f32) :
    { LL : List (View.Piece (Elt F) S64x10000 .f32) × List (View.Piece (Elt F) S200x64 .f32) × List (View.Piece (Elt F) S10000x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg12 fullShare d) ∗ (∃ d, owns (c : Thread nD τ) arg13 fullShare d) ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg12.view.loc (c : Thread nD τ) ↦[arg12.view.set]{fullShare} arg12.view.writes (Elt F) f LL.2.1) ∗ (∃ f, arg13.view.loc (c : Thread nD τ) ↦[arg13.view.set]{fullShare} arg13.view.writes (Elt F) f LL.1) ∗ (arg14.view.loc (c : Thread nD τ) ↦[arg14.view.set]{fullShare} arg14.view.writes (Elt F) (harg14.unread xs1) LL.2.2)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨(?_, ?_, ?_), fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H11]
    · iexists _; iexact H11
    isplitl [HS0]
    · iexists _; iexact HS0
    iexact HS1

end Cert.KernelIdeal.Hand

end
-- ==== Proof.KIRunC.lean ====
import proofs.«152448_g84250078479002_cont_sun_c4_284_34_alg».proof.Proof.KIRunA
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a point of the second phase (points 50 to 99)

The body loads the second adjacency's row block and the whole second scratch, and stores the block of log-softmaxed
class scores whole into its output window. It touches neither the hidden embedding's window nor the first scratch. -/

set_option maxHeartbeats 1000000 in
/-- The stores of the body at such a point into the scores' window, as pieces (last first), found by running it. -/
noncomputable def runC (c : Dev nD) (i : grid0.Coords) (arg1 : Memref sig .tc .vmem S2000x256 .f32) (harg1 : arg1.IsWhole) (arg2 : Memref sig .tc .vmem S8000x128 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S200x40 .f32) (harg11 : arg11.IsWhole) (arg12 : Memref sig .tc .vmem S200x64 .f32) (harg12 : arg12.IsWhole) (arg13 : Memref sig .tc .vmem S64x10000 .f32) (harg13 : arg13.IsWhole) (arg14 : Memref sig .tc .vmem S10000x40 .f32) (harg14 : arg14.IsWhole) (hc0 : ¬condPrep i) (hc1 : ¬condF i) (hc2 : condC i)
    (x0 : Vec F S2000x256 .f32) (x1 : Vec F S8000x128 .f32) (x2 : Vec F S128x256 .f32) (x3 : Vec F S128x1 .f32) (x4 : Vec F S128x64 .f32) (x5 : Vec F S1x64 .f32) (x6 : Vec F S64x40 .f32) (x7 : Vec F S1x40 .f32) (x8 : Vec F S200x10000 .f32) (x9 : Vec F S200x10000 .f32) (xs1 : Vec F S10000x40 .f32) :
    { L : List (View.Piece (Elt F) S200x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L) ∗ owns (c : Thread nD τ) arg14 fullShare xs1) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; iexact H10
    iexists _; isplitr; · ipureintro; exact harg14.read_unread _
    iexact HS1

end Cert.KernelIdeal.Hand

end
-- ==== Proof.KIPieces.lean ====
import proofs.«152448_g84250078479002_cont_sun_c4_284_34_alg».proof.Proof.KIRunC
import Idealize.ShloMosaic.Lib.Pipeline.FrameBody
import Idealize.ShloMosaic.Lib.Ring
import Idealize.ShloMosaic.Lib.Pipeline.Value
import Idealize.ShloMosaic.Lib.WritesUnit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body's stores are, case by case

Each store's payload is one of the five pure functions of the loaded blocks; a load of a whole staging buffer reads
its contents; the first scratch, read back whole after its two column-range stores, reads as their overlay. -/

theorem hz2 : (![0, 0] : Fin 2 → Nat) = fun _ => 0 := funext fun a => by fin_cases a <;> rfl

/-- The two stores into the first scratch at the first point: columns 8000 to 9999, then columns 0 to 7999. -/
def s1Pieces (x0 : Vec F S2000x256 .f32) (x1 : Vec F S8000x128 .f32) (x2 : Vec F S128x256 .f32) (x3 : Vec F S128x1 .f32) (x4 : Vec F S128x64 .f32) :
    List (View.Piece (Elt F) S64x10000 .f32) :=
  [⟨Rect.unit (s := S64x10000) ![0, 8000] S64x2000.size inb_S64x10000_S64x2000_0_8000, k0_pay2 x4 x2 x0 x3⟩,
   ⟨Rect.unit (s := S64x10000) ![0, 0] S64x8000.size inb_S64x10000_S64x8000_0_0, k0_pay1 x4 x1⟩]

/-- The two column ranges tile the first scratch. -/
theorem s1Pieces_cover (x0 : Vec F S2000x256 .f32) (x1 : Vec F S8000x128 .f32) (x2 : Vec F S128x256 .f32) (x3 : Vec F S128x1 .f32) (x4 : Vec F S128x64 .f32)
    (y : S64x10000.Idx) : ∃ pc ∈ s1Pieces x0 x1 x2 x3 x4, y ∈ pc.1.set :=
  View.cover_of_tiledBy (s1Pieces x0 x1 x2 x3 x4) ![64, 2000] (by sl_kernel_rfl) y

/-- The transposed first projection: what the first scratch holds once the first point has run. -/
def s1Of (x0 : Vec F S2000x256 .f32) (x1 : Vec F S8000x128 .f32) (x2 : Vec F S128x256 .f32) (x3 : Vec F S128x1 .f32) (x4 : Vec F S128x64 .f32) :
    Vec F S64x10000 .f32 := View.canon (s1Pieces x0 x1 x2 x3 x4)

/-- The stores of a later point of the first phase. -/
theorem runB_pieces (c : Dev nD) (i : grid0.Coords) (arg1 : Memref sig .tc .vmem S2000x256 .f32) (harg1 : arg1.IsWhole) (arg2 : Memref sig .tc .vmem S8000x128 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S200x40 .f32) (harg11 : arg11.IsWhole) (arg12 : Memref sig .tc .vmem S200x64 .f32) (harg12 : arg12.IsWhole) (arg13 : Memref sig .tc .vmem S64x10000 .f32) (harg13 : arg13.IsWhole) (arg14 : Memref sig .tc .vmem S10000x40 .f32) (harg14 : arg14.IsWhole) (hc0 : ¬condPrep i) (hc1 : condF i) (hc2 : ¬condC i)
    (x0 : Vec F S2000x256 .f32) (x1 : Vec F S8000x128 .f32) (x2 : Vec F S128x256 .f32) (x3 : Vec F S128x1 .f32) (x4 : Vec F S128x64 .f32) (x5 : Vec F S1x64 .f32) (x6 : Vec F S64x40 .f32) (x7 : Vec F S1x40 .f32) (x8 : Vec F S200x10000 .f32) (x9 : Vec F S200x10000 .f32) (xs0 : Vec F S64x10000 .f32) (xs1 : Vec F S10000x40 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 x9 xs0 xs1).1
      = ([⟨Rect.unit (s := S200x64) ![0, 0] S200x64.size inb_S200x64_S200x64_0_0, k0_pay3 x8 xs0 x5⟩],
         [⟨Rect.unit (s := S10000x40) (k0_off1 i) S200x40.size (k0_off1_inb i hc1), k0_pay4 x8 xs0 x5 x6⟩]) := by
  unfold runB
  dsimp only
  sl_unfold_words
  simp only [View.readAt_eq_ld, Memref.IsWhole.read_unread, View.ld_unit_zero (S := S200x10000) hz2, View.ld_unit_zero (S := S64x10000) hz2,
    View.ld_unit_zero (S := S1x64) hz2, View.ld_unit_zero (S := S64x40) hz2]

/-- The stores of a point of the second phase. -/
theorem runC_pieces (c : Dev nD) (i : grid0.Coords) (arg1 : Memref sig .tc .vmem S2000x256 .f32) (harg1 : arg1.IsWhole) (arg2 : Memref sig .tc .vmem S8000x128 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S200x40 .f32) (harg11 : arg11.IsWhole) (arg12 : Memref sig .tc .vmem S200x64 .f32) (harg12 : arg12.IsWhole) (arg13 : Memref sig .tc .vmem S64x10000 .f32) (harg13 : arg13.IsWhole) (arg14 : Memref sig .tc .vmem S10000x40 .f32) (harg14 : arg14.IsWhole) (hc0 : ¬condPrep i) (hc1 : ¬condF i) (hc2 : condC i)
    (x0 : Vec F S2000x256 .f32) (x1 : Vec F S8000x128 .f32) (x2 : Vec F S128x256 .f32) (x3 : Vec F S128x1 .f32) (x4 : Vec F S128x64 .f32) (x5 : Vec F S1x64 .f32) (x6 : Vec F S64x40 .f32) (x7 : Vec F S1x40 .f32) (x8 : Vec F S200x10000 .f32) (x9 : Vec F S200x10000 .f32) (xs1 : Vec F S10000x40 .f32) :
    (runC c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 x9 xs1).1
      = [⟨Rect.unit (s := S200x40) ![0, 0] S200x40.size inb_S200x40_S200x40_0_0, k0_pay5 x9 xs1 x7⟩] := by
  unfold runC
  dsimp only
  sl_unfold_words
  simp only [View.readAt_eq_ld, Memref.IsWhole.read_unread, View.ld_unit_zero (S := S200x10000) hz2, View.ld_unit_zero (S := S10000x40) hz2,
    View.ld_unit_zero (S := S1x40) hz2]

/-- The stores of the first point. -/
theorem runA_pieces (c : Dev nD) (i : grid0.Coords) (arg1 : Memref sig .tc .vmem S2000x256 .f32) (harg1 : arg1.IsWhole) (arg2 : Memref sig .tc .vmem S8000x128 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S200x40 .f32) (harg11 : arg11.IsWhole) (arg12 : Memref sig .tc .vmem S200x64 .f32) (harg12 : arg12.IsWhole) (arg13 : Memref sig .tc .vmem S64x10000 .f32) (harg13 : arg13.IsWhole) (arg14 : Memref sig .tc .vmem S10000x40 .f32) (harg14 : arg14.IsWhole) (hc0 : condPrep i) (hc1 : condF i) (hc2 : ¬condC i)
    (x0 : Vec F S2000x256 .f32) (x1 : Vec F S8000x128 .f32) (x2 : Vec F S128x256 .f32) (x3 : Vec F S128x1 .f32) (x4 : Vec F S128x64 .f32) (x5 : Vec F S1x64 .f32) (x6 : Vec F S64x40 .f32) (x7 : Vec F S1x40 .f32) (x8 : Vec F S200x10000 .f32) (x9 : Vec F S200x10000 .f32) (xs1 : Vec F S10000x40 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 x9 xs1).1
      = (s1Pieces x0 x1 x2 x3 x4,
         [⟨Rect.unit (s := S200x64) ![0, 0] S200x64.size inb_S200x64_S200x64_0_0, k0_pay3 x8 (s1Of x0 x1 x2 x3 x4) x5⟩],
         [⟨Rect.unit (s := S10000x40) (k0_off1 i) S200x40.size (k0_off1_inb i hc1), k0_pay4 x8 (s1Of x0 x1 x2 x3 x4) x5 x6⟩]) := by
  have hcov : arg13.view.readCov (s1Pieces x0 x1 x2 x3 x4) (Rect.unit (s := S64x10000) ![0, 0] S64x10000.size inb_S64x10000_S64x10000_0_0).toLoadRect
      = s1Of x0 x1 x2 x3 x4 := by
    rw [View.readCov_eq_canon_ld _ _ _ (s1Pieces_cover x0 x1 x2 x3 x4), View.ld_unit_zero (S := S64x10000) hz2]; rfl
  unfold runA
  dsimp only
  sl_unfold_words
  simp only [View.readAt_eq_ld, Memref.IsWhole.read_unread, View.ld_unit_zero (S := S200x10000) hz2, View.ld_unit_zero (S := S2000x256) hz2,
    View.ld_unit_zero (S := S8000x128) hz2, View.ld_unit_zero (S := S128x256) hz2, View.ld_unit_zero (S := S128x1) hz2, View.ld_unit_zero (S := S128x64) hz2,
    View.ld_unit_zero (S := S1x64) hz2, View.ld_unit_zero (S := S64x40) hz2]
  rw [← hcov]
  rfl

end Cert.KernelIdeal.Hand

end
-- ==== Proof.KIFacts.lean ====
import proofs.«152448_g84250078479002_cont_sun_c4_284_34_alg».proof.Proof.KIRunC
import Idealize.ShloMosaic.Lib.Pipeline.FrameBody
import Idealize.ShloMosaic.Lib.Ring
import Idealize.ShloMosaic.Lib.Pipeline.Value
import Idealize.ShloMosaic.Lib.WritesUnit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule: staging memrefs, the scratch buffers, and where the two output windows are idle or written back -/

/-- Each window's current staging memref at a grid point, as the pipeline hands it to the body. -/
abbrev stg0 (t : Fin cfg0.N) : Memref sig .tc .vmem S2000x256 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S8000x128 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S128x256 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S128x1 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S128x64 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1x64 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S64x40 .f32 := win0_6.stage (cfg0.slots t 6)
abbrev hstg6 (t : Fin cfg0.N) : (stg6 t).IsWhole := hstage0_6 ((cfg0.slots t 6).cast nbuf0_6)
abbrev stg7 (t : Fin cfg0.N) : Memref sig .tc .vmem S1x40 .f32 := win0_7.stage (cfg0.slots t 7)
abbrev hstg7 (t : Fin cfg0.N) : (stg7 t).IsWhole := hstage0_7 ((cfg0.slots t 7).cast nbuf0_7)
abbrev stg8 (t : Fin cfg0.N) : Memref sig .tc .vmem S200x10000 .f32 := win0_8.stage (cfg0.slots t 8)
abbrev hstg8 (t : Fin cfg0.N) : (stg8 t).IsWhole := hstage0_8 ((cfg0.slots t 8).cast nbuf0_8)
abbrev stg9 (t : Fin cfg0.N) : Memref sig .tc .vmem S200x10000 .f32 := win0_9.stage (cfg0.slots t 9)
abbrev hstg9 (t : Fin cfg0.N) : (stg9 t).IsWhole := hstage0_9 ((cfg0.slots t 9).cast nbuf0_9)
abbrev stg10 (t : Fin cfg0.N) : Memref sig .tc .vmem S200x40 .f32 := win0_10.stage (cfg0.slots t 10)
abbrev hstg10 (t : Fin cfg0.N) : (stg10 t).IsWhole := hstage0_10 ((cfg0.slots t 10).cast nbuf0_10)
abbrev stg11 (t : Fin cfg0.N) : Memref sig .tc .vmem S200x64 .f32 := win0_11.stage (cfg0.slots t 11)
abbrev hstg11 (t : Fin cfg0.N) : (stg11 t).IsWhole := hstage0_11 ((cfg0.slots t 11).cast nbuf0_11)

/-- The two scratch buffers: the transposed first projection, and the second projection. -/
abbrev scrS1 : Memref sig .tc .vmem S64x10000 .f32 := Memref.whole cc0_scratch0
abbrev scrS2 : Memref sig .tc .vmem S10000x40 .f32 := Memref.whole cc0_scratch1
theorem hscrS2 : scrS2.IsWhole := Memref.isWhole_whole _

/-- What the launch hands the region: both scratch buffers at some contents and the generator register at some state. -/
theorem PhiA_eq (c : Dev nD) :
    (Pipeline.ΦA spec0 c : sProp 𝕄)
      = iprop(iprop((∃ d, owns (c : Thread nD τ) scrS1 fullShare d) ∗ (∃ d, owns (c : Thread nD τ) scrS2 fullShare d)) ∗ (∃ r, prngReg c r)) := by
  unfold Pipeline.ΦA; rw [scopedRest0_eq]; simp only [scrS1, scrS2, owns_whole]; try rfl

/-- No input window is ever idle. -/
theorem live_in : ∀ (w : Fin 12), w.val < 10 → ∀ t : Fin cfg0.N, cfg0.idle w (grid0.coords t) = false := by decide +kernel

/-- The scores' window is idle during the first phase, and written back at every point of the second. -/
theorem idle10_iff : ∀ t : Fin cfg0.N, cfg0.idle 10 (grid0.coords t) = true ↔ t.val < 50 :=
  (by decide +kernel : ∀ t : Fin grid0.N, cfg0.idle 10 (grid0.coords t) = true ↔ t.val < 50)
theorem flush10_iff : ∀ t : Fin cfg0.N, (cfg0.win 10).flush t = true ↔ 50 ≤ t.val :=
  (by decide +kernel : ∀ t : Fin grid0.N, win0_10.flush t = true ↔ 50 ≤ t.val)

/-- The hidden embedding's window is idle during the second phase; it is written back at every point whose successor
    moves its block index (the points below 49) and, once more, at the last point. -/
theorem idle11_iff : ∀ t : Fin cfg0.N, cfg0.idle 11 (grid0.coords t) = true ↔ 50 ≤ t.val :=
  (by decide +kernel : ∀ t : Fin grid0.N, cfg0.idle 11 (grid0.coords t) = true ↔ 50 ≤ t.val)
theorem flush11_iff : ∀ t : Fin cfg0.N, (cfg0.win 11).flush t = true ↔ (t.val < 49 ∨ t.val = 99) :=
  (by decide +kernel : ∀ t : Fin grid0.N, win0_11.flush t = true ↔ (t.val < 49 ∨ t.val = 99))

/-- The rows of the second scratch a point of the first phase stores into start at two hundred times the point. -/
theorem off_eq0 : ∀ t : Fin cfg0.N, t.val < 50 → k0_off1 (grid0.coords t) 0 = 200 * t.val ∧ k0_off1 (grid0.coords t) 1 = 0 :=
  (by decide +kernel : ∀ t : Fin grid0.N, t.val < 50 → k0_off1 (grid0.coords t) 0 = 200 * t.val ∧ k0_off1 (grid0.coords t) 1 = 0)
theorem off_eq (t : Fin cfg0.N) (h : t.val < 50) : k0_off1 (grid0.coords t) = ![200 * t.val, 0] := by
  obtain ⟨h0, h1⟩ := off_eq0 t h
  funext a
  match a with
  | ⟨0, _⟩ => exact h0
  | ⟨1, _⟩ => exact h1

end Cert.KernelIdeal.Hand

end
-- ==== Proof.KIData.lean ====
import proofs.«152448_g84250078479002_cont_sun_c4_284_34_alg».proof.Proof.KIPieces
import proofs.«152448_g84250078479002_cont_sun_c4_284_34_alg».proof.Proof.KIFacts
import Idealize.ShloMosaic.Lib.Pipeline.FrameBody
import Idealize.ShloMosaic.Lib.Ring
import Idealize.ShloMosaic.Lib.Pipeline.Value
import Idealize.ShloMosaic.Lib.WritesUnit
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers and the output windows hold, point by point -/

/-- Grid point number `n`. -/
abbrev pt (n : ℕ) (h : n < 100) : Fin cfg0.N := ⟨n, lt_of_lt_of_eq h N_eq.symm⟩

/-- The transposed first projection, from the blocks the first point loads. -/
def s1T (c : Dev nD) : Vec F S64x10000 .f32 :=
  s1Of (iblk m c 0 (pt 0 (by omega))) (iblk m c 1 (pt 0 (by omega))) (iblk m c 2 (pt 0 (by omega))) (iblk m c 3 (pt 0 (by omega))) (iblk m c 4 (pt 0 (by omega)))

/-- The block of the hidden embedding a point of the first phase computes. -/
def yembBlk (c : Dev nD) (t : Fin cfg0.N) : Vec F S200x64 .f32 := k0_pay3 (iblk m c 8 t) (s1T m c) (iblk m c 5 t)

/-- and that block's second projection, the rows of the second scratch the point owns. -/
def s2Blk (c : Dev nD) (t : Fin cfg0.N) : Vec F S200x40 .f32 := k0_pay4 (iblk m c 8 t) (s1T m c) (iblk m c 5 t) (iblk m c 6 t)

/-- The second projection whole: row `r` is row `r % 200` of the block of point `r / 200`. -/
def s2Full (c : Dev nD) : Vec F S10000x40 .f32 := fun y =>
  s2Blk m c (pt ((y 0).val / 200) (by have h : (y 0).val < 10000 := (y 0).isLt; omega))
    (ValueIdx.ix2 (⟨(y 0).val % 200, Nat.mod_lt _ (by omega)⟩ : Fin 200) (⟨(y 1).val, (y 1).isLt⟩ : Fin 40))

/-- The second scratch after `k` points of the first phase, over what it held before: its first `200 k` rows filled. -/
def s2Part (c : Dev nD) (k : ℕ) (d : Vec F S10000x40 .f32) : Vec F S10000x40 .f32 := fun y =>
  if (y 0).val < 200 * k then s2Full m c y else d y

theorem s2Part_zero (c : Dev nD) (d : Vec F S10000x40 .f32) : s2Part m c 0 d = d := by
  funext y; unfold s2Part; rw [if_neg (by omega)]

theorem s2Part_full (c : Dev nD) (k : ℕ) (hk : 50 ≤ k) (d : Vec F S10000x40 .f32) : s2Part m c k d = s2Full m c := by
  funext y; unfold s2Part; have h : (y 0).val < 10000 := (y 0).isLt; rw [if_pos (by omega)]

/-- One point of the first phase extends the filled rows by its own two hundred. -/
theorem s2Part_step (c : Dev nD) (t : Fin cfg0.N) (ht : t.val < 50) (d : Vec F S10000x40 .f32)
    (inb : ∀ a, k0_off1 (grid0.coords t) a + S200x40.size a ≤ S10000x40.size a) :
    scrS2.view.read (Elt F) (scrS2.view.writes (Elt F) (hscrS2.unread (s2Part m c t.val d))
      [⟨Rect.unit (s := S10000x40) (k0_off1 (grid0.coords t)) S200x40.size inb, s2Blk m c t⟩])
      = s2Part m c (t.val + 1) d := by
  funext y
  have hy : (y 0).val < 10000 := (y 0).isLt
  rw [View.read_writes_cons_rows (o := 200 * t.val) (W := 200) scrS2.view _ inb (s2Blk m c t) [] y (off_eq t ht) rfl rfl]
  split
  · rename_i h
    unfold s2Part s2Full
    rw [if_pos (by omega)]
    have e : pt ((y 0).val / 200) (by omega) = t := Fin.ext (by show (y 0).val / 200 = t.val; omega)
    rw [e]
    refine congrArg (s2Blk m c t) (funext fun a => Fin.ext ?_)
    match a with
    | ⟨0, _⟩ => show (y 0).val - 200 * t.val = (y 0).val % 200; omega
    | ⟨1, _⟩ => show (y 1).val - 0 = (y 1).val; omega
  · rename_i h
    rw [View.writes_nil, hscrS2.read_unread]
    unfold s2Part
    by_cases h1 : (y 0).val < 200 * t.val
    · rw [if_pos h1, if_pos (by omega)]
    · rw [if_neg h1, if_neg (by omega)]

/-- The block of log-softmaxed class scores a point of the second phase computes. -/
def outBlk (c : Dev nD) (t : Fin cfg0.N) : Vec F S200x40 .f32 := k0_pay5 (iblk m c 9 t) (s2Full m c) (iblk m c 7 t)

/-- The region's invariant before point `n`: what the launch hands over before the first point; afterwards the first
    scratch at the transposed first projection, the second scratch with the rows of the points run so far filled,
    and the generator register at some state. -/
def Phi (c : Dev nD) : ℕ → sProp 𝕄
  | 0 => Pipeline.ΦA spec0 c
  | n + 1 => iprop(iprop(owns (c : Thread nD τ) scrS1 fullShare (s1T m c) ∗ (∃ d, owns (c : Thread nD τ) scrS2 fullShare (s2Part m c (n + 1) d))) ∗ (∃ r, prngReg c r))

theorem Phi_succ (c : Dev nD) (n : ℕ) :
    Phi m c (n + 1) = iprop(iprop(owns (c : Thread nD τ) scrS1 fullShare (s1T m c) ∗ (∃ d, owns (c : Thread nD τ) scrS2 fullShare (s2Part m c (n + 1) d))) ∗ (∃ r, prngReg c r)) := rfl

theorem Phi_pos (c : Dev nD) (n : ℕ) (hn : n ≠ 0) :
    Phi m c n = iprop(iprop(owns (c : Thread nD τ) scrS1 fullShare (s1T m c) ∗ (∃ d, owns (c : Thread nD τ) scrS2 fullShare (s2Part m c n d))) ∗ (∃ r, prngReg c r)) := by
  cases n with
  | zero => exact absurd rfl hn
  | succ n => rfl

/-- The proof data of the pipeline on core `c`: each input's buffer at its block; the scores' window at the point's block
    of scores; the hidden embedding's window at the block of the point, and from point 49 on at the block of point 49,
    which it keeps to the end. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk m c t
    | ⟨11, _⟩ => yembBlk m c (pt (min t.val 49) (by omega))
  Φ t := Phi m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_out10 (c : Dev nD) (t : Fin cfg0.N) : (dats m 0 c).after 10 t = outBlk m c t := by dsimp only [dats]
theorem after_out11 (c : Dev nD) (t : Fin cfg0.N) : (dats m 0 c).after 11 t = yembBlk m c (pt (min t.val 49) (by omega)) := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d
theorem before_in6 (c : Dev nD) (t : Fin cfg0.N) (d) : (dats m 0 c).before 6 t d = iblk m c 6 t :=
  before0_6_of m (dats m 0 c) (A_eq m c 6) (after_in6 m c) t d
theorem before_in7 (c : Dev nD) (t : Fin cfg0.N) (d) : (dats m 0 c).before 7 t d = iblk m c 7 t :=
  before0_7_of m (dats m 0 c) (A_eq m c 7) (after_in7 m c) t d
theorem before_in8 (c : Dev nD) (t : Fin cfg0.N) (d) : (dats m 0 c).before 8 t d = iblk m c 8 t :=
  before0_8_of m (dats m 0 c) (A_eq m c 8) (after_in8 m c) t d
theorem before_in9 (c : Dev nD) (t : Fin cfg0.N) (d) : (dats m 0 c).before 9 t d = iblk m c 9 t :=
  before0_9_of m (dats m 0 c) (A_eq m c 9) (after_in9 m c) t d

end Cert.KernelIdeal.Hand

end
-- ==== Proof.KIBefore.lean ====
import proofs.«152448_g84250078479002_cont_sun_c4_284_34_alg».proof.Proof.KIData
import Idealize.ShloMosaic.Lib.Pipeline.FrameBody
import Idealize.ShloMosaic.Lib.Ring
import Idealize.ShloMosaic.Lib.Pipeline.Value
import Idealize.ShloMosaic.Lib.WritesUnit
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The hidden embedding's window through the second phase

Its block index stops moving at point 49, so point 49 does not write it back; every later point is idle for it and
none but the last writes it back: the buffer keeps what point 49 left. -/

theorem after11_late (c : Dev nD) (t : Fin cfg0.N) (ht : 49 ≤ t.val) :
    (dats m 0 c).after 11 t = yembBlk m c (pt 49 (by omega)) := by
  rw [after_out11]
  exact congrArg (yembBlk m c) (Fin.ext (by show min t.val 49 = 49; omega))

theorem before11_aux (c : Dev nD) (d) : ∀ (k : ℕ) (t : Fin cfg0.N), t.val = 50 + k →
    (dats m 0 c).before 11 t d = yembBlk m c (pt 49 (by omega))
  | 0, t, ht => by
    have hN : t.val < 100 := lt_of_lt_of_eq t.isLt N_eq
    rw [(dats m 0 c).before_of_pos 11 t (by omega) ((cfg0.win 11).fetch_out rfl t)]
    have hfl : (cfg0.win 11).flush ⟨t.val - 1, Nat.lt_of_le_of_lt (Nat.sub_le _ _) t.isLt⟩ = false :=
      Bool.eq_false_iff.mpr fun h => by have := (flush11_iff _).mp h; dsimp only at this; omega
    rw [hfl, if_neg Bool.false_ne_true]
    unfold Dat.left
    have hidle : cfg0.idle 11 (cfg0.grid.coords ⟨t.val - 1, Nat.lt_of_le_of_lt (Nat.sub_le _ _) t.isLt⟩) = false :=
      Bool.eq_false_iff.mpr fun h => by have := (idle11_iff _).mp h; dsimp only at this; omega
    rw [hidle]
    unfold Dat.kept
    rw [Pipeline.fill_of_clip_none (cfg := cfg0) 11 _ (fun _ => rfl) d ((dats m 0 c).after 11 _), Window.fill_cut]
    exact after11_late m c ⟨t.val - 1, Nat.lt_of_le_of_lt (Nat.sub_le _ _) t.isLt⟩ (by show 49 ≤ t.val - 1; omega)
  | k + 1, t, ht => by
    have hN : t.val < 100 := lt_of_lt_of_eq t.isLt N_eq
    rw [(dats m 0 c).before_of_pos 11 t (by omega) ((cfg0.win 11).fetch_out rfl t)]
    have hfl : (cfg0.win 11).flush ⟨t.val - 1, Nat.lt_of_le_of_lt (Nat.sub_le _ _) t.isLt⟩ = false :=
      Bool.eq_false_iff.mpr fun h => by have := (flush11_iff _).mp h; dsimp only at this; omega
    rw [hfl, if_neg Bool.false_ne_true]
    unfold Dat.left
    have hidle : cfg0.idle 11 (cfg0.grid.coords ⟨t.val - 1, Nat.lt_of_le_of_lt (Nat.sub_le _ _) t.isLt⟩) = true :=
      (idle11_iff _).mpr (by show 50 ≤ t.val - 1; omega)
    rw [hidle]
    exact before11_aux c d k ⟨t.val - 1, Nat.lt_of_le_of_lt (Nat.sub_le _ _) t.isLt⟩ (by show t.val - 1 = 50 + k; omega)

/-- At a point of the second phase the window's buffer holds the block of point 49: what the proof data says it
    leaves there. -/
theorem before11_late (c : Dev nD) (t : Fin cfg0.N) (ht : 50 ≤ t.val) (d) :
    (dats m 0 c).before 11 t d = (dats m 0 c).after 11 t :=
  (before11_aux m c d (t.val - 50) t (by omega)).trans (after11_late m c t (by omega)).symm

end Cert.KernelIdeal.Hand

end
-- ==== Proof.KIBody.lean ====
import proofs.«152448_g84250078479002_cont_sun_c4_284_34_alg».proof.Proof.KIBefore
import Idealize.ShloMosaic.Lib.Pipeline.FrameBody
import Idealize.ShloMosaic.Lib.Ring
import Idealize.ShloMosaic.Lib.Pipeline.Value
import Idealize.ShloMosaic.Lib.WritesUnit
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation at a generic grid point, the run of the region, and the frame -/

/-- What the body is called with at point `t`: the invariant, what the core owes, and every window's current buffer. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- At the first point the blocks the body loads give the transposed first projection. -/
theorem s1T_eq (c : Dev nD) (t : Fin cfg0.N) (h0 : t.val = 0) :
    s1Of (iblk m c 0 t) (iblk m c 1 t) (iblk m c 2 t) (iblk m c 3 t) (iblk m c 4 t) = s1T m c := by
  obtain ⟨n, hn⟩ := t
  cases n with
  | zero => rfl
  | succ k => exact absurd h0 (Nat.succ_ne_zero k)

/-- Before the first point no row of the second scratch is filled. -/
theorem s2Part_at0 (c : Dev nD) (t : Fin cfg0.N) (h0 : t.val = 0) (d : Vec F S10000x40 .f32) : s2Part m c t.val d = d := by
  rw [h0]; exact s2Part_zero m c d

set_option maxHeartbeats 4000000 in
/-- The body at any point. In the first phase the scores' window is idle and handed back as found; the first point
    fills the first scratch, every point of the phase stores its block of the hidden embedding and extends the filled
    rows of the second scratch. In the second phase the hidden embedding's window is idle: handed back as found, which
    at the last point, where it is written back once more, is the block point 49 left in it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9]
  rw [show (dats m 0 c).owesAt () t.succ = (dats m 0 c).owesAt () t.castSucc from rfl]
  rw [show (dats m 0 c).Φ t.succ = Phi m c (t.val + 1) from rfl, Phi_succ,
    show (dats m 0 c).Φ t.castSucc = Phi m c t.val from rfl]
  rw [show (dats m 0 c).leavesExact 0 t = owns (c : Thread nD τ) (stg0 t) fullShare ((dats m 0 c).after 0 t) from by
    unfold Dat.leavesExact; rw [live_in 0 (by decide) t], after_in0]
  rw [show (dats m 0 c).leavesExact 1 t = owns (c : Thread nD τ) (stg1 t) fullShare ((dats m 0 c).after 1 t) from by
    unfold Dat.leavesExact; rw [live_in 1 (by decide) t], after_in1]
  rw [show (dats m 0 c).leavesExact 2 t = owns (c : Thread nD τ) (stg2 t) fullShare ((dats m 0 c).after 2 t) from by
    unfold Dat.leavesExact; rw [live_in 2 (by decide) t], after_in2]
  rw [show (dats m 0 c).leavesExact 3 t = owns (c : Thread nD τ) (stg3 t) fullShare ((dats m 0 c).after 3 t) from by
    unfold Dat.leavesExact; rw [live_in 3 (by decide) t], after_in3]
  rw [show (dats m 0 c).leavesExact 4 t = owns (c : Thread nD τ) (stg4 t) fullShare ((dats m 0 c).after 4 t) from by
    unfold Dat.leavesExact; rw [live_in 4 (by decide) t], after_in4]
  rw [show (dats m 0 c).leavesExact 5 t = owns (c : Thread nD τ) (stg5 t) fullShare ((dats m 0 c).after 5 t) from by
    unfold Dat.leavesExact; rw [live_in 5 (by decide) t], after_in5]
  rw [show (dats m 0 c).leavesExact 6 t = owns (c : Thread nD τ) (stg6 t) fullShare ((dats m 0 c).after 6 t) from by
    unfold Dat.leavesExact; rw [live_in 6 (by decide) t], after_in6]
  rw [show (dats m 0 c).leavesExact 7 t = owns (c : Thread nD τ) (stg7 t) fullShare ((dats m 0 c).after 7 t) from by
    unfold Dat.leavesExact; rw [live_in 7 (by decide) t], after_in7]
  rw [show (dats m 0 c).leavesExact 8 t = owns (c : Thread nD τ) (stg8 t) fullShare ((dats m 0 c).after 8 t) from by
    unfold Dat.leavesExact; rw [live_in 8 (by decide) t], after_in8]
  rw [show (dats m 0 c).leavesExact 9 t = owns (c : Thread nD τ) (stg9 t) fullShare ((dats m 0 c).after 9 t) from by
    unfold Dat.leavesExact; rw [live_in 9 (by decide) t], after_in9]
  have hN : t.val < 100 := lt_of_lt_of_eq t.isLt N_eq
  by_cases h1 : t.val < 50
  · have hi10 : cfg0.idle 10 (grid0.coords t) = true := (idle10_iff t).mpr h1
    have hf10 : (cfg0.win 10).flush t = false := Bool.eq_false_iff.mpr fun h => by have := (flush10_iff t).mp h; omega
    have hi11 : cfg0.idle 11 (grid0.coords t) = false := Bool.eq_false_iff.mpr fun h => by have := (idle11_iff t).mp h; omega
    rw [(dats m 0 c).leavesExact_idle 10 t hi10 hf10]
    rw [show (dats m 0 c).leavesExact 11 t = owns (c : Thread nD τ) (stg11 t) fullShare ((dats m 0 c).after 11 t) from by
      unfold Dat.leavesExact; rw [hi11], after_out11]
    rw [show pt (min t.val 49) (by omega) = t from Fin.ext (by show min t.val 49 = t.val; omega)]
    by_cases h0 : t.val = 0
    · rw [show Phi m c t.val = Pipeline.ΦA spec0 c from by rw [h0]; rfl, PhiA_eq]
      iintro ⟨⟨⟨⟨%d0, HS0⟩, ⟨%d1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, H10, ⟨%e11, H11⟩⟩
      have hrun := fun K => (runA c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) (stg11 t) (hstg11 t) scrS1 (Memref.isWhole_whole _) scrS2 hscrS2 ((condPrep_iff t).mpr h0) ((condF_iff t).mpr h1) (fun h => by have := (condC_iff t).mp h; omega) (iblk m c 0 t) (iblk m c 1 t) (iblk m c 2 t) (iblk m c 3 t) (iblk m c 4 t) (iblk m c 5 t) (iblk m c 6 t) (iblk m c 7 t) (iblk m c 8 t) (iblk m c 9 t) d1).2 Set.univ K
      simp only [runA_pieces] at hrun
      rw [s1T_eq m c t h0] at hrun
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexists _; iexact H11
      isplitl [HS0]; · iexists _; iexact HS0
      isplitl [HS1]; · iexact HS1
      iintro ⟨H0, H1, H2, H3, H4, H5, H6, H7, H8, H9, ⟨%f12, H11⟩, ⟨%f13, HS0⟩, HS1⟩
      isplitl [HS0 HS1 Hg]
      · isplitl [HS0 HS1]
        · isplitl [HS0]
          · unfold owns; iexists _; isplitr
            swap; · iexact HS0
            ipureintro
            exact (View.read_writes_eq_canon _ _ _ (s1Pieces_cover _ _ _ _ _)).trans (s1T_eq m c t h0)
          · iexists d1
            unfold owns; iexists _; isplitr
            swap; · iexact HS1
            ipureintro
            have hs := s2Part_step m c t h1 d1 (k0_off1_inb _ ((condF_iff t).mpr h1))
            rw [s2Part_at0 m c t h0 d1] at hs
            exact hs
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro
      exact (View.read_writes_eq_canon _ _ _ (fun y => ⟨_, List.mem_singleton_self _, View.mem_set_unit_zero hz2 inb_S200x64_S200x64_0_0 y⟩)).trans (View.canon_unit_zero hz2 inb_S200x64_S200x64_0_0 _)
    · rw [Phi_pos m c t.val h0]
      iintro ⟨⟨⟨HS0, ⟨%d1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, H10, ⟨%e11, H11⟩⟩
      have hrun := fun K => (runB c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) (stg11 t) (hstg11 t) scrS1 (Memref.isWhole_whole _) scrS2 hscrS2 (fun h => h0 ((condPrep_iff t).mp h)) ((condF_iff t).mpr h1) (fun h => by have := (condC_iff t).mp h; omega) (iblk m c 0 t) (iblk m c 1 t) (iblk m c 2 t) (iblk m c 3 t) (iblk m c 4 t) (iblk m c 5 t) (iblk m c 6 t) (iblk m c 7 t) (iblk m c 8 t) (iblk m c 9 t) (s1T m c) (s2Part m c t.val d1)).2 Set.univ K
      simp only [runB_pieces] at hrun
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexists _; iexact H11
      isplitl [HS0]; · iexact HS0
      isplitl [HS1]; · iexact HS1
      iintro ⟨H0, H1, H2, H3, H4, H5, H6, H7, H8, H9, ⟨%f12, H11⟩, HS0, HS1⟩
      isplitl [HS0 HS1 Hg]
      · isplitl [HS0 HS1]
        · isplitl [HS0]
          · iexact HS0
          · iexists d1
            unfold owns; iexists _; isplitr
            swap; · iexact HS1
            ipureintro
            exact s2Part_step m c t h1 d1 (k0_off1_inb _ ((condF_iff t).mpr h1))
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro
      exact (View.read_writes_eq_canon _ _ _ (fun y => ⟨_, List.mem_singleton_self _, View.mem_set_unit_zero hz2 inb_S200x64_S200x64_0_0 y⟩)).trans (View.canon_unit_zero hz2 inb_S200x64_S200x64_0_0 _)
  · have h0 : t.val ≠ 0 := by omega
    have hi10 : cfg0.idle 10 (grid0.coords t) = false := Bool.eq_false_iff.mpr fun h => by have := (idle10_iff t).mp h; omega
    have hi11 : cfg0.idle 11 (grid0.coords t) = true := (idle11_iff t).mpr (by omega)
    rw [show (dats m 0 c).leavesExact 10 t = owns (c : Thread nD τ) (stg10 t) fullShare ((dats m 0 c).after 10 t) from by
      unfold Dat.leavesExact; rw [hi10], after_out10]
    rw [Phi_pos m c t.val h0]
    simp only [s2Part_full m c t.val (by omega), s2Part_full m c (t.val + 1) (by omega)]
    have hrun := fun K => (runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) (stg11 t) (hstg11 t) scrS1 (Memref.isWhole_whole _) scrS2 hscrS2 (fun h => h0 ((condPrep_iff t).mp h)) (fun h => h1 ((condF_iff t).mp h)) ((condC_iff t).mpr (by omega)) (iblk m c 0 t) (iblk m c 1 t) (iblk m c 2 t) (iblk m c 3 t) (iblk m c 4 t) (iblk m c 5 t) (iblk m c 6 t) (iblk m c 7 t) (iblk m c 8 t) (iblk m c 9 t) (s2Full m c)).2 Set.univ K
    simp only [runC_pieces] at hrun
    by_cases h99 : t.val = 99
    · have hf11 : (cfg0.win 11).flush t = true := (flush11_iff t).mpr (Or.inr h99)
      rw [show (dats m 0 c).leavesExact 11 t = owns (c : Thread nD τ) (stg11 t) fullShare ((dats m 0 c).after 11 t) from by
        unfold Dat.leavesExact; rw [hi11, hf11]]
      iintro ⟨⟨⟨HS0, ⟨%d1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
      rw [before11_late m c t (by omega) e11]
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS1]; · iexact HS1
      iintro ⟨H0, H1, H2, H3, H4, H5, H6, H7, H8, H9, ⟨%f10, H10⟩, HS1⟩
      isplitl [HS0 HS1 Hg]
      · isplitl [HS0 HS1]
        · isplitl [HS0]
          · iexact HS0
          · iexists d1; iexact HS1
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro
        exact (View.read_writes_eq_canon _ _ _ (fun y => ⟨_, List.mem_singleton_self _, View.mem_set_unit_zero hz2 inb_S200x40_S200x40_0_0 y⟩)).trans (View.canon_unit_zero hz2 inb_S200x40_S200x40_0_0 _)
      iexact H11
    · have hf11 : (cfg0.win 11).flush t = false := Bool.eq_false_iff.mpr fun h => by have := (flush11_iff t).mp h; omega
      rw [(dats m 0 c).leavesExact_idle 11 t hi11 hf11]
      iintro ⟨⟨⟨HS0, ⟨%d1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, H11⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS1]; · iexact HS1
      iintro ⟨H0, H1, H2, H3, H4, H5, H6, H7, H8, H9, ⟨%f10, H10⟩, HS1⟩
      isplitl [HS0 HS1 Hg]
      · isplitl [HS0 HS1]
        · isplitl [HS0]
          · iexact HS0
          · iexists d1; iexact HS1
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro
        exact (View.read_writes_eq_canon _ _ _ (fun y => ⟨_, List.mem_singleton_self _, View.mem_set_unit_zero hz2 inb_S200x40_S200x40_0_0 y⟩)).trans (View.canon_unit_zero hz2 inb_S200x40_S200x40_0_0 _)
      iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := Idealize.SL.BI.Entails.refl _

/-- After the last point the invariant gives back what the launch handed over: the scratch contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 100 := N_eq; omega), PhiA_eq]
  iintro ⟨⟨HS0, ⟨%d, HS1⟩⟩, Hg⟩
  isplitl [HS0 HS1]
  · isplitl [HS0]
    · iexists _; iexact HS0
    iexists _; iexact HS1
  iexact Hg

set_option backward.isDefEq.respectTransparency.types false in
/-- Every weakly fair execution of @main terminates, with every array of the pipeline at what the proof data's
    write-backs make of it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  frame_of m ρ (dats m) (A_eq m) (run_main m ρ)

end Cert.KernelIdeal.Hand

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.KIBlocks.lean ====
/-
  The windows' blocks at a grid point, read off the argument arrays.

  Of the ten input windows of the one grid of 100 points, five hold a whole argument array at every point (their block
  index is constantly zero and the block is the array); three hold a bias vector that the host first recast as a
  column or a row (the recast preserves row-major position, so the block's entry is the vector's); and the two
  adjacency matrices are staged in blocks of 200 rows, the first at block index min (t, 49), the second at
  max (t − 50, 0): a block's row p is row 200 · index + p of the matrix.
-/
import proofs.«152448_g84250078479002_cont_sun_c4_284_34_alg».proof.Proof.Gen.KernelIdeal.Frame
import proofs.«152448_g84250078479002_cont_sun_c4_284_34_alg».proof.Proof.LibColumnLayout
import Idealize.ShloMosaic.Lib.ValueIdx
import Idealize.ShloMosaic.Lib.ValueLayout
import Idealize.ShloMosaic.Lib.Pipeline.Value

set_option maxRecDepth 16384

noncomputable section

namespace Cert.KernelIdeal.Blocks

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-! ## The windows that hold a whole argument array -/

/-- The block index of window 0 is zero at every point. -/
theorem idx0 : ∀ t : Fin cfg0.N, win0_0.index t = ![0, 0] :=
  (by decide +kernel : ∀ t : Fin grid0.N, win0_0.index t = ![0, 0])

/-- Window 0's block at any point is the whole first argument array. -/
theorem blk0 (c : Dev nD) (t : Fin cfg0.N) :
    (iblk m c 0 t : S2000x256.Idx → Elt F .f32) = m ((c : Thread nD τ).loc main_arg0) := by
  rw [← V_main_arg0 m c]
  unfold iblk
  funext j
  show V m c main_arg0 (((cfg0.win 0).blk t).view.emb j) = V m c main_arg0 j
  congr 1
  funext a; apply Fin.ext
  match a with
  | ⟨0, _⟩ =>
    show win0_0.index t (0 : Fin 2) * 2000 + 1 * (j 0).val = (j 0).val
    rw [idx0 t]; show 0 * 2000 + 1 * (j 0).val = (j 0).val; omega
  | ⟨1, _⟩ =>
    show win0_0.index t (1 : Fin 2) * 256 + 1 * (j 1).val = (j 1).val
    rw [idx0 t]; show 0 * 256 + 1 * (j 1).val = (j 1).val; omega

/-- The block index of window 1 is zero at every point. -/
theorem idx1 : ∀ t : Fin cfg0.N, win0_1.index t = ![0, 0] :=
  (by decide +kernel : ∀ t : Fin grid0.N, win0_1.index t = ![0, 0])

/-- Window 1's block at any point is the whole second argument array. -/
theorem blk1 (c : Dev nD) (t : Fin cfg0.N) :
    (iblk m c 1 t : S8000x128.Idx → Elt F .f32) = m ((c : Thread nD τ).loc main_arg1) := by
  rw [← V_main_arg1 m c]
  unfold iblk
  funext j
  show V m c main_arg1 (((cfg0.win 1).blk t).view.emb j) = V m c main_arg1 j
  congr 1
  funext a; apply Fin.ext
  match a with
  | ⟨0, _⟩ =>
    show win0_1.index t (0 : Fin 2) * 8000 + 1 * (j 0).val = (j 0).val
    rw [idx1 t]; show 0 * 8000 + 1 * (j 0).val = (j 0).val; omega
  | ⟨1, _⟩ =>
    show win0_1.index t (1 : Fin 2) * 128 + 1 * (j 1).val = (j 1).val
    rw [idx1 t]; show 0 * 128 + 1 * (j 1).val = (j 1).val; omega

/-- The block index of window 2 is zero at every point. -/
theorem idx2 : ∀ t : Fin cfg0.N, win0_2.index t = ![0, 0] :=
  (by decide +kernel : ∀ t : Fin grid0.N, win0_2.index t = ![0, 0])

/-- Window 2's block at any point is the whole fifth argument array. -/
theorem blk2 (c : Dev nD) (t : Fin cfg0.N) :
    (iblk m c 2 t : S128x256.Idx → Elt F .f32) = m ((c : Thread nD τ).loc main_arg4) := by
  rw [← V_main_arg4 m c]
  unfold iblk
  funext j
  show V m c main_arg4 (((cfg0.win 2).blk t).view.emb j) = V m c main_arg4 j
  congr 1
  funext a; apply Fin.ext
  match a with
  | ⟨0, _⟩ =>
    show win0_2.index t (0 : Fin 2) * 128 + 1 * (j 0).val = (j 0).val
    rw [idx2 t]; show 0 * 128 + 1 * (j 0).val = (j 0).val; omega
  | ⟨1, _⟩ =>
    show win0_2.index t (1 : Fin 2) * 256 + 1 * (j 1).val = (j 1).val
    rw [idx2 t]; show 0 * 256 + 1 * (j 1).val = (j 1).val; omega

/-- The block index of window 4 is zero at every point. -/
theorem idx4 : ∀ t : Fin cfg0.N, win0_4.index t = ![0, 0] :=
  (by decide +kernel : ∀ t : Fin grid0.N, win0_4.index t = ![0, 0])

/-- Window 4's block at any point is the whole seventh argument array. -/
theorem blk4 (c : Dev nD) (t : Fin cfg0.N) :
    (iblk m c 4 t : S128x64.Idx → Elt F .f32) = m ((c : Thread nD τ).loc main_arg6) := by
  rw [← V_main_arg6 m c]
  unfold iblk
  funext j
  show V m c main_arg6 (((cfg0.win 4).blk t).view.emb j) = V m c main_arg6 j
  congr 1
  funext a; apply Fin.ext
  match a with
  | ⟨0, _⟩ =>
    show win0_4.index t (0 : Fin 2) * 128 + 1 * (j 0).val = (j 0).val
    rw [idx4 t]; show 0 * 128 + 1 * (j 0).val = (j 0).val; omega
  | ⟨1, _⟩ =>
    show win0_4.index t (1 : Fin 2) * 64 + 1 * (j 1).val = (j 1).val
    rw [idx4 t]; show 0 * 64 + 1 * (j 1).val = (j 1).val; omega

/-- The block index of window 6 is zero at every point. -/
theorem idx6 : ∀ t : Fin cfg0.N, win0_6.index t = ![0, 0] :=
  (by decide +kernel : ∀ t : Fin grid0.N, win0_6.index t = ![0, 0])

/-- Window 6's block at any point is the whole ninth argument array. -/
theorem blk6 (c : Dev nD) (t : Fin cfg0.N) :
    (iblk m c 6 t : S64x40.Idx → Elt F .f32) = m ((c : Thread nD τ).loc main_arg8) := by
  rw [← V_main_arg8 m c]
  unfold iblk
  funext j
  show V m c main_arg8 (((cfg0.win 6).blk t).view.emb j) = V m c main_arg8 j
  congr 1
  funext a; apply Fin.ext
  match a with
  | ⟨0, _⟩ =>
    show win0_6.index t (0 : Fin 2) * 64 + 1 * (j 0).val = (j 0).val
    rw [idx6 t]; show 0 * 64 + 1 * (j 0).val = (j 0).val; omega
  | ⟨1, _⟩ =>
    show win0_6.index t (1 : Fin 2) * 40 + 1 * (j 1).val = (j 1).val
    rw [idx6 t]; show 0 * 40 + 1 * (j 1).val = (j 1).val; omega

/-! ## The bias windows: a vector the host recast as a column or a row -/

/-- The block index of window 3 is zero at every point. -/
theorem idx3 : ∀ t : Fin cfg0.N, win0_3.index t = ![0, 0] :=
  (by decide +kernel : ∀ t : Fin grid0.N, win0_3.index t = ![0, 0])

/-- Window 3's block at any point is the whole recast array, as the region finds it. -/
theorem blk3_V (c : Dev nD) (t : Fin cfg0.N) :
    (iblk m c 3 t : S128x1.Idx → Elt F .f32) = V m c main_v0 := by
  unfold iblk
  funext j
  show V m c main_v0 (((cfg0.win 3).blk t).view.emb j) = V m c main_v0 j
  congr 1
  funext a; apply Fin.ext
  match a with
  | ⟨0, _⟩ =>
    show win0_3.index t (0 : Fin 2) * 128 + 1 * (j 0).val = (j 0).val
    rw [idx3 t]; show 0 * 128 + 1 * (j 0).val = (j 0).val; omega
  | ⟨1, _⟩ =>
    show win0_3.index t (1 : Fin 2) * 1 + 1 * (j 1).val = (j 1).val
    rw [idx3 t]; show 0 * 1 + 1 * (j 1).val = (j 1).val; omega

/-- The first bias as the region finds it: the argument vector recast as a column. -/
theorem V_v0 (c : Dev nD) : (V m c main_v0 : S128x1.Idx → Elt F .f32)
    = shapeCast S128x1 (m ((c : Thread nD τ).loc main_arg5)) shapeCasts_S128_S128x1 := by
  dsimp only [Gen.V, Gen.hostOps0]
  after_results
  rfl

/-- Window 3's block at row f is entry f of the sixth argument. -/
theorem blk3_at (c : Dev nD) (t : Fin cfg0.N) (f : Fin 128) :
    (iblk m c 3 t : S128x1.Idx → Elt F .f32) (ix2 f (0 : Fin 1)) = m ((c : Thread nD τ).loc main_arg5) (ix1 f) := by
  rw [blk3_V, V_v0]
  exact Cert.ColumnLayout.shapeCast_a_a1_apply (a := 128) _ shapeCasts_S128_S128x1 f 0

/-- The block index of window 5 is zero at every point. -/
theorem idx5 : ∀ t : Fin cfg0.N, win0_5.index t = ![0, 0] :=
  (by decide +kernel : ∀ t : Fin grid0.N, win0_5.index t = ![0, 0])

/-- Window 5's block at any point is the whole recast array, as the region finds it. -/
theorem blk5_V (c : Dev nD) (t : Fin cfg0.N) :
    (iblk m c 5 t : S1x64.Idx → Elt F .f32) = V m c main_v1 := by
  unfold iblk
  funext j
  show V m c main_v1 (((cfg0.win 5).blk t).view.emb j) = V m c main_v1 j
  congr 1
  funext a; apply Fin.ext
  match a with
  | ⟨0, _⟩ =>
    show win0_5.index t (0 : Fin 2) * 1 + 1 * (j 0).val = (j 0).val
    rw [idx5 t]; show 0 * 1 + 1 * (j 0).val = (j 0).val; omega
  | ⟨1, _⟩ =>
    show win0_5.index t (1 : Fin 2) * 64 + 1 * (j 1).val = (j 1).val
    rw [idx5 t]; show 0 * 64 + 1 * (j 1).val = (j 1).val; omega

/-- The second bias as the region finds it: the argument vector recast as a row. -/
theorem V_v1 (c : Dev nD) : (V m c main_v1 : S1x64.Idx → Elt F .f32)
    = shapeCast S1x64 (m ((c : Thread nD τ).loc main_arg7)) shapeCasts_S64_S1x64 := by
  dsimp only [Gen.V, Gen.hostOps0]
  after_results
  rfl

/-- Window 5's block at column h is entry h of the eighth argument. -/
theorem blk5_at (c : Dev nD) (t : Fin cfg0.N) (h : Fin 64) :
    (iblk m c 5 t : S1x64.Idx → Elt F .f32) (ix2 (0 : Fin 1) h) = m ((c : Thread nD τ).loc main_arg7) (ix1 h) := by
  rw [blk5_V, V_v1]
  exact shapeCast_a_1a_apply (a := 64) _ shapeCasts_S64_S1x64 0 h

/-- The block index of window 7 is zero at every point. -/
theorem idx7 : ∀ t : Fin cfg0.N, win0_7.index t = ![0, 0] :=
  (by decide +kernel : ∀ t : Fin grid0.N, win0_7.index t = ![0, 0])

/-- Window 7's block at any point is the whole recast array, as the region finds it. -/
theorem blk7_V (c : Dev nD) (t : Fin cfg0.N) :
    (iblk m c 7 t : S1x40.Idx → Elt F .f32) = V m c main_v2 := by
  unfold iblk
  funext j
  show V m c main_v2 (((cfg0.win 7).blk t).view.emb j) = V m c main_v2 j
  congr 1
  funext a; apply Fin.ext
  match a with
  | ⟨0, _⟩ =>
    show win0_7.index t (0 : Fin 2) * 1 + 1 * (j 0).val = (j 0).val
    rw [idx7 t]; show 0 * 1 + 1 * (j 0).val = (j 0).val; omega
  | ⟨1, _⟩ =>
    show win0_7.index t (1 : Fin 2) * 40 + 1 * (j 1).val = (j 1).val
    rw [idx7 t]; show 0 * 40 + 1 * (j 1).val = (j 1).val; omega

/-- The third bias as the region finds it: the argument vector recast as a row. -/
theorem V_v2 (c : Dev nD) : (V m c main_v2 : S1x40.Idx → Elt F .f32)
    = shapeCast S1x40 (m ((c : Thread nD τ).loc main_arg9)) shapeCasts_S40_S1x40 := by
  dsimp only [Gen.V, Gen.hostOps0]
  after_results
  rfl

/-- Window 7's block at column q is entry q of the tenth argument. -/
theorem blk7_at (c : Dev nD) (t : Fin cfg0.N) (q : Fin 40) :
    (iblk m c 7 t : S1x40.Idx → Elt F .f32) (ix2 (0 : Fin 1) q) = m ((c : Thread nD τ).loc main_arg9) (ix1 q) := by
  rw [blk7_V, V_v2]
  exact shapeCast_a_1a_apply (a := 40) _ shapeCasts_S40_S1x40 0 q

/-! ## The adjacency windows: blocks of 200 rows -/

/-- Window 8's block index: the point's number capped at 49 along the rows, zero along the columns. -/
theorem idx8 : ∀ t : Fin cfg0.N, win0_8.index t = ![min t.val 49, 0] :=
  (by decide +kernel : ∀ t : Fin grid0.N, win0_8.index t = ![min t.val 49, 0])

/-- At a point of the first half, window 8's block is rows 200 t … 200 t + 199 of the third argument. -/
theorem blk8_at (c : Dev nD) (t : Fin cfg0.N) (ht : t.val < 50) (p : Fin 200) (n : Fin 10000) :
    (iblk m c 8 t : S200x10000.Idx → Elt F .f32) (ix2 p n)
      = m ((c : Thread nD τ).loc main_arg2) (ix2 ⟨200 * t.val + p.val, by omega⟩ n) := by
  rw [← V_main_arg2 m c]
  unfold iblk
  show V m c main_arg2 (((cfg0.win 8).blk t).view.emb (ix2 p n)) = V m c main_arg2 _
  congr 1
  funext a; apply Fin.ext
  match a with
  | ⟨0, _⟩ =>
    show win0_8.index t (0 : Fin 2) * 200 + 1 * p.val = 200 * t.val + p.val
    rw [idx8 t]; show min t.val 49 * 200 + 1 * p.val = 200 * t.val + p.val; omega
  | ⟨1, _⟩ =>
    show win0_8.index t (1 : Fin 2) * 10000 + 1 * n.val = n.val
    rw [idx8 t]; show 0 * 10000 + 1 * n.val = n.val; omega

/-- Window 9's block index: the point's number less 50 (zero before point 50) along the rows, zero along the columns. -/
theorem idx9 : ∀ t : Fin cfg0.N, win0_9.index t = ![t.val - 50, 0] :=
  (by decide +kernel : ∀ t : Fin grid0.N, win0_9.index t = ![t.val - 50, 0])

/-- At a point of the second half, window 9's block is rows 200 (t − 50) … 200 (t − 50) + 199 of the fourth argument. -/
theorem blk9_at (c : Dev nD) (t : Fin cfg0.N) (ht : 50 ≤ t.val) (p : Fin 200) (n : Fin 10000) :
    (iblk m c 9 t : S200x10000.Idx → Elt F .f32) (ix2 p n)
      = m ((c : Thread nD τ).loc main_arg3)
          (ix2 ⟨200 * (t.val - 50) + p.val, by have := lt_of_lt_of_eq t.isLt N_0; omega⟩ n) := by
  rw [← V_main_arg3 m c]
  unfold iblk
  show V m c main_arg3 (((cfg0.win 9).blk t).view.emb (ix2 p n)) = V m c main_arg3 _
  congr 1
  funext a; apply Fin.ext
  match a with
  | ⟨0, _⟩ =>
    show win0_9.index t (0 : Fin 2) * 200 + 1 * p.val = 200 * (t.val - 50) + p.val
    rw [idx9 t]; show (t.val - 50) * 200 + 1 * p.val = 200 * (t.val - 50) + p.val; omega
  | ⟨1, _⟩ =>
    show win0_9.index t (1 : Fin 2) * 10000 + 1 * n.val = n.val
    rw [idx9 t]; show 0 * 10000 + 1 * n.val = n.val; omega

end Cert.KernelIdeal.Blocks

end
-- ==== Proof.LibDotColRow.lean ====
/-
  A contraction of the FIRST axis of the left matrix against the SECOND axis of the right one, read as a plain sum.

  Take operands of shapes [K, A] and [B, K] and a result of shape [A, B], with dimension numbers that say: no batch
  axes; the left operand keeps its axis 1 and the right operand its axis 0; axis 0 of the left is contracted against
  axis 1 of the right. This is the product (transpose of the left) times (transpose of the right), with neither
  transpose formed: the left matrix is stored contraction-major, the right one result-major. The contraction's own index
  set is a one-axis shape of extent K, and the sum over it of x (left index) * y (right index) at the result index
  (p, q) is  ∑ k < K, x (k, p) * y (q, k):  on its kept axis each operand reads the result's coordinate (the left one
  the row coordinate p, the right one the column coordinate q), on its contracted axis the contraction's one coordinate.

  Stated for ANY record with these dimension numbers, for any A, K, B, any contraction precision and any pair of operand
  float formats. The extended reals enter only as the type the products are taken in: nothing here uses more than the
  sum's re-indexing along a bijection, and (for the product into a zero accumulator) that the zero pattern denotes 0.
-/
import Idealize.ShloMosaic.Lib.ValueIdx
import Idealize.ShloMosaic.PureOps.Ideal.Laws

open scoped BigOperators

namespace Cert.ColRowDot

open Idealize.ShloMosaic Idealize.ShloMosaic.ValueIdx

variable {A K B : Nat} (d : DotDims ⟨2, ![K, A]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 1) the left operand's index is the result's ROW coordinate: the result's axes are the batch
    axes (none), then the left's kept axes (one: it comes first), then the right's kept axes. -/
theorem lhs_kept (hlb : d.lhsBatch = []) (hln : d.lhsNonContracting = [1])
    (j : (⟨2, ![A, B]⟩ : Shape).Idx) (k : d.contr.Idx) : (d.lhsIdx j k 1).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate. -/
theorem rhs_kept (hlb : d.lhsBatch = []) (hln : d.lhsNonContracting = [1]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products down column p of the left matrix and along row q of the right one. -/
theorem sum_eq (hlb : d.lhsBatch = []) (hln : d.lhsNonContracting = [1]) (hlc : d.lhsContracting = [0])
    (hrb : d.rhsBatch = []) (hrn : d.rhsNonContracting = [0]) (hrc : d.rhsContracting = [1])
    (hr : d.contr.rank = 1) (hs : d.contr.size ⟨0, by omega⟩ = K)
    (x : (⟨2, ![K, A]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 k p) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (d.lhsIdx_val_of_single hlc _ _).trans hk
    | ⟨1, _⟩ => exact lhs_kept d hlb hln _ _)
  have er : d.rhsIdx (ix2 p q) ((contrEquiv1 d K hr hs).symm k) = ix2 q k := funext fun a => Fin.ext (by
    match a with
    | ⟨0, _⟩ => exact rhs_kept d hlb hln hrb hrn _ _
    | ⟨1, _⟩ => exact (d.rhsIdx_val_of_single hrc _ _).trans hk)
  rw [el, er]

/-- The matrix product unit's result into the zero accumulator, at (p, q): that plain sum, for operands of any float
    formats (every float is an extended real at the ideal values, and the zero pattern denotes 0). -/
theorem matmul_zero_apply {φ₁ φ₂ : FTy} (hlb : d.lhsBatch = []) (hln : d.lhsNonContracting = [1])
    (hlc : d.lhsContracting = [0]) (hrb : d.rhsBatch = []) (hrn : d.rhsNonContracting = [0])
    (hrc : d.rhsContracting = [1]) (hr : d.contr.rank = 1) (hs : d.contr.size ⟨0, by omega⟩ = K)
    (prec : Option ContractPrecision) (x : FVec Ideal ⟨2, ![K, A]⟩ φ₁) (y : FVec Ideal ⟨2, ![B, K]⟩ φ₂)
    (p : Fin A) (q : Fin B) :
    FloatOps.matmul d prec x y (constant (F := Ideal) ⟨2, ![A, B]⟩ .f32 0x00000000#32) (ix2 p q)
      = ∑ k : Fin K, x (ix2 k p) * y (ix2 q k) :=
  (Ideal.matmul_constant_zero_apply d prec x y (ix2 p q)).trans (sum_eq d hlb hln hlc hrb hrn hrc hr hs x y p q)

end Cert.ColRowDot
-- ==== Proof.LibDotColCol.lean ====
/-
  A columns-by-columns contraction read as a plain sum.

  Take operands of shapes [K, A] and [K, B] and a result of shape [A, B], with dimension numbers that say: no batch
  axes; each operand keeps its axis 1; axis 0 of the left is contracted against axis 0 of the right. This is the
  product `xᵀ y`: the contraction's own index set is a one-axis shape of extent K, and the sum over it of
  `x (left index) * y (right index)` at the result index (p, q) is `∑ k < K, x (k, p) * y (k, q)`: on its kept axis
  each operand reads the result's coordinate (the left the row `p`, the right the column `q`), on its contracted
  axis the contraction's one coordinate.

  Stated for ANY record with these dimension numbers and for any K, A, B. The last theorem reads a matrix product
  unit's result into the zero splat at the ideal values, where it is the accumulator's entry (zero) plus that sum,
  whatever the operands' formats and the contraction precision.
-/
import Idealize.ShloMosaic.Lib.ValueIdx
import Idealize.ShloMosaic.PureOps.Ideal.Laws

open scoped BigOperators

namespace Cert.DotColCol

open Idealize.ShloMosaic Idealize.ShloMosaic.ValueIdx

variable {K A B : Nat} (d : DotDims ⟨2, ![K, A]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 1) the left operand's index is the result's row coordinate: with no batch axis, the
    left operand's one kept axis is the result's axis 0. -/
theorem lhs_kept (hlb : d.lhsBatch = []) (hln : d.lhsNonContracting = [1])
    (j : (⟨2, ![A, B]⟩ : Shape).Idx) (k : d.contr.Idx) : (d.lhsIdx j k 1).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_kept (hlb : d.lhsBatch = []) (hln : d.lhsNonContracting = [1]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products down column `p` of the left and column `q` of the right. -/
theorem sum_eq (hlb : d.lhsBatch = []) (hln : d.lhsNonContracting = [1]) (hlc : d.lhsContracting = [0])
    (hrb : d.rhsBatch = []) (hrn : d.rhsNonContracting = [1]) (hrc : d.rhsContracting = [0])
    (hr : d.contr.rank = 1) (hs : d.contr.size ⟨0, by omega⟩ = K)
    (x : (⟨2, ![K, A]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 k p) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (d.lhsIdx_val_of_single hlc _ _).trans hk
    | ⟨1, _⟩ => exact lhs_kept d hlb hln _ _)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_kept d hlb hln hrb hrn _ _)
  rw [el, er]

/-- The product `xᵀ y` into the zero splat, at `(p, q)`, at the ideal values: for any record with the
    columns-by-columns dimension numbers, any operand formats and any contraction precision. -/
theorem matmul_zero_apply {φ₁ φ₂ : FTy} (hlb : d.lhsBatch = []) (hln : d.lhsNonContracting = [1]) (hlc : d.lhsContracting = [0])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![K, A]⟩ φ₁) (y : FVec Ideal ⟨2, ![K, B]⟩ φ₂) (p : Fin A) (q : Fin B) :
    FloatOps.matmul d prec x y (constant (F := Ideal) ⟨2, ![A, B]⟩ .f32 0x00000000#32) (ix2 p q) = ∑ k : Fin K, x (ix2 k p) * y (ix2 k q) :=
  (Ideal.matmul_constant_zero_apply d prec x y (ix2 p q)).trans (sum_eq d hlb hln hlc hrb hrn hrc hr hs x y p q)

end Cert.DotColCol
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«152448_g84250078479002_cont_sun_c4_284_34_alg».proof.Proof.LibPlainDot
import proofs.«152448_g84250078479002_cont_sun_c4_284_34_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.LibIx2.lean ====
/-
  Rank-2 operations read at an index given by coordinates: a matrix product with one contracted axis into the zero
  tile, a lane reduction (sum or maximum) of a matrix, and the keepdims column layouts [a] → [a,1] and
  [a,1] → [a,b]. Each is the library's read-at-an-index lemma with both indices written by coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibIx2

open Idealize.ShloMosaic Idealize.ShloMosaic.ValueIdx

/-! ## The keepdims column layouts -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane reduction of a matrix -/

/-- The source index over row `p` with lane `c` inserted is `(p, c)`. -/
theorem lift_ix1 {a b : ℕ} (h : (⟨2, ![a, b]⟩ : Shape).Reduces [1] ⟨1, ![a]⟩) (p : Fin a) (c : Fin b) :
    h.lift (ix1 p) c = ix2 p c := by
  funext ax
  match ax with
  | ⟨0, _⟩ => rfl
  | ⟨1, _⟩ => rfl

/-- A float sum over the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ c : Fin b, src (ix2 p c) :=
  (Ideal.multiReduction_add_single src acc h hφ hacc (ix1 p)).trans
    (Finset.sum_congr rfl fun c _ => congrArg src (lift_ix1 h p c))

/-- A float maximum over the lanes of an `[a, b]` matrix is, at row `p`, the fold of `max` from the accumulator's
    value over the lane coordinate. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  have e : (src ∘ h.lift (ix1 p)) = fun c : Fin b => src (ix2 p c) := funext fun c => congrArg src (lift_ix1 h p c)
  show (Finset.univ : Finset (Fin b)).fold max (Ideal.ofBits φ acc) (src ∘ h.lift (ix1 p)) = _
  rw [e]
  rfl

/-! ## A matrix product with one contracted axis -/

section Matmul
variable {m k n : ℕ} (d : DotDims ⟨2, ![m, k]⟩ ⟨2, ![k, n]⟩ ⟨2, ![m, n]⟩)

private theorem coord_congr {s : Shape} (j : s.Idx) (p q : ℕ) (hp : p < s.rank) (hq : q < s.rank) (e : p = q) :
    (j ⟨p, hp⟩).val = (j ⟨q, hq⟩).val := by subst e; rfl

/-- The left operand's row is the result's row. -/
theorem lhsIdx_row (hlb : d.lhsBatch = []) (hln : d.lhsNonContracting = [0]) (j : (⟨2, ![m, n]⟩ : Shape).Idx) (q : d.contr.Idx) :
    (d.lhsIdx j q 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's column is the result's column. -/
theorem rhsIdx_col (hlb : d.lhsBatch = []) (hrb : d.rhsBatch = []) (hln : d.lhsNonContracting = [0]) (hrn : d.rhsNonContracting = [1])
    (j : (⟨2, ![m, n]⟩ : Shape).Idx) (q : d.contr.Idx) :
    (d.rhsIdx j q 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A `tpu.matmul` of an `[m, k]` by a `[k, n]` matrix, contracting the left operand's columns with the right
    operand's rows, into the zero tile: at `(p, q)` the sum over `c` of `lhs (p, c) * rhs (c, q)`. -/
theorem matmul_zero_ix2_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = k)
    (prec : Option ContractPrecision) (lhs : FVec Ideal ⟨2, ![m, k]⟩ φ₁) (rhs : FVec Ideal ⟨2, ![k, n]⟩ φ₂)
    (p : Fin m) (q : Fin n) :
    FloatOps.matmul d prec lhs rhs (constant ⟨2, ![m, n]⟩ .f32 0x00000000#32) (ix2 p q)
      = ∑ c : Fin k, lhs (ix2 p c) * rhs (ix2 c q) := by
  rw [Ideal.matmul_constant_zero_apply, ← Equiv.sum_comp (contrEquiv1 d k hr hs).symm]
  refine Finset.sum_congr rfl fun c _ => ?_
  have hc := contrEquiv1_symm_val d k hr hs c
  have el : d.lhsIdx (ix2 p q) ((contrEquiv1 d k hr hs).symm c) = ix2 p c := funext fun a => Fin.ext (by
    match a with
    | ⟨0, _⟩ => exact lhsIdx_row d hlb hln _ _
    | ⟨1, _⟩ => exact (d.lhsIdx_val_of_single hlc _ _).trans hc)
  have er : d.rhsIdx (ix2 p q) ((contrEquiv1 d k hr hs).symm c) = ix2 c q := funext fun a => Fin.ext (by
    match a with
    | ⟨0, _⟩ => exact (d.rhsIdx_val_of_single hrc _ _).trans hc
    | ⟨1, _⟩ => exact rhsIdx_col d hlb hrb hln hrn _ _)
  rw [el, er]

end Matmul

end Cert.LibIx2

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibLogSoftmax.lean ====
/-
  The logarithm of the softmax along the rows of a matrix, in the two spellings a tiled kernel and an untiled host program
  give it, both read entry by entry over the extended reals.

  For a row `y` the value at entry `q` is  (y q − mx) − log ∑ⱼ exp (y j − mx),  with `mx` the row's maximum folded from
  minus infinity (`logSoftmaxRow`). A kernel forms it on an [A, B] tile by a maximum and a sum along axis 1 (each result
  recast as an [A, 1] column and repeated along the rows); a host program by a `reduce` with a maximum body from minus
  infinity — compared once more with a minus-infinity array, which changes nothing —, a sum from zero, and
  `broadcast_in_dim`s of the column. At (p, q) both are `logSoftmaxRow` of row `p`
  (`logSoftmaxBlock_apply`, `hostLogSoftmax_apply`); nothing is assumed finite.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«152448_g84250078479002_cont_sun_c4_284_34_alg».proof.Proof.LibColumnLayout
import proofs.«152448_g84250078479002_cont_sun_c4_284_34_alg».proof.Proof.LibBroadcastInDim

open scoped BigOperators

noncomputable section

namespace Cert.LogSoftmax

open Idealize.ShloMosaic Idealize.ShloMosaic.ValueIdx

/-! ## The row function -/

/-- Minus infinity as the 32-bit pattern both programs start their row maxima from. -/
abbrev negInf : EReal := Ideal.ofBits .f32 0xFF800000#32

/-- The maximum of a row, folded from minus infinity. -/
def rowMax {M : ℕ} (y : Fin M → EReal) : EReal := (Finset.univ : Finset (Fin M)).fold max negInf y

/-- The logarithm of the softmax of a row `y`, at entry `q`. -/
def logSoftmaxRow {M : ℕ} (y : Fin M → EReal) (q : Fin M) : EReal :=
  (y q - rowMax y) - Ideal.log (∑ j : Fin M, Ideal.exp (y j - rowMax y))

/-- Minus infinity is neutral for the maximum. -/
theorem max_negInf (x : EReal) : max negInf x = x := by
  show max (Ideal.ofBits .f32 0xFF800000#32) x = x
  simp [Ideal.ofBits, Ideal.ieee]

/-! ## A kernel's tile -/

/-- The reduced index `p` with column `k` put back is (p, k). -/
theorem lift_row {A B : ℕ} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) := by
  funext c; apply Fin.ext
  fin_cases c <;> rfl

/-- A tile's maximum along each row, at row `p`: the row's maximum folded from minus infinity. -/
theorem rowMaxBlock_apply {A B : ℕ} (y : FVec Ideal ⟨2, ![A, B]⟩ .f32) (h : (⟨2, ![A, B]⟩ : Shape).Reduces [1] (⟨1, ![A]⟩ : Shape))
    (hφ : FKind.Formats .f32) (hacc : (0xFF800000#32 : BitVec FTy.f32.bits) = FKind.maximumf.neutral .f32 hφ) (p : Fin A) :
    multiReduction .maximumf [1] ⟨1, ![A]⟩ y 0xFF800000#32 h hφ hacc (ix1 p) = rowMax fun c => y (ix2 p c) := by
  rw [Ideal.multiReduction_maximumf_single y _ h hφ hacc (ix1 p)]
  have hf : (y ∘ h.lift (ix1 p)) = fun c : Fin B => y (ix2 p c) := funext fun k => congrArg y (lift_row h p k)
  exact congrArg (fun f => Finset.fold max (Ideal.ofBits .f32 0xFF800000#32) f (Finset.univ : Finset (Fin B))) hf

/-- A tile's sum along each row, at row `p`. -/
theorem rowSumBlock_apply {A B : ℕ} (y : FVec Ideal ⟨2, ![A, B]⟩ .f32) (h : (⟨2, ![A, B]⟩ : Shape).Reduces [1] (⟨1, ![A]⟩ : Shape))
    (hφ : FKind.Formats .f32) (hacc : (0x00000000#32 : BitVec FTy.f32.bits) = FKind.add.neutral .f32 hφ) (p : Fin A) :
    multiReduction .add [1] ⟨1, ![A]⟩ y 0x00000000#32 h hφ hacc (ix1 p) = ∑ c : Fin B, y (ix2 p c) := by
  rw [Ideal.multiReduction_add_single y _ h hφ hacc (ix1 p)]
  exact Finset.sum_congr rfl fun k _ => congrArg y (lift_row h p k)

/-- The last layer's arithmetic on a tile `y` of pre-activations, at (p, q): the log-softmax of row `p`. -/
theorem logSoftmaxBlock_apply {A B : ℕ} (y : FVec Ideal ⟨2, ![A, B]⟩ .f32) (h : (⟨2, ![A, B]⟩ : Shape).Reduces [1] (⟨1, ![A]⟩ : Shape))
    (hφ : FKind.Formats .f32) (hmax : (0xFF800000#32 : BitVec FTy.f32.bits) = FKind.maximumf.neutral .f32 hφ)
    (hadd : (0x00000000#32 : BitVec FTy.f32.bits) = FKind.add.neutral .f32 hφ)
    (hc : (⟨1, ![A]⟩ : Shape).ShapeCasts ⟨2, ![A, 1]⟩) (hb : (⟨2, ![A, 1]⟩ : Shape).Broadcasts ⟨2, ![A, B]⟩) (p : Fin A) (q : Fin B) :
    (subf (subf y (broadcastTo ⟨2, ![A, B]⟩ (shapeCast ⟨2, ![A, 1]⟩ (multiReduction .maximumf [1] ⟨1, ![A]⟩ y 0xFF800000#32 h hφ hmax) hc) hb))
      (broadcastTo ⟨2, ![A, B]⟩ (log (shapeCast ⟨2, ![A, 1]⟩ (multiReduction .add [1] ⟨1, ![A]⟩
        (exp (subf y (broadcastTo ⟨2, ![A, B]⟩ (shapeCast ⟨2, ![A, 1]⟩ (multiReduction .maximumf [1] ⟨1, ![A]⟩ y 0xFF800000#32 h hφ hmax) hc) hb)))
        0x00000000#32 h hφ hadd) hc)) hb) : FVec Ideal ⟨2, ![A, B]⟩ .f32) (ix2 p q)
      = logSoftmaxRow (fun c => y (ix2 p c)) q := by
  have hz : ∀ c : Fin B, (subf y (broadcastTo ⟨2, ![A, B]⟩ (shapeCast ⟨2, ![A, 1]⟩ (multiReduction .maximumf [1] ⟨1, ![A]⟩ y 0xFF800000#32 h hφ hmax) hc) hb)
      : FVec Ideal ⟨2, ![A, B]⟩ .f32) (ix2 p c) = y (ix2 p c) - rowMax fun c => y (ix2 p c) := fun c => by
    show y (ix2 p c) - broadcastTo ⟨2, ![A, B]⟩ (shapeCast ⟨2, ![A, 1]⟩ (multiReduction .maximumf [1] ⟨1, ![A]⟩ y 0xFF800000#32 h hφ hmax) hc) hb (ix2 p c) = _
    rw [Cert.ColumnLayout.broadcastTo_a1_ab_apply, Cert.ColumnLayout.shapeCast_a_a1_apply, rowMaxBlock_apply]
  show (subf y _ : FVec Ideal ⟨2, ![A, B]⟩ .f32) (ix2 p q) - broadcastTo ⟨2, ![A, B]⟩ (log (shapeCast ⟨2, ![A, 1]⟩ _ hc)) hb (ix2 p q) = _
  rw [hz q, Cert.ColumnLayout.broadcastTo_a1_ab_apply]
  show _ - Ideal.log (shapeCast ⟨2, ![A, 1]⟩ _ hc (ix2 p (0 : Fin 1))) = _
  rw [Cert.ColumnLayout.shapeCast_a_a1_apply, rowSumBlock_apply]
  unfold logSoftmaxRow
  refine congrArg (fun s => (y (ix2 p q) - rowMax fun c => y (ix2 p c)) - Ideal.log s) (Finset.sum_congr rfl fun c _ => ?_)
  show Ideal.exp ((subf y _ : FVec Ideal ⟨2, ![A, B]⟩ .f32) (ix2 p c)) = _
  rw [hz c]

/-! ## A host program's array -/

/-- The reduced index `p` with column `k` put back is (p, k). -/
theorem lift_row' {A B : ℕ} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) := by
  funext c; apply Fin.ext
  fin_cases c <;> rfl

/-- The host's maximum along each row from minus infinity, at row `p`. -/
theorem hostRowMax_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel) (p : Fin A) :
    Host.reduce FloatOps.maximumf y (constant (⟨0, ![]⟩ : Shape) .f32 0xFF800000#32) h' hu (ix1 p) = rowMax fun c => y (ix2 p c) := by
  have h : (⟨2, ![A, B]⟩ : Shape).Reduces [1] (⟨1, ![A]⟩ : Shape) := ⟨h'.1, Nat.one_pos, h'.2⟩
  rw [Host.reduce_eq_fold_single FloatOps.maximumf y _ h' h hu]
  have hf : (y ∘ h.lift (ix1 p)) = fun c : Fin B => y (ix2 p c) := funext fun k => congrArg y (lift_row' h p k)
  exact congrArg (fun f => Finset.fold max (Ideal.ofBits .f32 0xFF800000#32) f (Finset.univ : Finset (Fin B))) hf

/-- The host's sum along each row from zero, at row `p`. -/
theorem hostRowSum_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel) (p : Fin A) :
    Host.reduceAdd y (constant (⟨0, ![]⟩ : Shape) .f32 0x00000000#32) h' hu (ix1 p) = ∑ c : Fin B, y (ix2 p c) := by
  have h : (⟨2, ![A, B]⟩ : Shape).Reduces [1] (⟨1, ![A]⟩ : Shape) := ⟨h'.1, Nat.one_pos, h'.2⟩
  show Ideal.hostReduceAdd h' y (Ideal.ofBits .f32 0x00000000#32) (ix1 p) = _
  rw [Ideal.hostReduceAdd_single h' h, Ideal.ofBits_zero_f32, zero_add]
  exact Finset.sum_congr rfl fun k _ => congrArg y (lift_row' h p k)

/-- The row maxima as the host takes them: the fold from minus infinity, compared once more with minus infinity. -/
abbrev hostMx {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![]) : FVec Ideal ⟨1, ![A]⟩ .f32 :=
  maximumf (broadcastInDim ⟨1, ![A]⟩ ![] hbs (constant (⟨0, ![]⟩ : Shape) .f32 0xFF800000#32))
    (Host.reduce FloatOps.maximumf y (constant (⟨0, ![]⟩ : Shape) .f32 0xFF800000#32) h' hu)

/-- The array with each row's maximum subtracted, as the host forms it. -/
abbrev hostShifted {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![])
    (hbc : (⟨1, ![A]⟩ : Shape).BroadcastsInDim ⟨2, ![A, 1]⟩ ![0])
    (hbr : (⟨2, ![A, 1]⟩ : Shape).BroadcastsInDim ⟨2, ![A, B]⟩ ![0, 1]) : FVec Ideal ⟨2, ![A, B]⟩ .f32 :=
  subf y (broadcastInDim ⟨2, ![A, B]⟩ ![0, 1] hbr (broadcastInDim ⟨2, ![A, 1]⟩ ![0] hbc (hostMx y h' hu hbs)))

theorem hostMx_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![]) (p : Fin A) :
    hostMx y h' hu hbs (ix1 p) = rowMax fun c => y (ix2 p c) := by
  show max (broadcastInDim ⟨1, ![A]⟩ ![] hbs (constant (⟨0, ![]⟩ : Shape) .f32 0xFF800000#32) (ix1 p))
    (Host.reduce FloatOps.maximumf y (constant (⟨0, ![]⟩ : Shape) .f32 0xFF800000#32) h' hu (ix1 p)) = _
  rw [Cert.BroadcastInDim.scalar_apply, hostRowMax_apply]
  exact max_negInf _

theorem hostShifted_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![])
    (hbc : (⟨1, ![A]⟩ : Shape).BroadcastsInDim ⟨2, ![A, 1]⟩ ![0])
    (hbr : (⟨2, ![A, 1]⟩ : Shape).BroadcastsInDim ⟨2, ![A, B]⟩ ![0, 1]) (p : Fin A) (c : Fin B) :
    hostShifted y h' hu hbs hbc hbr (ix2 p c) = y (ix2 p c) - rowMax fun c => y (ix2 p c) := by
  show y (ix2 p c) - broadcastInDim ⟨2, ![A, B]⟩ ![0, 1] hbr (broadcastInDim ⟨2, ![A, 1]⟩ ![0] hbc (hostMx y h' hu hbs)) (ix2 p c) = _
  rw [Cert.BroadcastInDim.rows_apply, Cert.BroadcastInDim.column_apply, hostMx_apply]

/-- The host's log-softmax of an array `y` of pre-activations, at (p, q): the log-softmax of row `p`. -/
theorem hostLogSoftmax_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel)
    (hbs : (⟨0, ![]⟩ : Shape).BroadcastsInDim ⟨1, ![A]⟩ ![])
    (hbc : (⟨1, ![A]⟩ : Shape).BroadcastsInDim ⟨2, ![A, 1]⟩ ![0])
    (hbr : (⟨2, ![A, 1]⟩ : Shape).BroadcastsInDim ⟨2, ![A, B]⟩ ![0, 1]) (p : Fin A) (q : Fin B) :
    (subf (hostShifted y h' hu hbs hbc hbr)
      (broadcastInDim ⟨2, ![A, B]⟩ ![0, 1] hbr (Host.log (broadcastInDim ⟨2, ![A, 1]⟩ ![0] hbc
        (Host.reduceAdd (Host.exp (hostShifted y h' hu hbs hbc hbr)) (constant (⟨0, ![]⟩ : Shape) .f32 0x00000000#32) h' hu))))
      : FVec Ideal ⟨2, ![A, B]⟩ .f32) (ix2 p q)
      = logSoftmaxRow (fun c => y (ix2 p c)) q := by
  show hostShifted y h' hu hbs hbc hbr (ix2 p q) - broadcastInDim ⟨2, ![A, B]⟩ ![0, 1] hbr (Host.log (broadcastInDim ⟨2, ![A, 1]⟩ ![0] hbc
        (Host.reduceAdd (Host.exp (hostShifted y h' hu hbs hbc hbr)) (constant (⟨0, ![]⟩ : Shape) .f32 0x00000000#32) h' hu))) (ix2 p q) = _
  rw [hostShifted_apply, Cert.BroadcastInDim.rows_apply]
  show _ - Ideal.log (broadcastInDim ⟨2, ![A, 1]⟩ ![0] hbc
        (Host.reduceAdd (Host.exp (hostShifted y h' hu hbs hbc hbr)) (constant (⟨0, ![]⟩ : Shape) .f32 0x00000000#32) h' hu) (ix2 p (0 : Fin 1))) = _
  rw [Cert.BroadcastInDim.column_apply, hostRowSum_apply]
  unfold logSoftmaxRow
  refine congrArg (fun s => (y (ix2 p q) - rowMax fun c => y (ix2 p c)) - Ideal.log s) (Finset.sum_congr rfl fun c _ => ?_)
  show Ideal.exp (hostShifted y h' hu hbs hbc hbr (ix2 p c)) = _
  rw [hostShifted_apply]

/-- The log-softmax of an array of pre-activations, as the operations compose it. -/
abbrev hostLogSoftmaxTerm {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![])
    (hbc : (⟨1, ![A]⟩ : Shape).BroadcastsInDim ⟨2, ![A, 1]⟩ ![0])
    (hbr : (⟨2, ![A, 1]⟩ : Shape).BroadcastsInDim ⟨2, ![A, B]⟩ ![0, 1]) : FVec Ideal ⟨2, ![A, B]⟩ .f32 :=
  subf (hostShifted y h' hu hbs hbc hbr)
    (broadcastInDim ⟨2, ![A, B]⟩ ![0, 1] hbr (Host.log (broadcastInDim ⟨2, ![A, 1]⟩ ![0] hbc
      (Host.reduceAdd (Host.exp (hostShifted y h' hu hbs hbc hbr)) (constant (⟨0, ![]⟩ : Shape) .f32 0x00000000#32) h' hu))))

end Cert.LogSoftmax

end
-- ==== Proof.PayAt.lean ====
/-
  The kernel's arithmetic at an index.

  Each payload of the kernel body is a composition of matrix products into a zero accumulator, shape casts of a shape
  to itself, broadcasts of a bias column or bias row, pointwise additions, a clamp at zero, and (for the last one) the
  row-wise log-softmax written with row maximum, exponentials, row sum and logarithm. Read at the ideal values and at
  one index, each is a plain sum (or a plain expression of plain sums) over the literal extents.
-/
import proofs.«152448_g84250078479002_cont_sun_c4_284_34_alg».proof.Proof.Gen.KernelIdeal.Skeleton
import proofs.«152448_g84250078479002_cont_sun_c4_284_34_alg».proof.Proof.LibDotColRow
import proofs.«152448_g84250078479002_cont_sun_c4_284_34_alg».proof.Proof.LibDotColCol
import proofs.«152448_g84250078479002_cont_sun_c4_284_34_alg».proof.Proof.LibDotRowRow
import proofs.«152448_g84250078479002_cont_sun_c4_284_34_alg».proof.Proof.LibZeroAccDots
import proofs.«152448_g84250078479002_cont_sun_c4_284_34_alg».proof.Proof.LibIx2
import proofs.«152448_g84250078479002_cont_sun_c4_284_34_alg».proof.Proof.LibColumnLayout
import proofs.«152448_g84250078479002_cont_sun_c4_284_34_alg».proof.Proof.LibLogSoftmax
import Idealize.ShloMosaic.Lib.ValueIdx
import Idealize.ShloMosaic.Lib.ValueLayout
import Idealize.ShloMosaic.PureOps.Ideal.Laws

open scoped BigOperators

noncomputable section

namespace Cert.KernelIdeal.PayAt

open Idealize.ShloMosaic Idealize.ShloMosaic.ValueIdx Idealize.SL.Sem
open Cert.KernelIdeal Cert.KernelIdeal.Gen

/-- The first payload: the product of the transposed weight matrix with the transposed feature block,
    neither transpose formed. -/
theorem pay1_at (w : Vec Ideal S128x64 .f32) (y : Vec Ideal S8000x128 .f32) (h : Fin 64) (n : Fin 8000) :
    k0_pay1 (F := Ideal) w y (ix2 h n) = ∑ f : Fin 128, w (ix2 f h) * y (ix2 n f) := by
  unfold k0_pay1
  rw [shapeCast_self]
  exact Cert.ColRowDot.matmul_zero_apply (A := 64) (K := 128) (B := 8000)
    dot_S128x64_S8000x128_S64x8000_0_1_1_0_n_n rfl rfl rfl rfl rfl rfl rfl rfl none w y h n

/-- The second payload: the projected input block (a rows-by-rows product plus the bias column repeated along the
    rows), contracted down its first axis against the weight matrix's first axis. -/
theorem pay2_at (w : Vec Ideal S128x64 .f32) (v : Vec Ideal S128x256 .f32) (x : Vec Ideal S2000x256 .f32)
    (b : Vec Ideal S128x1 .f32) (h : Fin 64) (n : Fin 2000) :
    k0_pay2 (F := Ideal) w v x b (ix2 h n)
      = ∑ f : Fin 128, w (ix2 f h) * ((∑ k : Fin 256, v (ix2 f k) * x (ix2 n k)) + b (ix2 f (0 : Fin 1))) := by
  unfold k0_pay2
  rw [shapeCast_self, shapeCast_self]
  refine (Cert.DotColCol.matmul_zero_apply (K := 128) (A := 64) (B := 2000)
    dot_S128x64_S128x2000_S64x2000_0_0_1_1_n_n rfl rfl rfl rfl rfl rfl rfl rfl none w _ h n).trans ?_
  refine Finset.sum_congr rfl fun f _ => ?_
  congr 1
  rw [addf_apply]
  congr 1
  · exact Cert.ZeroAccDots.rows_rows (A := 128) (K := 256) (B := 2000)
      dot_S128x256_S2000x256_S128x2000_1_1_0_0_n_n rfl rfl rfl rfl rfl rfl rfl rfl none v x f n
  · exact Cert.ColumnLayout.broadcastTo_a1_ab_apply (a := 128) (b := 2000) b broadcasts_S128x1_S128x2000 f n

/-- The third payload: the aggregated hidden features (a rows-by-rows product plus the bias row repeated down the
    rows), clamped below at zero. -/
theorem pay3_at (fb : Vec Ideal S200x10000 .f32) (s : Vec Ideal S64x10000 .f32) (g : Vec Ideal S1x64 .f32)
    (p : Fin 200) (h : Fin 64) :
    k0_pay3 (F := Ideal) fb s g (ix2 p h)
      = max ((∑ n : Fin 10000, fb (ix2 p n) * s (ix2 h n)) + g (ix2 (0 : Fin 1) h)) 0 := by
  unfold k0_pay3
  rw [shapeCast_self, maximumf_apply, addf_apply, broadcast_apply]
  congr 1
  · congr 1
    · exact Cert.ZeroAccDots.rows_rows (A := 200) (K := 10000) (B := 64)
        dot_S200x10000_S64x10000_S200x64_1_1_0_0_n_n rfl rfl rfl rfl rfl rfl rfl rfl none fb s p h
    · exact broadcastTo_1b_ab_apply (a := 200) (b := 64) g broadcasts_S1x64_S200x64 p h
  · exact Ideal.ofBits_zero_f32

/-- The fourth payload: the clamped hidden features times the second weight matrix, rows by columns. -/
theorem pay4_at (fb : Vec Ideal S200x10000 .f32) (s : Vec Ideal S64x10000 .f32) (g : Vec Ideal S1x64 .f32)
    (w2 : Vec Ideal S64x40 .f32) (p : Fin 200) (c : Fin 40) :
    k0_pay4 (F := Ideal) fb s g w2 (ix2 p c) = ∑ h : Fin 64, k0_pay3 (F := Ideal) fb s g (ix2 p h) * w2 (ix2 h c) := by
  unfold k0_pay4
  rw [shapeCast_self]
  exact Cert.ZeroAccDots.rows_columns (A := 200) (K := 64) (B := 40)
    dot_S200x64_S64x40_S200x40_1_0_0_1_n_n rfl rfl rfl rfl rfl rfl rfl rfl none (k0_pay3 (F := Ideal) fb s g) w2 p c

/-- The score tile of the last layer: the aggregated class scores plus the bias row repeated down the rows. -/
abbrev scores (cb : Vec Ideal S200x10000 .f32) (s2 : Vec Ideal S10000x40 .f32) (g2 : Vec Ideal S1x40 .f32) :
    FVec Ideal S200x40 .f32 :=
  addf (matmul (φ₁ := .f32) (φ₂ := .f32) dot_S200x10000_S10000x40_S200x40_1_0_0_1_n_n none cb s2 (constant (F := Ideal) S200x40 .f32 0x00000000#32))
    (broadcastTo S200x40 g2 broadcasts_S1x40_S200x40)

/-- The score tile at an index: a rows-by-columns product plus the bias row's entry of the column. -/
theorem scores_at (cb : Vec Ideal S200x10000 .f32) (s2 : Vec Ideal S10000x40 .f32) (g2 : Vec Ideal S1x40 .f32)
    (p : Fin 200) (c : Fin 40) :
    scores cb s2 g2 (ix2 p c) = (∑ n : Fin 10000, cb (ix2 p n) * s2 (ix2 n c)) + g2 (ix2 (0 : Fin 1) c) := by
  show matmul (φ₁ := .f32) (φ₂ := .f32) dot_S200x10000_S10000x40_S200x40_1_0_0_1_n_n none cb s2 (constant (F := Ideal) S200x40 .f32 0x00000000#32) (ix2 p c)
    + broadcastTo S200x40 g2 broadcasts_S1x40_S200x40 (ix2 p c) = _
  congr 1
  · exact Cert.ZeroAccDots.rows_columns (A := 200) (K := 10000) (B := 40)
      dot_S200x10000_S10000x40_S200x40_1_0_0_1_n_n rfl rfl rfl rfl rfl rfl rfl rfl none cb s2 p c
  · exact broadcastTo_1b_ab_apply (a := 200) (b := 40) g2 broadcasts_S1x40_S200x40 p c

open Cert.LogSoftmax in
/-- The log-softmax of a tile, written as the tile minus (the logarithm of the row sum of the shifted exponentials,
    plus the row maximum), both recast as columns and repeated along the rows: at (p, q) the entry minus the
    logarithm of the row's shifted exponential sum plus the row's maximum. -/
theorem logSoftmaxPlus_apply {A B : ℕ} (y : FVec Ideal ⟨2, ![A, B]⟩ .f32)
    (h : (⟨2, ![A, B]⟩ : Shape).Reduces [1] (⟨1, ![A]⟩ : Shape))
    (hφ : FKind.Formats .f32) (hmax : (0xFF800000#32 : BitVec FTy.f32.bits) = FKind.maximumf.neutral .f32 hφ)
    (hadd : (0x00000000#32 : BitVec FTy.f32.bits) = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    (subf y (broadcastTo ⟨2, ![A, B]⟩
        (addf (log (shapeCast ⟨2, ![A, 1]⟩ (multiReduction .add [1] ⟨1, ![A]⟩
            (exp (subf y (broadcastTo ⟨2, ![A, B]⟩ (shapeCast ⟨2, ![A, 1]⟩
              (multiReduction .maximumf [1] ⟨1, ![A]⟩ y 0xFF800000#32 h hφ hmax) hc) hb)))
            0x00000000#32 h hφ hadd) hc))
          (shapeCast ⟨2, ![A, 1]⟩ (multiReduction .maximumf [1] ⟨1, ![A]⟩ y 0xFF800000#32 h hφ hmax) hc)) hb)
      : FVec Ideal ⟨2, ![A, B]⟩ .f32) (ix2 p q)
      = y (ix2 p q) - (Ideal.log (∑ c : Fin B, Ideal.exp (y (ix2 p c) - rowMax fun c => y (ix2 p c)))
          + rowMax fun c => y (ix2 p c)) := by
  have hz : ∀ c : Fin B, (subf y (broadcastTo ⟨2, ![A, B]⟩ (shapeCast ⟨2, ![A, 1]⟩
      (multiReduction .maximumf [1] ⟨1, ![A]⟩ y 0xFF800000#32 h hφ hmax) hc) hb)
      : FVec Ideal ⟨2, ![A, B]⟩ .f32) (ix2 p c) = y (ix2 p c) - rowMax fun c => y (ix2 p c) := fun c => by
    show y (ix2 p c) - broadcastTo ⟨2, ![A, B]⟩ (shapeCast ⟨2, ![A, 1]⟩
      (multiReduction .maximumf [1] ⟨1, ![A]⟩ y 0xFF800000#32 h hφ hmax) hc) hb (ix2 p c) = _
    rw [Cert.ColumnLayout.broadcastTo_a1_ab_apply, Cert.ColumnLayout.shapeCast_a_a1_apply, rowMaxBlock_apply]
  show y (ix2 p q) - broadcastTo ⟨2, ![A, B]⟩ (addf (log (shapeCast ⟨2, ![A, 1]⟩ _ hc)) (shapeCast ⟨2, ![A, 1]⟩ _ hc)) hb (ix2 p q) = _
  rw [Cert.ColumnLayout.broadcastTo_a1_ab_apply]
  show _ - (Ideal.log (shapeCast ⟨2, ![A, 1]⟩ _ hc (ix2 p (0 : Fin 1))) + shapeCast ⟨2, ![A, 1]⟩ _ hc (ix2 p (0 : Fin 1))) = _
  rw [Cert.ColumnLayout.shapeCast_a_a1_apply, Cert.ColumnLayout.shapeCast_a_a1_apply, rowSumBlock_apply, rowMaxBlock_apply]
  refine congrArg (fun s => y (ix2 p q) - (Ideal.log s + rowMax fun c => y (ix2 p c))) (Finset.sum_congr rfl fun c _ => ?_)
  show Ideal.exp ((subf y _ : FVec Ideal ⟨2, ![A, B]⟩ .f32) (ix2 p c)) = _
  rw [hz c]

/-- The fifth payload: the log-softmax of the score tile along its rows, in the kernel's spelling (scores minus the
    sum of the logarithm of the shifted exponential sum and the row maximum). -/
theorem pay5_at (cb : Vec Ideal S200x10000 .f32) (s2 : Vec Ideal S10000x40 .f32) (g2 : Vec Ideal S1x40 .f32)
    (p : Fin 200) (c : Fin 40) :
    k0_pay5 (F := Ideal) cb s2 g2 (ix2 p c)
      = (let z : Fin 40 → EReal := fun c' => (∑ n : Fin 10000, cb (ix2 p n) * s2 (ix2 n c')) + g2 (ix2 (0 : Fin 1) c')
         z c - (Ideal.log (∑ c', Ideal.exp (z c' - Cert.LogSoftmax.rowMax z)) + Cert.LogSoftmax.rowMax z)) := by
  have hrow : (fun c' : Fin 40 => scores cb s2 g2 (ix2 p c'))
      = fun c' => (∑ n : Fin 10000, cb (ix2 p n) * s2 (ix2 n c')) + g2 (ix2 (0 : Fin 1) c') :=
    funext fun c' => scores_at cb s2 g2 p c'
  unfold k0_pay5
  rw [shapeCast_self]
  refine (logSoftmaxPlus_apply (A := 200) (B := 40) (scores cb s2 g2) reduces_S200x40_S200 (.inl rfl) rfl rfl
    shapeCasts_S200_S200x1 broadcasts_S200x1_S200x40 p c).trans ?_
  show (fun c' : Fin 40 => scores cb s2 g2 (ix2 p c')) c
      - (Ideal.log (∑ c', Ideal.exp ((fun c' : Fin 40 => scores cb s2 g2 (ix2 p c')) c'
          - Cert.LogSoftmax.rowMax (fun c' : Fin 40 => scores cb s2 g2 (ix2 p c'))))
        + Cert.LogSoftmax.rowMax (fun c' : Fin 40 => scores cb s2 g2 (ix2 p c'))) = _
  rw [hrow]

end Cert.KernelIdeal.PayAt

end
-- ==== Proof.Spec.lean ====
/-
  The two results as functions of the ten argument arrays, entry by entry over the extended reals.

  With X the low-layer embedding, Y the high-layer features, F and C the two adjacency matrices:
    xnew  = X · W₁ᵀ + b₁                        (2000 × 128)
    ystar = Y stacked over xnew                  (10000 × 128)
    s1    = ystar · G₁                           (10000 × 64)
    yemb  = max (F · s1 + g₁, 0)                 (10000 × 64)   the second result
    s2    = yemb · G₂                            (10000 × 40)
    logit = C · s2 + g₂                          (10000 × 40)
    out   = the log-softmax of each row of logit                 the first result
  Every matrix product is written as the plain sum over the contracted coordinate.
-/
import Idealize.ShloMosaic.PureOps.Ideal
import Idealize.ShloMosaic.Lib.ValueIdx
import proofs.«152448_g84250078479002_cont_sun_c4_284_34_alg».proof.Proof.LibLogSoftmax

open scoped BigOperators

noncomputable section

namespace Cert.Spec

open Idealize.ShloMosaic Idealize.ShloMosaic.ValueIdx

/-- A matrix of extended reals with `a` rows and `b` columns. -/
abbrev Mat (a b : ℕ) : Type := (⟨2, ![a, b]⟩ : Shape).Idx → EReal
/-- A vector of extended reals with `a` entries. -/
abbrev Vct (a : ℕ) : Type := (⟨1, ![a]⟩ : Shape).Idx → EReal

/-- The ten argument arrays. -/
structure Args where
  xe : Mat 2000 256
  y : Mat 8000 128
  adjF : Mat 10000 10000
  adjC : Mat 10000 10000
  fc1w : Mat 128 256
  fc1b : Vct 128
  gc1w : Mat 128 64
  gc1b : Vct 64
  gc2w : Mat 64 40
  gc2b : Vct 40

variable (a : Args)

/-- The low-layer embedding brought to the feature width: X · W₁ᵀ + b₁. -/
def xnew (n : Fin 2000) (f : Fin 128) : EReal :=
  (∑ k : Fin 256, a.xe (ix2 n k) * a.fc1w (ix2 f k)) + a.fc1b (ix1 f)

/-- The stacked node features: the first 8000 rows are Y, the last 2000 are `xnew`. -/
def ystar (r : Fin 10000) (f : Fin 128) : EReal :=
  if h : r.val < 8000 then a.y (ix2 ⟨r.val, h⟩ f) else xnew a ⟨r.val - 8000, by omega⟩ f

/-- The first projection: ystar · G₁. -/
def s1 (r : Fin 10000) (h : Fin 64) : EReal := ∑ f : Fin 128, ystar a r f * a.gc1w (ix2 f h)

/-- The hidden embedding: max (F · s1 + g₁, 0). -/
def yemb (r : Fin 10000) (h : Fin 64) : EReal :=
  max ((∑ n : Fin 10000, a.adjF (ix2 r n) * s1 a n h) + a.gc1b (ix1 h)) 0

/-- The second projection: yemb · G₂. -/
def s2 (r : Fin 10000) (c : Fin 40) : EReal := ∑ h : Fin 64, yemb a r h * a.gc2w (ix2 h c)

/-- The class scores before normalisation: C · s2 + g₂. -/
def logit (r : Fin 10000) (c : Fin 40) : EReal :=
  (∑ n : Fin 10000, a.adjC (ix2 r n) * s2 a n c) + a.gc2b (ix1 c)

/-- The log-softmax of each row of the scores. -/
def out (r : Fin 10000) (c : Fin 40) : EReal := Cert.LogSoftmax.logSoftmaxRow (fun c' => logit a r c') c

end Cert.Spec

end
-- ==== Proof.LibReal.lean ====
import Idealize.ShloMosaic.PureOps.Ideal

/-!
# Extended reals that are real numbers

The extended reals are not a ring: subtraction does not cancel and a factor does not move across a sum at the
infinities. For values that are real numbers everything is as on `ℝ`. This file has the predicate "is a real number", its
closure under the operations a small network uses, and the few identities that hold for such values only: `v - v = 0`,
the inverse square root as the power `-1/2`, and `z - (m + log s) = (z - m) - log s`. It also reads a maximum and a
sum over 128 entries of which only the first two are kept.
-/

noncomputable section

namespace Cert.LibReal

open Idealize.ShloMosaic
open scoped BigOperators

/-- The extended real `v` is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem coe_max (a b : ℝ) : ((max a b : ℝ) : EReal) = max (a : EReal) (b : EReal) :=
  EReal.coe_strictMono.monotone.map_max

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.max {a b : EReal} (ha : IsReal a) (hb : IsReal b) : IsReal (max a b) := by
  obtain ⟨x, rfl⟩ := ha; obtain ⟨y, rfl⟩ := hb; exact ⟨Max.max x y, (coe_max x y).symm⟩

theorem IsReal.sum {ι : Type*} (s : Finset ι) (f : ι → EReal) (h : ∀ k ∈ s, IsReal (f k)) : IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- A real number minus itself is zero (false at the infinities). -/
theorem IsReal.sub_self {a : EReal} (ha : IsReal a) : a - a = 0 := by
  obtain ⟨x, rfl⟩ := ha
  rw [← EReal.coe_sub, _root_.sub_self, EReal.coe_zero]

/-- The exponential of a real number is a real number. -/
theorem IsReal.exp {a : EReal} (ha : IsReal a) : IsReal (Ideal.exp a) := by
  obtain ⟨x, rfl⟩ := ha; exact ⟨Real.exp x, rfl⟩

/-- On a positive real the inverse square root is the power `-1/2`. -/
theorem rsqrt_eq_pow {t : ℝ} (ht : 0 < t) :
    Ideal.rsqrt (t : EReal) = Ideal.pow (t : EReal) ((-1 / 2 : ℝ) : EReal) := by
  show (if t < 0 then ⊥ else if t = 0 then ⊤ else (((Real.sqrt t)⁻¹ : ℝ) : EReal)) = ((Real.rpow t (-1 / 2) : ℝ) : EReal)
  rw [if_neg (not_lt.mpr ht.le), if_neg ht.ne']
  congr 1
  show (Real.sqrt t)⁻¹ = t ^ (-1 / 2 : ℝ)
  rw [Real.sqrt_eq_rpow, show (-1 / 2 : ℝ) = -(1 / 2) by norm_num, Real.rpow_neg ht.le]

/-- The inverse square root of a real number clipped below at one, as the power `-1/2`, with the clip's operands in
    either order. -/
theorem rsqrt_max_one {d : EReal} (hd : IsReal d) :
    Ideal.rsqrt (max d 1) = Ideal.pow (max 1 d) ((-1 / 2 : ℝ) : EReal) := by
  obtain ⟨r, rfl⟩ := hd
  have h1 : max (r : EReal) 1 = ((Max.max r 1 : ℝ) : EReal) := by rw [coe_max, EReal.coe_one]
  rw [max_comm (1 : EReal), h1]
  exact rsqrt_eq_pow (lt_of_lt_of_le one_pos (le_max_right _ _))

/-- A real number clipped below at one, to a real power, is a real number. -/
theorem isReal_pow_max_one {d : EReal} (hd : IsReal d) (y : ℝ) : IsReal (Ideal.pow (max 1 d) (y : EReal)) := by
  obtain ⟨r, rfl⟩ := hd
  have h1 : max 1 (r : EReal) = ((Max.max 1 r : ℝ) : EReal) := by rw [coe_max, EReal.coe_one]
  rw [h1]
  exact ⟨Real.rpow (Max.max 1 r) y, rfl⟩

/-- For real numbers `z`, `m` and a positive real `s`: `z - (m + log s) = (z - m) - log s`. -/
theorem sub_add_log {z m s : EReal} (hz : IsReal z) (hm : IsReal m) (hs : IsReal s) (hpos : 0 < s) :
    z - (m + Ideal.log s) = (z - m) - Ideal.log s := by
  obtain ⟨a, rfl⟩ := hz; obtain ⟨b, rfl⟩ := hm; obtain ⟨c, rfl⟩ := hs
  have hc : 0 < c := EReal.coe_pos.mp hpos
  have hl : Ideal.log (c : EReal) = ((Real.log c : ℝ) : EReal) := by
    show (if c ≤ 0 then ⊥ else ((Real.log c : ℝ) : EReal)) = _
    rw [if_neg (not_le.mpr hc)]
  rw [hl, ← EReal.coe_add, ← EReal.coe_sub, ← EReal.coe_sub, ← EReal.coe_sub]
  congr 1; ring

/-- A sum of exponentials of real numbers over a nonempty index set is positive. -/
theorem sum_exp_pos {ι : Type*} (s : Finset ι) (hs : s.Nonempty) (f : ι → EReal) (h : ∀ k ∈ s, IsReal (f k)) :
    0 < ∑ k ∈ s, Ideal.exp (f k) := by
  classical
  have hr : ∀ k ∈ s, ∃ r : ℝ, f k = (r : EReal) := h
  choose! g hg using hr
  have e : ∑ k ∈ s, Ideal.exp (f k) = ((∑ k ∈ s, Real.exp (g k) : ℝ) : EReal) := by
    have : ∀ (t : Finset ι), ((∑ k ∈ t, Real.exp (g k) : ℝ) : EReal) = ∑ k ∈ t, ((Real.exp (g k) : ℝ) : EReal) := by
      intro t
      induction t using Finset.induction_on with
      | empty => simp
      | insert a t ha ih => rw [Finset.sum_insert ha, Finset.sum_insert ha, EReal.coe_add, ih]
    rw [this]
    exact Finset.sum_congr rfl fun k hk => by rw [hg k hk]; rfl
  rw [e]
  exact EReal.coe_pos.mpr (Finset.sum_pos (fun k _ => Real.exp_pos _) hs)

/-! ## 128 entries of which the first two are kept -/

/-- A maximum from `-∞` over 128 entries, all but the first two replaced by `-∞`: the larger of the first two. -/
theorem fold_max_first_two (g : Fin 128 → EReal) :
    (Finset.univ : Finset (Fin 128)).fold max ⊥ (fun c => if c.val < 2 then g c else ⊥)
      = max (g ⟨0, by norm_num⟩) (g ⟨1, by norm_num⟩) := by
  apply le_antisymm
  · refine (Finset.fold_max_le _).mpr ⟨bot_le, fun c _ => ?_⟩
    by_cases h : c.val < 2
    · rw [if_pos h]
      have h01 : c.val = 0 ∨ c.val = 1 := by omega
      rcases h01 with h0 | h1
      · have : c = ⟨0, by norm_num⟩ := Fin.ext h0
        rw [this]; exact le_max_left _ _
      · have : c = ⟨1, by norm_num⟩ := Fin.ext h1
        rw [this]; exact le_max_right _ _
    · rw [if_neg h]; exact bot_le
  · refine max_le ?_ ?_
    · refine (Finset.le_fold_max _).mpr (Or.inr ⟨⟨0, by norm_num⟩, Finset.mem_univ _, ?_⟩)
      rw [if_pos (by norm_num)]
    · refine (Finset.le_fold_max _).mpr (Or.inr ⟨⟨1, by norm_num⟩, Finset.mem_univ _, ?_⟩)
      rw [if_pos (by norm_num)]

/-- A sum over 128 entries, all but the first two replaced by zero: the sum of the first two. -/
theorem sum_first_two (g : Fin 128 → EReal) :
    ∑ c : Fin 128, (if c.val < 2 then g c else 0) = g ⟨0, by norm_num⟩ + g ⟨1, by norm_num⟩ := by
  rw [Finset.sum_eq_add_of_mem (⟨0, by norm_num⟩ : Fin 128) ⟨1, by norm_num⟩ (Finset.mem_univ _) (Finset.mem_univ _)
    (by intro h; exact absurd (congrArg Fin.val h) (by norm_num))
    (fun c _ hc => if_neg fun h => by
      have h01 : c.val = 0 ∨ c.val = 1 := by omega
      rcases h01 with h0 | h1
      · exact hc.1 (Fin.ext h0)
      · exact hc.2 (Fin.ext h1))]
  rw [if_pos (by norm_num), if_pos (by norm_num)]

end Cert.LibReal

end
-- ==== Proof.LibIdeal.lean ====
import Idealize.ShloMosaic.PureOps.Ideal.Laws
import Idealize.ShloMosaic.Lib.IdealHost

/-!
# Small facts about the exact extended-real reading of float operations

Bit patterns of a few single-precision constants as extended reals; the 0/1 value of a disjunction of two
"not equal" tests; a maximum folded over two entries; a finite sum of real numbers embedded in the extended reals.
-/

noncomputable section

namespace Cert.LibIdeal

open Idealize.ShloMosaic
open scoped BigOperators

/-- The single-precision pattern `0xBF000000` is `-1/2`. -/
theorem ofBits_neg_half_f32 : Ideal.ofBits .f32 0xBF000000#32 = ((-1 / 2 : ℝ) : EReal) := by
  simp [Ideal.ofBits, Ideal.ieee, -EReal.coe_mul]; norm_num

/-- The single-precision pattern `0xFF800000` is `-∞`. -/
theorem ofBits_neg_inf_f32 : Ideal.ofBits .f32 0xFF800000#32 = (⊥ : EReal) := by
  simp [Ideal.ofBits, Ideal.ieee]

/-- Two "not equal to `z`" tests, or-ed and read as a float, give `1` when either holds and `0` otherwise. -/
theorem uitofp_ori_une (a b z : EReal) :
    (FloatOps.uitofp (F := Ideal) .f32 (IntOp.ori (FloatOps.cmpf (F := Ideal) (φ := .f32) .une a z)
      (FloatOps.cmpf (F := Ideal) (φ := .f32) .une b z)) : EReal) = if a ≠ z ∨ b ≠ z then 1 else 0 := by
  show (((IntOp.ori (Ideal.cmp .une a z) (Ideal.cmp .une b z)).toNat : ℝ) : EReal) = _
  unfold Ideal.cmp IntOp.ori
  by_cases ha : a = z <;> by_cases hb : b = z <;> simp [ha, hb]

/-- A maximum folded over two entries from `b`. -/
theorem fold_max_fin2 (b : EReal) (f : Fin 2 → EReal) :
    (Finset.univ : Finset (Fin 2)).fold max b f = max b (max (f 0) (f 1)) := by
  apply le_antisymm
  · refine (Finset.fold_max_le _).mpr ⟨le_max_left _ _, fun k _ => ?_⟩
    fin_cases k
    · exact le_max_of_le_right (le_max_left _ _)
    · exact le_max_of_le_right (le_max_right _ _)
  · refine max_le ((Finset.le_fold_max _).mpr (Or.inl le_rfl)) (max_le ?_ ?_)
    · exact (Finset.le_fold_max _).mpr (Or.inr ⟨0, Finset.mem_univ _, le_rfl⟩)
    · exact (Finset.le_fold_max _).mpr (Or.inr ⟨1, Finset.mem_univ _, le_rfl⟩)

/-- A finite sum of real numbers, embedded in the extended reals, is the sum of the embedded terms. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

end Cert.LibIdeal

end
-- ==== Proof.LibSoftmaxShift.lean ====
/-
  A softmax on the extended reals does not depend on its shift. For real logits l and ANY real number c, the quotient
  exp (l k - c) / ∑ j, exp (l j - c) — computed with the exact extended-real exponential and division — is the real
  number exp (l k) / ∑ j, exp (l j): a program that shifts by the row maximum, one that shifts several rows by a common
  maximum and one that does not shift at all compute the same softmax. With it: a maximum folded from minus infinity
  over a nonempty family of real numbers is a real number (so the usual shift is real), the single-precision words of
  1 and of minus infinity, and the product of two one-bit tests read as 0/1 numbers as their conjunction.
-/
import Idealize.ShloMosaic.PureOps.Ideal.Laws
import proofs.«152448_g84250078479002_cont_sun_c4_284_34_alg».proof.Proof.LibReal
import proofs.«152448_g84250078479002_cont_sun_c4_284_34_alg».proof.Proof.LibIdeal

noncomputable section

namespace Cert.LibSoftmax

open Idealize.ShloMosaic Cert.LibReal
open scoped BigOperators

/-- The single-precision pattern `0x3F800000` is `1`. -/
theorem ofBits_one : Ideal.ofBits .f32 0x3F800000#32 = (1 : EReal) := by
  simp [Ideal.ofBits, Ideal.ieee, -EReal.coe_mul]; norm_num

/-- The single-precision pattern `0xFF800000` is minus infinity. -/
theorem ofBits_negInf : Ideal.ofBits .f32 0xFF800000#32 = (⊥ : EReal) := by
  simp [Ideal.ofBits, Ideal.ieee]

/-! ## A quotient of exponentials does not depend on the shift -/

/-- For real logits the quotient exp (l k - c) / ∑ exp (l j - c), computed on the extended reals with any real
    shift c, is the real number exp (l k) / ∑ exp (l j). -/
theorem softmax_shift {ι : Type*} (s : Finset ι) (l : ι → ℝ) (c : ℝ) (k : ι) (hk : k ∈ s) :
    Ideal.div (Ideal.exp ((l k : EReal) - (c : EReal))) (∑ j ∈ s, Ideal.exp ((l j : EReal) - (c : EReal)))
      = ((Real.exp (l k) / ∑ j ∈ s, Real.exp (l j) : ℝ) : EReal) := by
  have hs : ∑ j ∈ s, Ideal.exp ((l j : EReal) - (c : EReal)) = ((∑ j ∈ s, Real.exp (l j - c) : ℝ) : EReal) := by
    rw [Cert.LibIdeal.coe_sum]
    refine Finset.sum_congr rfl fun j _ => ?_
    rw [← EReal.coe_sub]; rfl
  have hpos : 0 < ∑ j ∈ s, Real.exp (l j - c) := Finset.sum_pos (fun j _ => Real.exp_pos _) ⟨k, hk⟩
  have hpos' : 0 < ∑ j ∈ s, Real.exp (l j) := Finset.sum_pos (fun j _ => Real.exp_pos _) ⟨k, hk⟩
  rw [hs, ← EReal.coe_sub, Ideal.exp_coe, Ideal.div_coe hpos.ne', ← EReal.coe_mul]
  congr 1
  have e : ∑ j ∈ s, Real.exp (l j - c) = (∑ j ∈ s, Real.exp (l j)) * Real.exp (-c) := by
    rw [Finset.sum_mul]
    refine Finset.sum_congr rfl fun j _ => ?_
    rw [← Real.exp_add, sub_eq_add_neg]
  rw [e, sub_eq_add_neg, Real.exp_add]
  have h1 : Real.exp (-c) ≠ 0 := (Real.exp_pos _).ne'
  field_simp

/-- A maximum folded from minus infinity over a nonempty family of real numbers is a real number. -/
theorem isReal_fold_max {ι : Type*} (s : Finset ι) (hs : s.Nonempty) (l : ι → EReal) (h : ∀ j ∈ s, IsReal (l j)) :
    IsReal (s.fold max ⊥ l) := by
  classical
  induction hs using Finset.Nonempty.cons_induction with
  | singleton a =>
    rw [Finset.fold_singleton, max_bot_right]
    exact h a (Finset.mem_singleton_self a)
  | cons a s ha hs ih =>
    rw [Finset.fold_cons]
    exact (h a (Finset.mem_cons_self a s)).max (ih fun j hj => h j (Finset.mem_cons_of_mem hj))

/-- The product of two one-bit tests read as 0/1 numbers is their conjunction read as a number. -/
theorem bits_mul (b₁ b₂ : BitVec 1) :
    ((((b₁.setWidth 32).toInt : ℝ) : EReal)) * ((((b₂.setWidth 32).toInt : ℝ) : EReal))
      = (((IntOp.andi b₁ b₂).toNat : ℝ) : EReal) := by
  rcases BitVec.eq_zero_or_eq_one b₁ with rfl | rfl <;> rcases BitVec.eq_zero_or_eq_one b₂ with rfl | rfl <;>
    simp [IntOp.andi]

end Cert.LibSoftmax

end
-- ==== Proof.LibRealEdgeSums.lean ====
/-
  The two rearrangements behind a normalised graph convolution, over the extended reals.

  Nodes `v`, edges `e`; every edge has a source row `s e`; `In v` is the set of edges arriving at `v`, and `g e` names
  the arrival node again (`g e = v` for `e ∈ In v`). With a per-node weight `d`:

  * scaling the rows before summing over the arriving edges, scaling the sum by `d v` and THEN multiplying by a matrix
    `W` gives the same as multiplying each source row by `W` first and weighting each edge by `d (s e) * d (g e)`;
  * summing rows already weighted by `d (s e)` and scaling the sum by `d v` gives the same as weighting each edge by
    `d (s e) * d (g e)`.

  Both are distributivity and an exchange of two finite sums. On the extended reals distributivity fails at infinities,
  so the laws are stated for entries that are real numbers and proved in ℝ; the closure lemmas `IsReal.*` carry "is a
  real number" through sums, products and maxima.
-/
import Idealize.ShloMosaic.PureOps.Ideal.Laws
import Mathlib.Algebra.BigOperators.Group.Finset.Sigma
import Mathlib.Tactic.Ring

open scoped BigOperators

namespace Cert.GcnAlgebra

/-- An extended real that is a real number. -/
def IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨r, rfl⟩ := ha; obtain ⟨t, rfl⟩ := hb; exact ⟨r + t, (EReal.coe_add r t).symm⟩
theorem IsReal.mul {a b : EReal} (ha : IsReal a) (hb : IsReal b) : IsReal (a * b) := by
  obtain ⟨r, rfl⟩ := ha; obtain ⟨t, rfl⟩ := hb; exact ⟨r * t, (EReal.coe_mul r t).symm⟩
theorem IsReal.max {a b : EReal} (ha : IsReal a) (hb : IsReal b) : IsReal (max a b) := by
  obtain ⟨r, rfl⟩ := ha; obtain ⟨t, rfl⟩ := hb; exact ⟨Max.max r t, (EReal.coe_strictMono.monotone.map_max).symm⟩

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.sum {ι : Type*} (S : Finset ι) (f : ι → EReal) (h : ∀ i ∈ S, IsReal (f i)) : IsReal (∑ i ∈ S, f i) := by
  classical
  induction S using Finset.induction_on with
  | empty => simpa using IsReal.zero
  | insert a S ha ih =>
    rw [Finset.sum_insert ha]
    exact (h a (Finset.mem_insert_self a S)).add (ih fun i hi => h i (Finset.mem_insert_of_mem hi))

section Laws
variable {N E A B : ℕ} (s g : Fin E → Fin N) (In : Fin N → Finset (Fin E))
  (hg : ∀ v, ∀ e ∈ In v, g e = v) (d : Fin N → EReal) (hd : ∀ v, IsReal (d v))

include hg hd

/-- AGGREGATE THEN TRANSFORM is TRANSFORM THEN AGGREGATE: for real entries, the pre-scaled rows summed over the
    arriving edges, scaled by `d v` and multiplied by `W`, are the edge sum of the transformed source rows weighted by
    `d (s e) * d (g e)`. -/
theorem aggregate_then_transform (x : Fin N → Fin A → EReal) (hx : ∀ v f, IsReal (x v f))
    (W : Fin A → Fin B → EReal) (hW : ∀ f j, IsReal (W f j)) (v : Fin N) (j : Fin B) :
    ∑ f, ((∑ e ∈ In v, x (s e) f * d (s e)) * d v) * W f j
      = ∑ e ∈ In v, (∑ f, x (s e) f * W f j) * (d (s e) * d (g e)) := by
  choose xr hxr using hx
  choose Wr hWr using hW
  choose dr hdr using hd
  have hR : (∑ f, ((∑ e ∈ In v, xr (s e) f * dr (s e)) * dr v) * Wr f j : ℝ)
      = ∑ e ∈ In v, (∑ f, xr (s e) f * Wr f j) * (dr (s e) * dr v) := by
    simp only [Finset.sum_mul]
    rw [Finset.sum_comm]
    refine Finset.sum_congr rfl fun e _ => Finset.sum_congr rfl fun f _ => ?_
    ring
  have hL : ∑ f, ((∑ e ∈ In v, x (s e) f * d (s e)) * d v) * W f j
      = ((∑ f, ((∑ e ∈ In v, xr (s e) f * dr (s e)) * dr v) * Wr f j : ℝ) : EReal) := by
    simp only [hxr, hWr, hdr, coe_sum, EReal.coe_mul]
  have hRR : ∑ e ∈ In v, (∑ f, x (s e) f * W f j) * (d (s e) * d (g e))
      = ((∑ e ∈ In v, (∑ f, xr (s e) f * Wr f j) * (dr (s e) * dr v) : ℝ) : EReal) := by
    rw [coe_sum]
    refine Finset.sum_congr rfl fun e he => ?_
    rw [hg v e he]
    simp only [hxr, hWr, hdr, coe_sum, EReal.coe_mul]
  rw [hL, hRR, hR]

/-- SCALE AFTER THE SUM is WEIGHT EACH EDGE: for real entries, rows weighted by `d (s e)`, summed over the arriving
    edges and scaled by `d v`, are the edge sum weighted by `d (s e) * d (g e)`. -/
theorem scale_after_sum (T : Fin N → EReal) (hT : ∀ u, IsReal (T u)) (v : Fin N) :
    (∑ e ∈ In v, T (s e) * d (s e)) * d v = ∑ e ∈ In v, T (s e) * (d (s e) * d (g e)) := by
  choose Tr hTr using hT
  choose dr hdr using hd
  have hR : ((∑ e ∈ In v, Tr (s e) * dr (s e)) * dr v : ℝ) = ∑ e ∈ In v, Tr (s e) * (dr (s e) * dr v) := by
    rw [Finset.sum_mul]
    exact Finset.sum_congr rfl fun e _ => by ring
  have hL : (∑ e ∈ In v, T (s e) * d (s e)) * d v = (((∑ e ∈ In v, Tr (s e) * dr (s e)) * dr v : ℝ) : EReal) := by
    simp only [hTr, hdr, coe_sum, EReal.coe_mul]
  have hRR : ∑ e ∈ In v, T (s e) * (d (s e) * d (g e)) = ((∑ e ∈ In v, Tr (s e) * (dr (s e) * dr v) : ℝ) : EReal) := by
    rw [coe_sum]
    refine Finset.sum_congr rfl fun e he => ?_
    rw [hg v e he]
    simp only [hTr, hdr, EReal.coe_mul]
  rw [hL, hRR, hR]

end Laws

end Cert.GcnAlgebra
-- ==== Proof.LibFiniteEntries.lean ====
/-
  "Every entry is finite", read back from its printed test, for an array of any shape.

  A finiteness precondition tests each entry by |a| < +∞ — the absolute value the host's max (a, -a), plus infinity the
  word 0x7F800000 repeated over the shape — and reduces the tests by `and` to one bit. When that bit is one every test is
  one; and on the extended reals |a| < +∞ says a is neither infinity, so a is a real number (`IsReal`).
-/
import proofs.«152448_g84250078479002_cont_sun_c4_284_34_alg».proof.Proof.LibRealEdgeSums
import proofs.«152448_g84250078479002_cont_sun_c4_284_34_alg».proof.Proof.LibBroadcastInDim
import Idealize.ShloMosaic.Lib.ReduceAll
import Idealize.ShloMosaic.Lib.ValueIdx
import Idealize.ShloMosaic.PureOps.Ideal.Laws

noncomputable section

namespace Cert.FiniteEntries

open Idealize.ShloMosaic Idealize.ShloMosaic.ValueIdx Cert.GcnAlgebra

/-- The word 0x7F800000 is plus infinity. -/
theorem inf_word : Ideal.ofBits .f32 0x7F800000#32 = ⊤ := by simp [Ideal.ofBits, Ideal.ieee]

/-- An extended real whose absolute value compares below plus infinity is a real number. -/
theorem isReal_of_lt_inf (x : EReal) (h : Ideal.cmp .olt (max x (-x)) (Ideal.ofBits .f32 0x7F800000#32) = 1#1) : IsReal x := by
  rw [inf_word] at h
  have hlt : max x (-x) < ⊤ := by
    by_contra hc
    have h0 : Ideal.cmp .olt (max x (-x)) ⊤ = 0#1 := by
      unfold Ideal.cmp
      simp [hc]
    rw [h0] at h
    exact absurd h (by decide)
  obtain ⟨h1, h2⟩ := max_lt_iff.mp hlt
  induction x using EReal.rec with
  | bot => exact absurd h2 (by simp)
  | top => exact absurd h1 (lt_irrefl _)
  | coe r => exact ⟨r, rfl⟩

instance : Subsingleton (⟨0, ![]⟩ : Shape).Idx := ⟨fun a b => funext fun d => d.elim0⟩

/-- One argument: when the all-reduction of its "absolute value below plus infinity" tests is one, every entry is real. -/
theorem all_real {S : Shape} (a : FVec Ideal S .f32) (hb : (⟨0, ![]⟩ : Shape).BroadcastsInDim S ![])
    {axes : List (Fin S.rank)} (hr : S.ReducesTo axes ⟨0, ![]⟩) (hu : 0 < (⟨0, ![]⟩ : Shape).numel)
    (h : Host.reduce IntOp.andi
        (cmpf .olt (Host.absf a) (broadcastInDim S ![] hb (constant (F := Ideal) ⟨0, ![]⟩ .f32 0x7F800000#32)))
        (constantI ⟨0, ![]⟩ 1 1#1) hr hu ix0 = 1#1) (i : S.Idx) : IsReal (a i) := by
  have hi := Host.reduce_andi_all _ _ hr hu ix0 h i
  have hB : broadcastInDim S ![] hb (constant (F := Ideal) ⟨0, ![]⟩ .f32 0x7F800000#32) i
      = Ideal.ofBits .f32 0x7F800000#32 := Cert.BroadcastInDim.scalar_apply _ hb i
  have hi' : Ideal.cmp .olt (max (a i) (-(a i)))
      (broadcastInDim S ![] hb (constant (F := Ideal) ⟨0, ![]⟩ .f32 0x7F800000#32) i) = 1#1 := hi
  rw [hB] at hi'
  exact isReal_of_lt_inf _ hi'

end Cert.FiniteEntries

end
-- ==== Proof.Realness.lean ====
/-
  Every entry of the ten argument arrays is a real number when the finiteness test of the arguments passes, and then so
  is every intermediate quantity of the network: the sums, products and maxima that build them keep real numbers real.
  On real numbers the last layer's "subtract the logarithm of the sum of exponentials plus the maximum" is the
  log-softmax of the row.
-/
import proofs.«152448_g84250078479002_cont_sun_c4_284_34_alg».proof.Proof.Spec
import proofs.«152448_g84250078479002_cont_sun_c4_284_34_alg».proof.Proof.LibReal
import proofs.«152448_g84250078479002_cont_sun_c4_284_34_alg».proof.Proof.LibSoftmaxShift
import proofs.«152448_g84250078479002_cont_sun_c4_284_34_alg».proof.Proof.LibFiniteEntries
import proofs.«152448_g84250078479002_cont_sun_c4_284_34_alg».proof.Proof.LibLogSoftmax
import proofs.«152448_g84250078479002_cont_sun_c4_284_34_alg».proof.Pre_finite_inputs

open scoped BigOperators

noncomputable section

namespace Cert.Realness

open Idealize.ShloMosaic Idealize.ShloMosaic.ValueIdx Cert.Spec

/-- The extended real `v` is a real number. -/
abbrev IsReal (v : EReal) : Prop := Cert.LibReal.IsReal v

/-- Every entry of each of the ten argument arrays is a real number. -/
def RealArgs (a : Cert.Spec.Args) : Prop :=
  (∀ i, IsReal (a.xe i)) ∧ (∀ i, IsReal (a.y i)) ∧ (∀ i, IsReal (a.adjF i)) ∧ (∀ i, IsReal (a.adjC i)) ∧
  (∀ i, IsReal (a.fc1w i)) ∧ (∀ i, IsReal (a.fc1b i)) ∧ (∀ i, IsReal (a.gc1w i)) ∧ (∀ i, IsReal (a.gc1b i)) ∧
  (∀ i, IsReal (a.gc2w i)) ∧ (∀ i, IsReal (a.gc2b i))

/-! ## The intermediate quantities are real -/

section closure

variable {a : Cert.Spec.Args}

theorem real_xnew (h : RealArgs a) (n : Fin 2000) (f : Fin 128) : IsReal (Cert.Spec.xnew a n f) := by
  unfold Cert.Spec.xnew
  exact (Cert.LibReal.IsReal.sum _ _ fun k _ => (h.1 _).mul (h.2.2.2.2.1 _)).add (h.2.2.2.2.2.1 _)

theorem real_ystar (h : RealArgs a) (r : Fin 10000) (f : Fin 128) : IsReal (Cert.Spec.ystar a r f) := by
  unfold Cert.Spec.ystar
  split
  · exact h.2.1 _
  · exact real_xnew h _ _

theorem real_s1 (h : RealArgs a) (r : Fin 10000) (k : Fin 64) : IsReal (Cert.Spec.s1 a r k) := by
  unfold Cert.Spec.s1
  exact Cert.LibReal.IsReal.sum _ _ fun f _ => (real_ystar h r f).mul (h.2.2.2.2.2.2.1 _)

theorem real_yemb (h : RealArgs a) (r : Fin 10000) (k : Fin 64) : IsReal (Cert.Spec.yemb a r k) := by
  unfold Cert.Spec.yemb
  exact ((Cert.LibReal.IsReal.sum _ _ fun n _ => (h.2.2.1 _).mul (real_s1 h n k)).add (h.2.2.2.2.2.2.2.1 _)).max
    Cert.LibReal.isReal_zero

theorem real_s2 (h : RealArgs a) (r : Fin 10000) (c : Fin 40) : IsReal (Cert.Spec.s2 a r c) := by
  unfold Cert.Spec.s2
  exact Cert.LibReal.IsReal.sum _ _ fun k _ => (real_yemb h r k).mul (h.2.2.2.2.2.2.2.2.1 _)

theorem real_logit (h : RealArgs a) (r : Fin 10000) (c : Fin 40) : IsReal (Cert.Spec.logit a r c) := by
  unfold Cert.Spec.logit
  exact (Cert.LibReal.IsReal.sum _ _ fun n _ => (h.2.2.2.1 _).mul (real_s2 h n c)).add (h.2.2.2.2.2.2.2.2.2 _)

end closure

/-! ## The last layer's law on real rows -/

/-- The maximum of a row of real numbers over a nonempty index set is a real number. -/
theorem real_rowMax {M : ℕ} [NeZero M] (z : Fin M → EReal) (hz : ∀ c, IsReal (z c)) : IsReal (Cert.LogSoftmax.rowMax z) := by
  show IsReal ((Finset.univ : Finset (Fin M)).fold max (Ideal.ofBits .f32 0xFF800000#32) z)
  rw [Cert.LibSoftmax.ofBits_negInf]
  exact Cert.LibSoftmax.isReal_fold_max _ Finset.univ_nonempty z fun j _ => hz j

/-- For a row of real numbers, subtracting the logarithm of the sum of shifted exponentials plus the maximum at once is
    the row's log-softmax. -/
theorem row_law (z : Fin 40 → EReal) (hz : ∀ c, IsReal (z c)) (c : Fin 40) :
    z c - (Ideal.log (∑ c', Ideal.exp (z c' - Cert.LogSoftmax.rowMax z)) + Cert.LogSoftmax.rowMax z)
      = Cert.LogSoftmax.logSoftmaxRow z c := by
  have hm : IsReal (Cert.LogSoftmax.rowMax z) := real_rowMax z hz
  have hs : IsReal (∑ c', Ideal.exp (z c' - Cert.LogSoftmax.rowMax z)) :=
    Cert.LibReal.IsReal.sum _ _ fun k _ => ((hz k).sub hm).exp
  have hpos : 0 < ∑ c', Ideal.exp (z c' - Cert.LogSoftmax.rowMax z) :=
    Cert.LibReal.sum_exp_pos Finset.univ Finset.univ_nonempty (fun c' => z c' - Cert.LogSoftmax.rowMax z)
      fun k _ => (hz k).sub hm
  rw [add_comm, Cert.LibReal.sub_add_log (hz c) hm hs hpos]
  rfl

/-! ## From the finiteness test to real entries -/

/-- One conjunct of the test: the all-reduction of "absolute value below plus infinity" being one makes every entry real. -/
theorem entries_real {S : Shape} (x : FVec Ideal S .f32) (hb : (⟨0, ![]⟩ : Shape).BroadcastsInDim S ![])
    {axes : List (Fin S.rank)} (hr : S.ReducesTo axes ⟨0, ![]⟩) (hu : 0 < (⟨0, ![]⟩ : Shape).numel)
    (h : Host.reduce IntOp.andi
        (cmpf .olt (Host.absf x) (broadcastInDim S ![] hb (constant (F := Ideal) ⟨0, ![]⟩ .f32 0x7F800000#32)))
        (constantI ⟨0, ![]⟩ 1 1#1) hr hu ix0 = 1#1) (i : S.Idx) : IsReal (x i) := by
  obtain ⟨r, hr'⟩ := Cert.FiniteEntries.all_real x hb hr hu h i
  exact ⟨r, hr'⟩

/-- When the finiteness test of the ten arguments is one, every entry of every argument is a real number. -/
theorem real_of_pre [Cert.Pre_finite_inputs.Facts]
    (x0 : Mat 2000 256) (x1 : Mat 8000 128) (x2 x3 : Mat 10000 10000) (x4 : Mat 128 256) (x5 : Vct 128)
    (x6 : Mat 128 64) (x7 : Vct 64) (x8 : Mat 64 40) (x9 : Vct 40)
    (h : Cert.Pre_finite_inputs.fn (F := Ideal) x0 x1 x2 x3 x4 x5 x6 x7 x8 x9 = fun _ => 1#1) :
    RealArgs ⟨x0, x1, x2, x3, x4, x5, x6, x7, x8, x9⟩ := by
  have h0 := congrFun h ix0
  dsimp only [Cert.Pre_finite_inputs.fn, Cert.Pre_finite_inputs.fn_part1, Cert.Pre_finite_inputs.fn_part2] at h0
  obtain ⟨h8, e9⟩ := IntOp.andi_eq_one.1 h0
  obtain ⟨h7, e8⟩ := IntOp.andi_eq_one.1 h8
  obtain ⟨h6, e7⟩ := IntOp.andi_eq_one.1 h7
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨entries_real x0 _ _ _ e0, entries_real x1 _ _ _ e1, entries_real x2 _ _ _ e2, entries_real x3 _ _ _ e3,
    entries_real x4 _ _ _ e4, entries_real x5 _ _ _ e5, entries_real x6 _ _ _ e6, entries_real x7 _ _ _ e7,
    entries_real x8 _ _ _ e8, entries_real x9 _ _ _ e9⟩

end Cert.Realness

end
-- ==== Proof.KernelIsSpec.lean ====
/-
  The kernel's arithmetic is the specification's, block by block.

  Each payload of the kernel body, applied to blocks that agree entry by entry with the argument arrays (or with
  quantities of the specification already computed), is the matching entry of the specification: the two halves of the
  first projection (the stacked features times G₁, stored transposed), a block of rows of the hidden embedding, of the
  second projection, and of the log-softmax of the scores. Only the order of the factors inside the sums differs; for
  the last one the kernel subtracts the logarithm of the shifted exponential sum plus the row maximum at once, which on
  real rows is the row's log-softmax.
-/
import proofs.«152448_g84250078479002_cont_sun_c4_284_34_alg».proof.Proof.PayAt
import proofs.«152448_g84250078479002_cont_sun_c4_284_34_alg».proof.Proof.Spec
import proofs.«152448_g84250078479002_cont_sun_c4_284_34_alg».proof.Proof.Realness

open scoped BigOperators

noncomputable section

namespace Cert.KernelIdeal.IsSpec

open Idealize.ShloMosaic Idealize.ShloMosaic.ValueIdx Idealize.SL.Sem
open Cert.KernelIdeal Cert.KernelIdeal.Gen Cert.KernelIdeal.PayAt

/-- A row of the stacked features among the first 8000 is the row of Y. -/
theorem ystar_top (a : Cert.Spec.Args) (n : Fin 8000) (f : Fin 128) :
    Cert.Spec.ystar a ⟨n.val, by omega⟩ f = a.y (ix2 n f) := by
  unfold Cert.Spec.ystar
  exact dif_pos n.isLt

/-- A row of the stacked features among the last 2000 is the row of the widened low-layer embedding. -/
theorem ystar_bottom (a : Cert.Spec.Args) (n : Fin 2000) (f : Fin 128) :
    Cert.Spec.ystar a ⟨8000 + n.val, by omega⟩ f = Cert.Spec.xnew a n f := by
  unfold Cert.Spec.ystar
  rw [dif_neg (show ¬ (8000 + n.val < 8000) by omega)]
  exact congrArg (fun m : Fin 2000 => Cert.Spec.xnew a m f) (Fin.ext (show 8000 + n.val - 8000 = n.val by omega))

/-- The first payload is the first 8000 columns of the transposed first projection. -/
theorem s1t_left (a : Cert.Spec.Args) (w : Vec Ideal S128x64 .f32) (y : Vec Ideal S8000x128 .f32)
    (hw : ∀ f h, w (ix2 f h) = a.gc1w (ix2 f h)) (hy : ∀ n f, y (ix2 n f) = a.y (ix2 n f))
    (h : Fin 64) (n : Fin 8000) :
    k0_pay1 (F := Ideal) w y (ix2 h n) = Cert.Spec.s1 a ⟨n.val, by omega⟩ h := by
  rw [pay1_at]
  unfold Cert.Spec.s1
  refine Finset.sum_congr rfl fun f _ => ?_
  rw [hw, hy, ystar_top, mul_comm]

/-- The second payload is the last 2000 columns of the transposed first projection. -/
theorem s1t_right (a : Cert.Spec.Args) (w : Vec Ideal S128x64 .f32) (v : Vec Ideal S128x256 .f32)
    (x : Vec Ideal S2000x256 .f32) (b : Vec Ideal S128x1 .f32)
    (hw : ∀ f h, w (ix2 f h) = a.gc1w (ix2 f h)) (hv : ∀ f k, v (ix2 f k) = a.fc1w (ix2 f k))
    (hx : ∀ n k, x (ix2 n k) = a.xe (ix2 n k)) (hb : ∀ f, b (ix2 f (0 : Fin 1)) = a.fc1b (ix1 f))
    (h : Fin 64) (n : Fin 2000) :
    k0_pay2 (F := Ideal) w v x b (ix2 h n) = Cert.Spec.s1 a ⟨8000 + n.val, by omega⟩ h := by
  rw [pay2_at]
  unfold Cert.Spec.s1
  refine Finset.sum_congr rfl fun f _ => ?_
  rw [hw, hb, ystar_bottom, mul_comm]
  congr 1
  unfold Cert.Spec.xnew
  congr 1
  refine Finset.sum_congr rfl fun k _ => ?_
  rw [hv, hx, mul_comm]

/-- The third payload on a block of 200 rows of F is those rows of the hidden embedding. -/
theorem yemb_blk (a : Cert.Spec.Args) (fb : Vec Ideal S200x10000 .f32) (s : Vec Ideal S64x10000 .f32)
    (g : Vec Ideal S1x64 .f32) (r0 : ℕ) (hr : r0 + 200 ≤ 10000)
    (hfb : ∀ (p : Fin 200) (n : Fin 10000), fb (ix2 p n) = a.adjF (ix2 ⟨r0 + p.val, by omega⟩ n))
    (hs : ∀ (h : Fin 64) (n : Fin 10000), s (ix2 h n) = Cert.Spec.s1 a n h)
    (hg : ∀ h : Fin 64, g (ix2 (0 : Fin 1) h) = a.gc1b (ix1 h)) (p : Fin 200) (h : Fin 64) :
    k0_pay3 (F := Ideal) fb s g (ix2 p h) = Cert.Spec.yemb a ⟨r0 + p.val, by omega⟩ h := by
  rw [pay3_at]
  unfold Cert.Spec.yemb
  rw [hg]
  congr 2
  refine Finset.sum_congr rfl fun n _ => ?_
  rw [hfb, hs]

/-- The fourth payload on that block is those rows of the second projection. -/
theorem s2_blk (a : Cert.Spec.Args) (fb : Vec Ideal S200x10000 .f32) (s : Vec Ideal S64x10000 .f32)
    (g : Vec Ideal S1x64 .f32) (w2 : Vec Ideal S64x40 .f32) (r0 : ℕ) (hr : r0 + 200 ≤ 10000)
    (hfb : ∀ (p : Fin 200) (n : Fin 10000), fb (ix2 p n) = a.adjF (ix2 ⟨r0 + p.val, by omega⟩ n))
    (hs : ∀ (h : Fin 64) (n : Fin 10000), s (ix2 h n) = Cert.Spec.s1 a n h)
    (hg : ∀ h : Fin 64, g (ix2 (0 : Fin 1) h) = a.gc1b (ix1 h))
    (hw2 : ∀ h c, w2 (ix2 h c) = a.gc2w (ix2 h c)) (p : Fin 200) (c : Fin 40) :
    k0_pay4 (F := Ideal) fb s g w2 (ix2 p c) = Cert.Spec.s2 a ⟨r0 + p.val, by omega⟩ c := by
  rw [pay4_at]
  unfold Cert.Spec.s2
  refine Finset.sum_congr rfl fun h _ => ?_
  rw [yemb_blk a fb s g r0 hr hfb hs hg p h, hw2]

/-- The fifth payload on a block of 200 rows of C is those rows of the first result, when the arguments are real. -/
theorem out_blk (a : Cert.Spec.Args) (ha : Cert.Realness.RealArgs a) (cb : Vec Ideal S200x10000 .f32)
    (s2 : Vec Ideal S10000x40 .f32) (g2 : Vec Ideal S1x40 .f32) (r0 : ℕ) (hr : r0 + 200 ≤ 10000)
    (hcb : ∀ (p : Fin 200) (n : Fin 10000), cb (ix2 p n) = a.adjC (ix2 ⟨r0 + p.val, by omega⟩ n))
    (hs2 : ∀ (n : Fin 10000) (c : Fin 40), s2 (ix2 n c) = Cert.Spec.s2 a n c)
    (hg2 : ∀ c : Fin 40, g2 (ix2 (0 : Fin 1) c) = a.gc2b (ix1 c)) (p : Fin 200) (c : Fin 40) :
    k0_pay5 (F := Ideal) cb s2 g2 (ix2 p c) = Cert.Spec.out a ⟨r0 + p.val, by omega⟩ c := by
  have hz : (fun c' : Fin 40 => (∑ n : Fin 10000, cb (ix2 p n) * s2 (ix2 n c')) + g2 (ix2 (0 : Fin 1) c'))
      = fun c' => Cert.Spec.logit a ⟨r0 + p.val, by omega⟩ c' := funext fun c' => by
    unfold Cert.Spec.logit
    rw [hg2]
    congr 1
    refine Finset.sum_congr rfl fun n _ => ?_
    rw [hcb, hs2]
  refine (pay5_at cb s2 g2 p c).trans ?_
  show (fun c' : Fin 40 => (∑ n : Fin 10000, cb (ix2 p n) * s2 (ix2 n c')) + g2 (ix2 (0 : Fin 1) c')) c
      - (Ideal.log (∑ c', Ideal.exp ((fun c' : Fin 40 => (∑ n : Fin 10000, cb (ix2 p n) * s2 (ix2 n c')) + g2 (ix2 (0 : Fin 1) c')) c'
          - Cert.LogSoftmax.rowMax (fun c' : Fin 40 => (∑ n : Fin 10000, cb (ix2 p n) * s2 (ix2 n c')) + g2 (ix2 (0 : Fin 1) c'))))
        + Cert.LogSoftmax.rowMax (fun c' : Fin 40 => (∑ n : Fin 10000, cb (ix2 p n) * s2 (ix2 n c')) + g2 (ix2 (0 : Fin 1) c'))) = _
  rw [hz]
  exact Cert.Realness.row_law _ (fun c' => Cert.Realness.real_logit ha _ c') c

end Cert.KernelIdeal.IsSpec

end
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.RefIsSpec.lean ====
/-
  The reference program's two results, stage by stage, are the network of the specification.

  The reference forms X · W₁ᵀ through a transpose and a contraction of axis 1 against axis 0, adds each bias as a vector
  placed as a row and repeated down the rows, stacks Y over the new rows, takes two graph convolutions (a projection
  followed by a product with the adjacency matrix), clips the first at zero from below and takes the log-softmax of the
  rows of the second. Each stage is named here as the composed term of the operations that build it, and read at an index
  over the extended reals: a contraction as the plain sum over the contracted coordinate, a bias at its column, the
  stacked array by the part the row falls in, the last stage as the row function of the log-softmax.
-/
import proofs.«152448_g84250078479002_cont_sun_c4_284_34_alg».proof.Proof.Gen.ReferenceIdeal
import Idealize.ShloMosaic.Lib.Pipeline.Value
import Idealize.ShloMosaic.Lib.ValueIdx
import Idealize.ShloMosaic.PureOps.Ideal.Laws
import proofs.«152448_g84250078479002_cont_sun_c4_284_34_alg».proof.Proof.Spec
import proofs.«152448_g84250078479002_cont_sun_c4_284_34_alg».proof.Proof.LibLogSoftmax
import proofs.«152448_g84250078479002_cont_sun_c4_284_34_alg».proof.Proof.LibPlainDot
import proofs.«152448_g84250078479002_cont_sun_c4_284_34_alg».proof.Proof.LibBroadcastInDim
import proofs.«152448_g84250078479002_cont_sun_c4_284_34_alg».proof.Proof.LibBiasRow

open scoped BigOperators

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx

/-! ## The stages, for any float values -/

section stages

variable {F : FTy → Type} [FloatOps F]

/-- X · W₁ᵀ + b₁. -/
def refXnew (x0 : (⟨S2000x256, .f32⟩ : BufTy).Contents (Elt F)) (x4 : (⟨S128x256, .f32⟩ : BufTy).Contents (Elt F)) (x5 : (⟨S128, .f32⟩ : BufTy).Contents (Elt F)) : (⟨S2000x128, .f32⟩ : BufTy).Contents (Elt F) :=
  addf (Host.dotGeneral dot_S2000x256_S256x128_S2000x128_1_0_0_1_n_n none x0 (transpose S256x128 [1, 0] x4 transposes_S128x256_S256x128_1_0)) (broadcastInDim S2000x128 ![0, 1] bcast_S1x128_S2000x128_0_1 (broadcastInDim S1x128 ![1] bcast_S128_S1x128_1 x5))

/-- Y stacked over the new rows. -/
def refYstar (x0 : (⟨S2000x256, .f32⟩ : BufTy).Contents (Elt F)) (x1 : (⟨S8000x128, .f32⟩ : BufTy).Contents (Elt F)) (x4 : (⟨S128x256, .f32⟩ : BufTy).Contents (Elt F)) (x5 : (⟨S128, .f32⟩ : BufTy).Contents (Elt F)) : (⟨S10000x128, .f32⟩ : BufTy).Contents (Elt F) :=
  concatenate S10000x128 0 [⟨S8000x128, x1⟩, ⟨S2000x128, refXnew (F := F) x0 x4 x5⟩] concatenates_S8000x128_S2000x128_S10000x128_d0

/-- The first projection. -/
def refS1 (x0 : (⟨S2000x256, .f32⟩ : BufTy).Contents (Elt F)) (x1 : (⟨S8000x128, .f32⟩ : BufTy).Contents (Elt F)) (x4 : (⟨S128x256, .f32⟩ : BufTy).Contents (Elt F)) (x5 : (⟨S128, .f32⟩ : BufTy).Contents (Elt F)) (x6 : (⟨S128x64, .f32⟩ : BufTy).Contents (Elt F)) : (⟨S10000x64, .f32⟩ : BufTy).Contents (Elt F) :=
  Host.dotGeneral dot_S10000x128_S128x64_S10000x64_1_0_0_1_n_n none (refYstar (F := F) x0 x1 x4 x5) x6

/-- The hidden embedding: the second result. -/
def refYemb (x0 : (⟨S2000x256, .f32⟩ : BufTy).Contents (Elt F)) (x1 : (⟨S8000x128, .f32⟩ : BufTy).Contents (Elt F)) (x2 : (⟨S10000x10000, .f32⟩ : BufTy).Contents (Elt F)) (x4 : (⟨S128x256, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) : (⟨S10000x64, .f32⟩ : BufTy).Contents (Elt F) :=
  maximumf (addf (Host.dotGeneral dot_S10000x10000_S10000x64_S10000x64_1_0_0_1_n_n none x2 (refS1 (F := F) x0 x1 x4 x5 x6)) (broadcastInDim S10000x64 ![0, 1] bcast_S1x64_S10000x64_0_1 (broadcastInDim S1x64 ![1] bcast_S64_S1x64_1 x7))) (broadcastInDim S10000x64 ![] bcast_S_S10000x64 (constant S_ .f32 0x00000000#32))

/-- The second projection. -/
def refS2 (x0 : (⟨S2000x256, .f32⟩ : BufTy).Contents (Elt F)) (x1 : (⟨S8000x128, .f32⟩ : BufTy).Contents (Elt F)) (x2 : (⟨S10000x10000, .f32⟩ : BufTy).Contents (Elt F)) (x4 : (⟨S128x256, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x40, .f32⟩ : BufTy).Contents (Elt F)) : (⟨S10000x40, .f32⟩ : BufTy).Contents (Elt F) :=
  Host.dotGeneral dot_S10000x64_S64x40_S10000x40_1_0_0_1_n_n none (refYemb (F := F) x0 x1 x2 x4 x5 x6 x7) x8

/-- The class scores before normalisation. -/
def refLogits (x0 : (⟨S2000x256, .f32⟩ : BufTy).Contents (Elt F)) (x1 : (⟨S8000x128, .f32⟩ : BufTy).Contents (Elt F)) (x2 : (⟨S10000x10000, .f32⟩ : BufTy).Contents (Elt F)) (x3 : (⟨S10000x10000, .f32⟩ : BufTy).Contents (Elt F)) (x4 : (⟨S128x256, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x40, .f32⟩ : BufTy).Contents (Elt F)) (x9 : (⟨S40, .f32⟩ : BufTy).Contents (Elt F)) : (⟨S10000x40, .f32⟩ : BufTy).Contents (Elt F) :=
  addf (Host.dotGeneral dot_S10000x10000_S10000x40_S10000x40_1_0_0_1_n_n none x3 (refS2 (F := F) x0 x1 x2 x4 x5 x6 x7 x8)) (broadcastInDim S10000x40 ![0, 1] bcast_S1x40_S10000x40_0_1 (broadcastInDim S1x40 ![1] bcast_S40_S1x40_1 x9))

/-- The row maxima of an array of scores, as the operations take them. -/
def refRowMax (y : (⟨S10000x40, .f32⟩ : BufTy).Contents (Elt F)) : (⟨S10000, .f32⟩ : BufTy).Contents (Elt F) :=
  maximumf (broadcastInDim S10000 ![] bcast_S_S10000 (constant S_ .f32 0xFF800000#32)) (Host.reduce FloatOps.maximumf y (constant S_ .f32 0xFF800000#32) reducesTo_S10000x40_S10000_d1 h_S_)

/-- The scores with each row's maximum subtracted. -/
def refShifted (y : (⟨S10000x40, .f32⟩ : BufTy).Contents (Elt F)) : (⟨S10000x40, .f32⟩ : BufTy).Contents (Elt F) :=
  subf y (broadcastInDim S10000x40 ![0, 1] bcast_S10000x1_S10000x40_0_1 (broadcastInDim S10000x1 ![0] bcast_S10000_S10000x1_0 (refRowMax (F := F) y)))

/-- The log-softmax of the rows of an array of scores, as the operations compose it. -/
def refLogSoftmax (y : (⟨S10000x40, .f32⟩ : BufTy).Contents (Elt F)) : (⟨S10000x40, .f32⟩ : BufTy).Contents (Elt F) :=
  subf (refShifted (F := F) y) (broadcastInDim S10000x40 ![0, 1] bcast_S10000x1_S10000x40_0_1 (Host.log (broadcastInDim S10000x1 ![0] bcast_S10000_S10000x1_0 (Host.reduceAdd (Host.exp (refShifted (F := F) y)) (constant S_ .f32 0x00000000#32) reducesTo_S10000x40_S10000_d1 h_S_))))

/-- The log-softmax of the class scores: the first result. -/
def refOut (x0 : (⟨S2000x256, .f32⟩ : BufTy).Contents (Elt F)) (x1 : (⟨S8000x128, .f32⟩ : BufTy).Contents (Elt F)) (x2 : (⟨S10000x10000, .f32⟩ : BufTy).Contents (Elt F)) (x3 : (⟨S10000x10000, .f32⟩ : BufTy).Contents (Elt F)) (x4 : (⟨S128x256, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x40, .f32⟩ : BufTy).Contents (Elt F)) (x9 : (⟨S40, .f32⟩ : BufTy).Contents (Elt F)) : (⟨S10000x40, .f32⟩ : BufTy).Contents (Elt F) :=
  refLogSoftmax (F := F) (refLogits (F := F) x0 x1 x2 x3 x4 x5 x6 x7 x8 x9)

/-- The second result's stage is the composed term of its operations. -/
theorem refYemb_term (x0 : (⟨S2000x256, .f32⟩ : BufTy).Contents (Elt F)) (x1 : (⟨S8000x128, .f32⟩ : BufTy).Contents (Elt F)) (x2 : (⟨S10000x10000, .f32⟩ : BufTy).Contents (Elt F)) (x4 : (⟨S128x256, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) :
    maximumf (addf (Host.dotGeneral dot_S10000x10000_S10000x64_S10000x64_1_0_0_1_n_n none x2 (Host.dotGeneral dot_S10000x128_S128x64_S10000x64_1_0_0_1_n_n none (concatenate S10000x128 0 [⟨S8000x128, x1⟩, ⟨S2000x128, (addf (Host.dotGeneral dot_S2000x256_S256x128_S2000x128_1_0_0_1_n_n none x0 (transpose S256x128 [1, 0] x4 transposes_S128x256_S256x128_1_0)) (broadcastInDim S2000x128 ![0, 1] bcast_S1x128_S2000x128_0_1 (broadcastInDim S1x128 ![1] bcast_S128_S1x128_1 x5)))⟩] concatenates_S8000x128_S2000x128_S10000x128_d0) x6)) (broadcastInDim S10000x64 ![0, 1] bcast_S1x64_S10000x64_0_1 (broadcastInDim S1x64 ![1] bcast_S64_S1x64_1 x7))) (broadcastInDim S10000x64 ![] bcast_S_S10000x64 (constant S_ .f32 0x00000000#32))
      = refYemb (F := F) x0 x1 x2 x4 x5 x6 x7 := rfl

/-- The first result's stage is the composed term of its operations. -/
theorem refOut_term (x0 : (⟨S2000x256, .f32⟩ : BufTy).Contents (Elt F)) (x1 : (⟨S8000x128, .f32⟩ : BufTy).Contents (Elt F)) (x2 : (⟨S10000x10000, .f32⟩ : BufTy).Contents (Elt F)) (x3 : (⟨S10000x10000, .f32⟩ : BufTy).Contents (Elt F)) (x4 : (⟨S128x256, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x40, .f32⟩ : BufTy).Contents (Elt F)) (x9 : (⟨S40, .f32⟩ : BufTy).Contents (Elt F)) :
    subf (subf (addf (Host.dotGeneral dot_S10000x10000_S10000x40_S10000x40_1_0_0_1_n_n none x3 (Host.dotGeneral dot_S10000x64_S64x40_S10000x40_1_0_0_1_n_n none (maximumf (addf (Host.dotGeneral dot_S10000x10000_S10000x64_S10000x64_1_0_0_1_n_n none x2 (Host.dotGeneral dot_S10000x128_S128x64_S10000x64_1_0_0_1_n_n none (concatenate S10000x128 0 [⟨S8000x128, x1⟩, ⟨S2000x128, (addf (Host.dotGeneral dot_S2000x256_S256x128_S2000x128_1_0_0_1_n_n none x0 (transpose S256x128 [1, 0] x4 transposes_S128x256_S256x128_1_0)) (broadcastInDim S2000x128 ![0, 1] bcast_S1x128_S2000x128_0_1 (broadcastInDim S1x128 ![1] bcast_S128_S1x128_1 x5)))⟩] concatenates_S8000x128_S2000x128_S10000x128_d0) x6)) (broadcastInDim S10000x64 ![0, 1] bcast_S1x64_S10000x64_0_1 (broadcastInDim S1x64 ![1] bcast_S64_S1x64_1 x7))) (broadcastInDim S10000x64 ![] bcast_S_S10000x64 (constant S_ .f32 0x00000000#32))) x8)) (broadcastInDim S10000x40 ![0, 1] bcast_S1x40_S10000x40_0_1 (broadcastInDim S1x40 ![1] bcast_S40_S1x40_1 x9))) (broadcastInDim S10000x40 ![0, 1] bcast_S10000x1_S10000x40_0_1 (broadcastInDim S10000x1 ![0] bcast_S10000_S10000x1_0 (maximumf (broadcastInDim S10000 ![] bcast_S_S10000 (constant S_ .f32 0xFF800000#32)) (Host.reduce FloatOps.maximumf (addf (Host.dotGeneral dot_S10000x10000_S10000x40_S10000x40_1_0_0_1_n_n none x3 (Host.dotGeneral dot_S10000x64_S64x40_S10000x40_1_0_0_1_n_n none (maximumf (addf (Host.dotGeneral dot_S10000x10000_S10000x64_S10000x64_1_0_0_1_n_n none x2 (Host.dotGeneral dot_S10000x128_S128x64_S10000x64_1_0_0_1_n_n none (concatenate S10000x128 0 [⟨S8000x128, x1⟩, ⟨S2000x128, (addf (Host.dotGeneral dot_S2000x256_S256x128_S2000x128_1_0_0_1_n_n none x0 (transpose S256x128 [1, 0] x4 transposes_S128x256_S256x128_1_0)) (broadcastInDim S2000x128 ![0, 1] bcast_S1x128_S2000x128_0_1 (broadcastInDim S1x128 ![1] bcast_S128_S1x128_1 x5)))⟩] concatenates_S8000x128_S2000x128_S10000x128_d0) x6)) (broadcastInDim S10000x64 ![0, 1] bcast_S1x64_S10000x64_0_1 (broadcastInDim S1x64 ![1] bcast_S64_S1x64_1 x7))) (broadcastInDim S10000x64 ![] bcast_S_S10000x64 (constant S_ .f32 0x00000000#32))) x8)) (broadcastInDim S10000x40 ![0, 1] bcast_S1x40_S10000x40_0_1 (broadcastInDim S1x40 ![1] bcast_S40_S1x40_1 x9))) (constant S_ .f32 0xFF800000#32) reducesTo_S10000x40_S10000_d1 h_S_))))) (broadcastInDim S10000x40 ![0, 1] bcast_S10000x1_S10000x40_0_1 (Host.log (broadcastInDim S10000x1 ![0] bcast_S10000_S10000x1_0 (Host.reduceAdd (Host.exp (subf (addf (Host.dotGeneral dot_S10000x10000_S10000x40_S10000x40_1_0_0_1_n_n none x3 (Host.dotGeneral dot_S10000x64_S64x40_S10000x40_1_0_0_1_n_n none (maximumf (addf (Host.dotGeneral dot_S10000x10000_S10000x64_S10000x64_1_0_0_1_n_n none x2 (Host.dotGeneral dot_S10000x128_S128x64_S10000x64_1_0_0_1_n_n none (concatenate S10000x128 0 [⟨S8000x128, x1⟩, ⟨S2000x128, (addf (Host.dotGeneral dot_S2000x256_S256x128_S2000x128_1_0_0_1_n_n none x0 (transpose S256x128 [1, 0] x4 transposes_S128x256_S256x128_1_0)) (broadcastInDim S2000x128 ![0, 1] bcast_S1x128_S2000x128_0_1 (broadcastInDim S1x128 ![1] bcast_S128_S1x128_1 x5)))⟩] concatenates_S8000x128_S2000x128_S10000x128_d0) x6)) (broadcastInDim S10000x64 ![0, 1] bcast_S1x64_S10000x64_0_1 (broadcastInDim S1x64 ![1] bcast_S64_S1x64_1 x7))) (broadcastInDim S10000x64 ![] bcast_S_S10000x64 (constant S_ .f32 0x00000000#32))) x8)) (broadcastInDim S10000x40 ![0, 1] bcast_S1x40_S10000x40_0_1 (broadcastInDim S1x40 ![1] bcast_S40_S1x40_1 x9))) (broadcastInDim S10000x40 ![0, 1] bcast_S10000x1_S10000x40_0_1 (broadcastInDim S10000x1 ![0] bcast_S10000_S10000x1_0 (maximumf (broadcastInDim S10000 ![] bcast_S_S10000 (constant S_ .f32 0xFF800000#32)) (Host.reduce FloatOps.maximumf (addf (Host.dotGeneral dot_S10000x10000_S10000x40_S10000x40_1_0_0_1_n_n none x3 (Host.dotGeneral dot_S10000x64_S64x40_S10000x40_1_0_0_1_n_n none (maximumf (addf (Host.dotGeneral dot_S10000x10000_S10000x64_S10000x64_1_0_0_1_n_n none x2 (Host.dotGeneral dot_S10000x128_S128x64_S10000x64_1_0_0_1_n_n none (concatenate S10000x128 0 [⟨S8000x128, x1⟩, ⟨S2000x128, (addf (Host.dotGeneral dot_S2000x256_S256x128_S2000x128_1_0_0_1_n_n none x0 (transpose S256x128 [1, 0] x4 transposes_S128x256_S256x128_1_0)) (broadcastInDim S2000x128 ![0, 1] bcast_S1x128_S2000x128_0_1 (broadcastInDim S1x128 ![1] bcast_S128_S1x128_1 x5)))⟩] concatenates_S8000x128_S2000x128_S10000x128_d0) x6)) (broadcastInDim S10000x64 ![0, 1] bcast_S1x64_S10000x64_0_1 (broadcastInDim S1x64 ![1] bcast_S64_S1x64_1 x7))) (broadcastInDim S10000x64 ![] bcast_S_S10000x64 (constant S_ .f32 0x00000000#32))) x8)) (broadcastInDim S10000x40 ![0, 1] bcast_S1x40_S10000x40_0_1 (broadcastInDim S1x40 ![1] bcast_S40_S1x40_1 x9))) (constant S_ .f32 0xFF800000#32) reducesTo_S10000x40_S10000_d1 h_S_)))))) (constant S_ .f32 0x00000000#32) reducesTo_S10000x40_S10000_d1 h_S_))))
      = refOut (F := F) x0 x1 x2 x3 x4 x5 x6 x7 x8 x9 := rfl

end stages

/-! ## The operations read at an index, over the extended reals -/

section reading

open Cert.Spec

/-- A rows-by-columns contraction of the host at (p, q): the plain sum over the contracted coordinate. -/
theorem hostDot_apply {A K B : ℕ} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ .f32) (y : FVec Ideal ⟨2, ![K, B]⟩ .f32) (p : Fin A) (q : Fin B) :
    Host.dotGeneral d none x y (ix2 p q) = ∑ k : Fin K, x (ix2 p k) * y (ix2 k q) := by
  simp only [Host.dotGeneral]
  rw [Ideal.dotGeneral_apply]
  exact Cert.PlainDot.sum_eq d hlb hln hlc hrb hrn hrc hr hs x y p q

/-- A bias vector placed as a row and repeated down the rows reads, at (p, q), its entry q. -/
theorem bias_apply {a b : ℕ} (x : (⟨1, ![b]⟩ : Shape).Idx → EReal)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 x) (ix2 p q) = x (ix1 q) := by
  rw [Cert.BiasRow.down_apply, Cert.BiasRow.row_apply]

/-- The transposed weight matrix at (k, f) is the weight matrix at (f, k). -/
theorem transpose_w1_apply (x4 : Mat 128 256) (k : Fin 256) (f : Fin 128) :
    transpose S256x128 [1, 0] x4 transposes_S128x256_S256x128_1_0 (ix2 k f) = x4 (ix2 f k) :=
  transpose_apply [1, 0] x4 transposes_S128x256_S256x128_1_0 (ix2 k f) (ix2 f k) (fun b => match b with
    | ⟨0, _⟩ => rfl
    | ⟨1, _⟩ => rfl)

/-- X · W₁ᵀ + b₁ at (n, f). -/
theorem refXnew_apply (x0 : Mat 2000 256) (x4 : Mat 128 256) (x5 : Vct 128) (n : Fin 2000) (f : Fin 128) :
    refXnew (F := Ideal) x0 x4 x5 (ix2 n f) = (∑ k : Fin 256, x0 (ix2 n k) * x4 (ix2 f k)) + x5 (ix1 f) := by
  unfold refXnew
  show Host.dotGeneral (F := Ideal) _ none x0 _ (ix2 n f) + broadcastInDim _ _ _ (broadcastInDim _ _ _ x5) (ix2 n f) = _
  rw [hostDot_apply dot_S2000x256_S256x128_S2000x128_1_0_0_1_n_n rfl rfl rfl rfl rfl rfl rfl rfl, bias_apply]
  refine congrArg (· + x5 (ix1 f)) (Finset.sum_congr rfl fun k _ => ?_)
  rw [transpose_w1_apply]

/-- The stacked array at (r, f): Y in the first 8000 rows, the new rows after them. -/
theorem refYstar_apply (x0 : Mat 2000 256) (x1 : Mat 8000 128) (x4 : Mat 128 256) (x5 : Vct 128) (r : Fin 10000) (f : Fin 128) :
    refYstar (F := Ideal) x0 x1 x4 x5 (ix2 r f)
      = if h : r.val < 8000 then x1 (ix2 ⟨r.val, h⟩ f) else refXnew (F := Ideal) x0 x4 x5 (ix2 ⟨r.val - 8000, by omega⟩ f) := by
  unfold refYstar
  split
  · next h =>
    exact concatenate_pair_apply_left 0 x1 _ concatenates_S8000x128_S2000x128_S10000x128_d0 (ix2 r f) rfl (ix2 ⟨r.val, h⟩ f)
      (fun b => match b with
        | ⟨0, _⟩ => rfl
        | ⟨1, _⟩ => rfl)
  · next h =>
    exact concatenate_pair_apply_right 0 x1 _ concatenates_S8000x128_S2000x128_S10000x128_d0 (ix2 r f) rfl rfl
      (ix2 ⟨r.val - 8000, by omega⟩ f)
      (fun b hb => match b, hb with
        | ⟨0, _⟩, hb => absurd rfl hb
        | ⟨1, _⟩, _ => rfl)
      (by show r.val - 8000 + 8000 = r.val; omega)

/-- The log-softmax of an array of scores at (r, c): the row function of row r. -/
theorem refLogSoftmax_apply (y : FVec Ideal ⟨2, ![10000, 40]⟩ .f32) (r : Fin 10000) (c : Fin 40) :
    refLogSoftmax (F := Ideal) y (ix2 r c) = Cert.LogSoftmax.logSoftmaxRow (fun c' => y (ix2 r c')) c :=
  Cert.LogSoftmax.hostLogSoftmax_apply y reducesTo_S10000x40_S10000_d1 h_S_ bcast_S_S10000 bcast_S10000_S10000x1_0
    bcast_S10000x1_S10000x40_0_1 r c

end reading

/-! ## The reference is the specification -/

section spec

variable (a : Cert.Spec.Args)

theorem ref_xnew (n : Fin 2000) (f : Fin 128) :
    refXnew (F := Ideal) a.xe a.fc1w a.fc1b (ix2 n f) = Cert.Spec.xnew a n f := by
  rw [refXnew_apply]; rfl

theorem ref_ystar (r : Fin 10000) (f : Fin 128) :
    refYstar (F := Ideal) a.xe a.y a.fc1w a.fc1b (ix2 r f) = Cert.Spec.ystar a r f := by
  rw [refYstar_apply]
  unfold Cert.Spec.ystar
  split
  · rfl
  · exact ref_xnew a _ f

theorem ref_s1 (r : Fin 10000) (h : Fin 64) :
    refS1 (F := Ideal) a.xe a.y a.fc1w a.fc1b a.gc1w (ix2 r h) = Cert.Spec.s1 a r h := by
  unfold refS1 Cert.Spec.s1
  rw [hostDot_apply dot_S10000x128_S128x64_S10000x64_1_0_0_1_n_n rfl rfl rfl rfl rfl rfl rfl rfl]
  exact Finset.sum_congr rfl fun f _ => by rw [ref_ystar]

/-- The reference's second result is the hidden embedding of the specification. -/
theorem ref_yemb (r : Fin 10000) (h : Fin 64) :
    refYemb (F := Ideal) a.xe a.y a.adjF a.fc1w a.fc1b a.gc1w a.gc1b (ix2 r h) = Cert.Spec.yemb a r h := by
  unfold refYemb Cert.Spec.yemb
  show max (Host.dotGeneral (F := Ideal) _ none a.adjF _ (ix2 r h) + broadcastInDim _ _ _ (broadcastInDim _ _ _ a.gc1b) (ix2 r h))
    (broadcastInDim S10000x64 ![] bcast_S_S10000x64 (constant (F := Ideal) S_ .f32 0x00000000#32) (ix2 r h)) = _
  rw [hostDot_apply dot_S10000x10000_S10000x64_S10000x64_1_0_0_1_n_n rfl rfl rfl rfl rfl rfl rfl rfl, bias_apply, Cert.BroadcastInDim.scalar_apply]
  show max _ (Ideal.ofBits .f32 0x00000000#32) = _
  rw [Ideal.ofBits_zero_f32]
  exact congrArg (fun s => max (s + a.gc1b (ix1 h)) 0) (Finset.sum_congr rfl fun n _ => by rw [ref_s1])

theorem ref_s2 (r : Fin 10000) (c : Fin 40) :
    refS2 (F := Ideal) a.xe a.y a.adjF a.fc1w a.fc1b a.gc1w a.gc1b a.gc2w (ix2 r c) = Cert.Spec.s2 a r c := by
  unfold refS2 Cert.Spec.s2
  rw [hostDot_apply dot_S10000x64_S64x40_S10000x40_1_0_0_1_n_n rfl rfl rfl rfl rfl rfl rfl rfl]
  exact Finset.sum_congr rfl fun k _ => by rw [ref_yemb]

theorem ref_logit (r : Fin 10000) (c : Fin 40) :
    refLogits (F := Ideal) a.xe a.y a.adjF a.adjC a.fc1w a.fc1b a.gc1w a.gc1b a.gc2w a.gc2b (ix2 r c) = Cert.Spec.logit a r c := by
  unfold refLogits Cert.Spec.logit
  show Host.dotGeneral (F := Ideal) _ none a.adjC _ (ix2 r c) + broadcastInDim _ _ _ (broadcastInDim _ _ _ a.gc2b) (ix2 r c) = _
  rw [hostDot_apply dot_S10000x10000_S10000x40_S10000x40_1_0_0_1_n_n rfl rfl rfl rfl rfl rfl rfl rfl, bias_apply]
  exact congrArg (· + a.gc2b (ix1 c)) (Finset.sum_congr rfl fun n _ => by rw [ref_s2])

/-- The reference's first result is the log-softmax of the specification's class scores. -/
theorem ref_out (r : Fin 10000) (c : Fin 40) :
    refOut (F := Ideal) a.xe a.y a.adjF a.adjC a.fc1w a.fc1b a.gc1w a.gc1b a.gc2w a.gc2b (ix2 r c) = Cert.Spec.out a r c := by
  unfold refOut Cert.Spec.out
  rw [refLogSoftmax_apply]
  exact congrArg (fun z => Cert.LogSoftmax.logSoftmaxRow z c) (funext fun c' => ref_logit a r c')

end spec

end Cert.RefSide

end
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.RefRun.lean ====
/-
  The reference program's run: every weakly fair execution of its straight line of operations terminates, with the two
  result buffers at the named stages of the reference (the log-softmax of the class scores and the hidden embedding) of
  the arguments' launch contents, and the arguments unchanged.

  The line is read in three stretches — up to the hidden embedding, from it to the class scores, and the log-softmax of
  the scores — each from an arbitrary assignment of contents to the buffers, so that a later stretch names the earlier
  one's result by its buffer and the composed term never has to be written out in full: the scores are read three times
  by the last stretch.
-/
import proofs.«152448_g84250078479002_cont_sun_c4_284_34_alg».proof.Proof.Gen.ReferenceIdeal
import Idealize.ShloMosaic.Lib.StableHlo.Run
import proofs.«152448_g84250078479002_cont_sun_c4_284_34_alg».proof.Proof.RefIsSpec
import proofs.«152448_g84250078479002_cont_sun_c4_284_34_alg».proof.Proof.LibTypedRef

noncomputable section

namespace Cert.RefSide.Run

open Cert.ReferenceIdeal Cert.ReferenceIdeal.Gen Idealize.ShloMosaic Idealize.ShloMosaic.TcCoe Idealize.SL.Sem Idealize.ShloMosaic.StableHlo
open Cert.RefSide

variable {F : FTy → Type} [FloatOps F]

/-- The operations up to the hidden embedding. -/
abbrev opsA : List (HloOp τ sig (Elt F)) :=
  [ unary main_arg4 main_v0 ((transpose S256x128 [1, 0] · transposes_S128x256_S256x128_1_0) : (⟨S128x256, .f32⟩ : BufTy).Contents (Elt F) → (⟨S256x128, .f32⟩ : BufTy).Contents (Elt F)),
    binary main_arg0 main_v0 main_v1 ((fun l r => Host.dotGeneral dot_S2000x256_S256x128_S2000x128_1_0_0_1_n_n none l r) : (⟨S2000x256, .f32⟩ : BufTy).Contents (Elt F) → (⟨S256x128, .f32⟩ : BufTy).Contents (Elt F) → (⟨S2000x128, .f32⟩ : BufTy).Contents (Elt F)),
    unary main_arg5 main_v2 (broadcastInDim S1x128 ![1] bcast_S128_S1x128_1 : (⟨S128, .f32⟩ : BufTy).Contents (Elt F) → (⟨S1x128, .f32⟩ : BufTy).Contents (Elt F)),
    unary main_v2 main_v3 (broadcastInDim S2000x128 ![0, 1] bcast_S1x128_S2000x128_0_1 : (⟨S1x128, .f32⟩ : BufTy).Contents (Elt F) → (⟨S2000x128, .f32⟩ : BufTy).Contents (Elt F)),
    binary main_v1 main_v3 main_v4 (addf : (⟨S2000x128, .f32⟩ : BufTy).Contents (Elt F) → (⟨S2000x128, .f32⟩ : BufTy).Contents (Elt F) → (⟨S2000x128, .f32⟩ : BufTy).Contents (Elt F)),
    binary main_arg1 main_v4 main_v5 ((fun a b => concatenate S10000x128 0 [⟨S8000x128, a⟩, ⟨S2000x128, b⟩] concatenates_S8000x128_S2000x128_S10000x128_d0) : (⟨S8000x128, .f32⟩ : BufTy).Contents (Elt F) → (⟨S2000x128, .f32⟩ : BufTy).Contents (Elt F) → (⟨S10000x128, .f32⟩ : BufTy).Contents (Elt F)),
    binary main_v5 main_arg6 main_v6 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg2 main_v6 main_v7 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg7 main_v8 (broadcastInDim S1x64 ![1] bcast_S64_S1x64_1 : (⟨S64, .f32⟩ : BufTy).Contents (Elt F) → (⟨S1x64, .f32⟩ : BufTy).Contents (Elt F)),
    unary main_v8 main_v9 (broadcastInDim S10000x64 ![0, 1] bcast_S1x64_S10000x64_0_1 : (⟨S1x64, .f32⟩ : BufTy).Contents (Elt F) → (⟨S10000x64, .f32⟩ : BufTy).Contents (Elt F)),
    binary main_v7 main_v9 main_v10 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x64, .f32⟩) main_call0_v0) (broadcastInDim S10000x64 ![] bcast_S_S10000x64),
    TRef.binary (TRef.of (T := ⟨S10000x64, .f32⟩) main_v10) (TRef.of (T := ⟨S10000x64, .f32⟩) main_call0_v0) (TRef.of (T := ⟨S10000x64, .f32⟩) main_v11) maximumf ]

/-- The operations from the hidden embedding to the class scores. -/
abbrev opsB : List (HloOp τ sig (Elt F)) :=
  [ binary main_v11 main_arg8 main_v12 ((fun l r => Host.dotGeneral dot_S10000x64_S64x40_S10000x40_1_0_0_1_n_n none l r) : (⟨S10000x64, .f32⟩ : BufTy).Contents (Elt F) → (⟨S64x40, .f32⟩ : BufTy).Contents (Elt F) → (⟨S10000x40, .f32⟩ : BufTy).Contents (Elt F)),
    binary main_arg3 main_v12 main_v13 ((fun l r => Host.dotGeneral dot_S10000x10000_S10000x40_S10000x40_1_0_0_1_n_n none l r) : (⟨S10000x10000, .f32⟩ : BufTy).Contents (Elt F) → (⟨S10000x40, .f32⟩ : BufTy).Contents (Elt F) → (⟨S10000x40, .f32⟩ : BufTy).Contents (Elt F)),
    unary main_arg9 main_v14 (broadcastInDim S1x40 ![1] bcast_S40_S1x40_1 : (⟨S40, .f32⟩ : BufTy).Contents (Elt F) → (⟨S1x40, .f32⟩ : BufTy).Contents (Elt F)),
    unary main_v14 main_v15 (broadcastInDim S10000x40 ![0, 1] bcast_S1x40_S10000x40_0_1 : (⟨S1x40, .f32⟩ : BufTy).Contents (Elt F) → (⟨S10000x40, .f32⟩ : BufTy).Contents (Elt F)),
    binary main_v13 main_v15 main_v16 (addf : (⟨S10000x40, .f32⟩ : BufTy).Contents (Elt F) → (⟨S10000x40, .f32⟩ : BufTy).Contents (Elt F) → (⟨S10000x40, .f32⟩ : BufTy).Contents (Elt F)) ]

/-- The operations of the log-softmax of the class scores. -/
abbrev opsC : List (HloOp τ sig (Elt F)) :=
  [ TRef.nullary (TRef.of (T := ⟨S_, .f32⟩) main_call1_cst) (constant S_ .f32 0xFF800000#32),
    TRef.binary (TRef.of (T := ⟨S10000x40, .f32⟩) main_v16) (TRef.of (T := ⟨S_, .f32⟩) main_call1_cst) (TRef.of (T := ⟨S10000, .f32⟩) main_call1_v0) (fun x v => Host.reduce FloatOps.maximumf x v reducesTo_S10000x40_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x40, .f32⟩) main_call1_v4) (broadcastInDim S10000x40 ![0, 1] bcast_S10000x1_S10000x40_0_1),
    TRef.binary (TRef.of (T := ⟨S10000x40, .f32⟩) main_v16) (TRef.of (T := ⟨S10000x40, .f32⟩) main_call1_v4) (TRef.of (T := ⟨S10000x40, .f32⟩) main_call1_v5) subf,
    TRef.unary (TRef.of (T := ⟨S10000x40, .f32⟩) main_call1_v5) (TRef.of (T := ⟨S10000x40, .f32⟩) main_call1_v6) Host.exp,
    TRef.nullary (TRef.of (T := ⟨S_, .f32⟩) main_call1_cst_1) (constant S_ .f32 0x00000000#32),
    TRef.binary (TRef.of (T := ⟨S10000x40, .f32⟩) main_call1_v6) (TRef.of (T := ⟨S_, .f32⟩) main_call1_cst_1) (TRef.of (T := ⟨S10000, .f32⟩) main_call1_v7) (fun x v => Host.reduceAdd x v reducesTo_S10000x40_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x40, .f32⟩) main_call1_v10) (broadcastInDim S10000x40 ![0, 1] bcast_S10000x1_S10000x40_0_1),
    TRef.binary (TRef.of (T := ⟨S10000x40, .f32⟩) main_call1_v5) (TRef.of (T := ⟨S10000x40, .f32⟩) main_call1_v10) (TRef.of (T := ⟨S10000x40, .f32⟩) main_v17) subf ]

/-- The program's 34 operations, in order. -/
abbrev ops : List (HloOp τ sig (Elt F)) :=
  [ unary main_arg4 main_v0 ((transpose S256x128 [1, 0] · transposes_S128x256_S256x128_1_0) : (⟨S128x256, .f32⟩ : BufTy).Contents (Elt F) → (⟨S256x128, .f32⟩ : BufTy).Contents (Elt F)),
    binary main_arg0 main_v0 main_v1 ((fun l r => Host.dotGeneral dot_S2000x256_S256x128_S2000x128_1_0_0_1_n_n none l r) : (⟨S2000x256, .f32⟩ : BufTy).Contents (Elt F) → (⟨S256x128, .f32⟩ : BufTy).Contents (Elt F) → (⟨S2000x128, .f32⟩ : BufTy).Contents (Elt F)),
    unary main_arg5 main_v2 (broadcastInDim S1x128 ![1] bcast_S128_S1x128_1 : (⟨S128, .f32⟩ : BufTy).Contents (Elt F) → (⟨S1x128, .f32⟩ : BufTy).Contents (Elt F)),
    unary main_v2 main_v3 (broadcastInDim S2000x128 ![0, 1] bcast_S1x128_S2000x128_0_1 : (⟨S1x128, .f32⟩ : BufTy).Contents (Elt F) → (⟨S2000x128, .f32⟩ : BufTy).Contents (Elt F)),
    binary main_v1 main_v3 main_v4 (addf : (⟨S2000x128, .f32⟩ : BufTy).Contents (Elt F) → (⟨S2000x128, .f32⟩ : BufTy).Contents (Elt F) → (⟨S2000x128, .f32⟩ : BufTy).Contents (Elt F)),
    binary main_arg1 main_v4 main_v5 ((fun a b => concatenate S10000x128 0 [⟨S8000x128, a⟩, ⟨S2000x128, b⟩] concatenates_S8000x128_S2000x128_S10000x128_d0) : (⟨S8000x128, .f32⟩ : BufTy).Contents (Elt F) → (⟨S2000x128, .f32⟩ : BufTy).Contents (Elt F) → (⟨S10000x128, .f32⟩ : BufTy).Contents (Elt F)),
    binary main_v5 main_arg6 main_v6 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg2 main_v6 main_v7 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg7 main_v8 (broadcastInDim S1x64 ![1] bcast_S64_S1x64_1 : (⟨S64, .f32⟩ : BufTy).Contents (Elt F) → (⟨S1x64, .f32⟩ : BufTy).Contents (Elt F)),
    unary main_v8 main_v9 (broadcastInDim S10000x64 ![0, 1] bcast_S1x64_S10000x64_0_1 : (⟨S1x64, .f32⟩ : BufTy).Contents (Elt F) → (⟨S10000x64, .f32⟩ : BufTy).Contents (Elt F)),
    binary main_v7 main_v9 main_v10 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x64, .f32⟩) main_call0_v0) (broadcastInDim S10000x64 ![] bcast_S_S10000x64),
    TRef.binary (TRef.of (T := ⟨S10000x64, .f32⟩) main_v10) (TRef.of (T := ⟨S10000x64, .f32⟩) main_call0_v0) (TRef.of (T := ⟨S10000x64, .f32⟩) main_v11) maximumf,
    binary main_v11 main_arg8 main_v12 ((fun l r => Host.dotGeneral dot_S10000x64_S64x40_S10000x40_1_0_0_1_n_n none l r) : (⟨S10000x64, .f32⟩ : BufTy).Contents (Elt F) → (⟨S64x40, .f32⟩ : BufTy).Contents (Elt F) → (⟨S10000x40, .f32⟩ : BufTy).Contents (Elt F)),
    binary main_arg3 main_v12 main_v13 ((fun l r => Host.dotGeneral dot_S10000x10000_S10000x40_S10000x40_1_0_0_1_n_n none l r) : (⟨S10000x10000, .f32⟩ : BufTy).Contents (Elt F) → (⟨S10000x40, .f32⟩ : BufTy).Contents (Elt F) → (⟨S10000x40, .f32⟩ : BufTy).Contents (Elt F)),
    unary main_arg9 main_v14 (broadcastInDim S1x40 ![1] bcast_S40_S1x40_1 : (⟨S40, .f32⟩ : BufTy).Contents (Elt F) → (⟨S1x40, .f32⟩ : BufTy).Contents (Elt F)),
    unary main_v14 main_v15 (broadcastInDim S10000x40 ![0, 1] bcast_S1x40_S10000x40_0_1 : (⟨S1x40, .f32⟩ : BufTy).Contents (Elt F) → (⟨S10000x40, .f32⟩ : BufTy).Contents (Elt F)),
    binary main_v13 main_v15 main_v16 (addf : (⟨S10000x40, .f32⟩ : BufTy).Contents (Elt F) → (⟨S10000x40, .f32⟩ : BufTy).Contents (Elt F) → (⟨S10000x40, .f32⟩ : BufTy).Contents (Elt F)),
    TRef.nullary (TRef.of (T := ⟨S_, .f32⟩) main_call1_cst) (constant S_ .f32 0xFF800000#32),
    TRef.binary (TRef.of (T := ⟨S10000x40, .f32⟩) main_v16) (TRef.of (T := ⟨S_, .f32⟩) main_call1_cst) (TRef.of (T := ⟨S10000, .f32⟩) main_call1_v0) (fun x v => Host.reduce FloatOps.maximumf x v reducesTo_S10000x40_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x40, .f32⟩) main_call1_v4) (broadcastInDim S10000x40 ![0, 1] bcast_S10000x1_S10000x40_0_1),
    TRef.binary (TRef.of (T := ⟨S10000x40, .f32⟩) main_v16) (TRef.of (T := ⟨S10000x40, .f32⟩) main_call1_v4) (TRef.of (T := ⟨S10000x40, .f32⟩) main_call1_v5) subf,
    TRef.unary (TRef.of (T := ⟨S10000x40, .f32⟩) main_call1_v5) (TRef.of (T := ⟨S10000x40, .f32⟩) main_call1_v6) Host.exp,
    TRef.nullary (TRef.of (T := ⟨S_, .f32⟩) main_call1_cst_1) (constant S_ .f32 0x00000000#32),
    TRef.binary (TRef.of (T := ⟨S10000x40, .f32⟩) main_call1_v6) (TRef.of (T := ⟨S_, .f32⟩) main_call1_cst_1) (TRef.of (T := ⟨S10000, .f32⟩) main_call1_v7) (fun x v => Host.reduceAdd x v reducesTo_S10000x40_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x40, .f32⟩) main_call1_v10) (broadcastInDim S10000x40 ![0, 1] bcast_S10000x1_S10000x40_0_1),
    TRef.binary (TRef.of (T := ⟨S10000x40, .f32⟩) main_call1_v5) (TRef.of (T := ⟨S10000x40, .f32⟩) main_call1_v10) (TRef.of (T := ⟨S10000x40, .f32⟩) main_v17) subf ]

/-- The line is its three stretches one after the other. -/
theorem ops_split : (ops : List (HloOp τ sig (Elt F))) = opsA ++ (opsB ++ opsC) := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The contents after two stretches run one after the other. -/
theorem after_append' (l₁ l₂ : List (HloOp τ sig (Elt F))) (V : Valuation τ sig (Elt F)) :
    after (l₁ ++ l₂) V = after l₂ (after l₁ V) := by
  induction l₁ generalizing V with
  | nil => rfl
  | cons op l ih => exact ih _

section stretches

variable (V W : Valuation τ sig (Elt F))

/-- After the first stretch the hidden embedding's buffer holds the embedding of the arguments' contents. -/
theorem afterA_v11 : after opsA V (Proc.devRef .tc main_v11)
    = refYemb (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) := by
  after_results_simp <;> rfl

theorem afterA_arg3 : after opsA V (Proc.devRef .tc main_arg3) = V (Proc.devRef .tc main_arg3) := by
  after_results_simp <;> rfl
theorem afterA_arg8 : after opsA V (Proc.devRef .tc main_arg8) = V (Proc.devRef .tc main_arg8) := by
  after_results_simp <;> rfl
theorem afterA_arg9 : after opsA V (Proc.devRef .tc main_arg9) = V (Proc.devRef .tc main_arg9) := by
  after_results_simp <;> rfl

/-- After the second stretch the scores' buffer holds the scores of the embedding's buffer. -/
theorem afterB_v16 : after opsB W (Proc.devRef .tc main_v16)
    = addf (Host.dotGeneral dot_S10000x10000_S10000x40_S10000x40_1_0_0_1_n_n none (W (Proc.devRef .tc main_arg3)) (Host.dotGeneral dot_S10000x64_S64x40_S10000x40_1_0_0_1_n_n none (W (Proc.devRef .tc main_v11)) (W (Proc.devRef .tc main_arg8)))) (broadcastInDim S10000x40 ![0, 1] bcast_S1x40_S10000x40_0_1 (broadcastInDim S1x40 ![1] bcast_S40_S1x40_1 (W (Proc.devRef .tc main_arg9)))) := by
  after_results_simp <;> rfl

/-- After the third stretch the first result's buffer holds the log-softmax of the scores' buffer. -/
theorem afterC_v17 : after opsC W (Proc.devRef .tc main_v17) = refLogSoftmax (F := F) (W (Proc.devRef .tc main_v16)) := by
  after_results_simp
  simp only [Cert.TypedRef.ofBuf_toBuf]
  rfl

theorem afterB_v11 : after opsB W (Proc.devRef .tc main_v11) = W (Proc.devRef .tc main_v11) := by
  after_results_simp <;> rfl
theorem afterC_v11 : after opsC W (Proc.devRef .tc main_v11) = W (Proc.devRef .tc main_v11) := by
  after_results_simp <;> rfl

/-- After the whole line the first result's buffer holds the reference's first result of the arguments' contents. -/
theorem after_ops_v17 : after ops V (Proc.devRef .tc main_v17)
    = refOut (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_split, after_append', after_append', afterC_v17, afterB_v16, afterA_v11, afterA_arg3, afterA_arg8, afterA_arg9]
  rfl

/-- After the whole line the second result's buffer holds the reference's second result of the arguments' contents. -/
theorem after_ops_v11 : after ops V (Proc.devRef .tc main_v11)
    = refYemb (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) := by
  rw [ops_split, after_append', after_append', afterC_v11, afterB_v11, afterA_v11]

end stretches

set_option maxHeartbeats 2000000 in
/-- On every device, for any float values, from any memory with zero counters: every weakly fair execution of the
    reference terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v11) = refYemb (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v17).trans (after_ops_v17 (launchContents m c)),
      (h c main_v11).trans (after_ops_v11 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.RefSide.Run

end
-- ==== Proof.Assembly.lean ====
/-
  The reference's part of the certificate and the assembly of the algebraic claim.

  The reference runs with its arguments unchanged. Its two results are, entry by entry, the log-softmax of the class
  scores and the hidden embedding of the specification, taken of the arguments' launch contents. When the kernel's run
  ends with the same two arrays of the same arguments, the two programs end with equal results from memories that agree
  on the arguments.
-/
import proofs.«152448_g84250078479002_cont_sun_c4_284_34_alg».proof.Defs
import proofs.«152448_g84250078479002_cont_sun_c4_284_34_alg».proof.Proof.Gen.ReferenceIdeal
import proofs.«152448_g84250078479002_cont_sun_c4_284_34_alg».proof.Proof.Gen.KernelIdeal
import proofs.«152448_g84250078479002_cont_sun_c4_284_34_alg».proof.Proof.Gen.Pre_finite_inputs
import proofs.«152448_g84250078479002_cont_sun_c4_284_34_alg».proof.Proof.RefRun
import proofs.«152448_g84250078479002_cont_sun_c4_284_34_alg».proof.Proof.RefIsSpec
import proofs.«152448_g84250078479002_cont_sun_c4_284_34_alg».proof.Proof.Realness
import proofs.«152448_g84250078479002_cont_sun_c4_284_34_alg».proof.Proof.Spec

noncomputable section

namespace Cert.Assembly

open Idealize.ShloMosaic Idealize.ShloMosaic.TcCoe Idealize.SL.Sem Idealize.ShloMosaic.ValueIdx

/-! ## The reference runs and leaves its arguments unchanged -/

theorem frame_ri [hReferenceIdeal : Cert.ReferenceIdeal.Facts] [hPre_finite_inputs : Cert.Pre_finite_inputs.Facts] :
    Cert.frame_ReferenceIdeal := fun m g _ =>
  (θ_run Cert.ReferenceIdeal.defs _ _).mono (fun _ h c => (h c).2.2) (Cert.RefSide.Run.run (F := Ideal) m g)

/-! ## The arguments of the kernel's launch, as the specification's arguments -/

/-- The ten argument arrays of device `c` at launch. -/
def argsK (m : (ℓ : Loc Cert.KernelIdeal.nD Cert.KernelIdeal.τ Cert.KernelIdeal.sig) → Buf (Elt Ideal) ℓ) (c : Dev Cert.KernelIdeal.nD) : Cert.Spec.Args :=
  ⟨(m ((c.tc : Thread Cert.KernelIdeal.nD Cert.KernelIdeal.τ).loc Cert.KernelIdeal.main_arg0)),
    (m ((c.tc : Thread Cert.KernelIdeal.nD Cert.KernelIdeal.τ).loc Cert.KernelIdeal.main_arg1)),
    (m ((c.tc : Thread Cert.KernelIdeal.nD Cert.KernelIdeal.τ).loc Cert.KernelIdeal.main_arg2)),
    (m ((c.tc : Thread Cert.KernelIdeal.nD Cert.KernelIdeal.τ).loc Cert.KernelIdeal.main_arg3)),
    (m ((c.tc : Thread Cert.KernelIdeal.nD Cert.KernelIdeal.τ).loc Cert.KernelIdeal.main_arg4)),
    (m ((c.tc : Thread Cert.KernelIdeal.nD Cert.KernelIdeal.τ).loc Cert.KernelIdeal.main_arg5)),
    (m ((c.tc : Thread Cert.KernelIdeal.nD Cert.KernelIdeal.τ).loc Cert.KernelIdeal.main_arg6)),
    (m ((c.tc : Thread Cert.KernelIdeal.nD Cert.KernelIdeal.τ).loc Cert.KernelIdeal.main_arg7)),
    (m ((c.tc : Thread Cert.KernelIdeal.nD Cert.KernelIdeal.τ).loc Cert.KernelIdeal.main_arg8)),
    (m ((c.tc : Thread Cert.KernelIdeal.nD Cert.KernelIdeal.τ).loc Cert.KernelIdeal.main_arg9))⟩

/-- Under the finiteness precondition every entry of the launch arguments is a real number. -/
theorem real_argsK [hPre_finite_inputs : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    Cert.Realness.RealArgs (argsK m c) :=
  Cert.Realness.real_of_pre _ _ _ _ _ _ _ _ _ _ (h c)

/-! ## The two results as arrays -/

/-- The first result of the specification as an array: the log-softmax of the class scores. -/
def outArr (a : Cert.Spec.Args) : (⟨2, ![10000, 40]⟩ : Shape).Idx → EReal :=
  fun i => Cert.Spec.out a ⟨(i 0).val, (i 0).isLt⟩ ⟨(i 1).val, (i 1).isLt⟩

/-- The second result of the specification as an array: the hidden embedding. -/
def yembArr (a : Cert.Spec.Args) : (⟨2, ![10000, 64]⟩ : Shape).Idx → EReal :=
  fun i => Cert.Spec.yemb a ⟨(i 0).val, (i 0).isLt⟩ ⟨(i 1).val, (i 1).isLt⟩

/-- The reference's first result is the specification's first array. -/
theorem refOut_eq (a : Cert.Spec.Args) :
    Cert.RefSide.refOut (F := Ideal) a.xe a.y a.adjF a.adjC a.fc1w a.fc1b a.gc1w a.gc1b a.gc2w a.gc2b = outArr a := by
  funext i
  obtain ⟨p, q, rfl⟩ : ∃ p q, i = ix2 p q := ⟨i 0, i 1, eq_ix2 i⟩
  exact Cert.RefSide.ref_out a p q

/-- The reference's second result is the specification's second array. -/
theorem refYemb_eq (a : Cert.Spec.Args) :
    Cert.RefSide.refYemb (F := Ideal) a.xe a.y a.adjF a.fc1w a.fc1b a.gc1w a.gc1b = yembArr a := by
  funext i
  obtain ⟨p, q, rfl⟩ : ∃ p q, i = ix2 p q := ⟨i 0, i 1, eq_ix2 i⟩
  exact Cert.RefSide.ref_yemb a p q

/-! ## The algebraic claim from the kernel's run -/

/-- The kernel's run: under the precondition it terminates with its two result buffers at the specification's two arrays
    of the launch arguments, and the arguments unchanged. -/
def KernelRun [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Cert.Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v3_0) = outArr (argsK m c)
      ∧ r.2.mem ((c.tc : Thread Cert.KernelIdeal.nD Cert.KernelIdeal.τ).loc Cert.KernelIdeal.main_v3_1) = yembArr (argsK m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

/-- From the kernel's run, the two programs end with equal results and unchanged arguments. -/
theorem algebraic_of [hKernelIdeal : Cert.KernelIdeal.Facts] [hReferenceIdeal : Cert.ReferenceIdeal.Facts]
    [hPre_finite_inputs : Cert.Pre_finite_inputs.Facts] (hk : KernelRun) : Cert.algebraic_KernelIdeal_ReferenceIdeal :=
  fun m g m' g' hpre hagree =>
    ⟨fun c => outArr (argsK m c), fun c => yembArr (argsK m c), hk m g hpre,
      (θ_run Cert.ReferenceIdeal.defs _ _).mono (fun _ h c => by
        have ha := hagree c
        refine ⟨(h c).1.trans ?_, (h c).2.1.trans ?_, (h c).2.2⟩
        · rw [ha.1, ha.2.1, ha.2.2.1, ha.2.2.2.1, ha.2.2.2.2.1, ha.2.2.2.2.2.1, ha.2.2.2.2.2.2.1, ha.2.2.2.2.2.2.2.1, ha.2.2.2.2.2.2.2.2.1, ha.2.2.2.2.2.2.2.2.2]
          exact refOut_eq (argsK m c)
        · rw [ha.1, ha.2.1, ha.2.2.1, ha.2.2.2.2.1, ha.2.2.2.2.2.1, ha.2.2.2.2.2.2.1, ha.2.2.2.2.2.2.2.1]
          exact refYemb_eq (argsK m c))
        (Cert.RefSide.Run.run (F := Ideal) m' g')⟩

end Cert.Assembly

end
-- ==== Proof.KIValue.lean ====
/-
  The kernel's two result arrays are the specification's.

  The first scratch holds the transposed first projection after the first grid point; a point of the first phase leaves
  its 200 rows of the hidden embedding in its output block and of the second projection in the second scratch; a point
  of the second phase leaves its 200 rows of the log-softmaxed scores. Each output array ends, block by block, at the
  specification's array of the launch arguments: the blocks written back cover the array, and what a point writes back
  is the block of the one whole-array function.
-/
import proofs.«152448_g84250078479002_cont_sun_c4_284_34_alg».proof.Proof.KIData
import proofs.«152448_g84250078479002_cont_sun_c4_284_34_alg».proof.Proof.KIFacts
import proofs.«152448_g84250078479002_cont_sun_c4_284_34_alg».proof.Proof.KIBlocks
import proofs.«152448_g84250078479002_cont_sun_c4_284_34_alg».proof.Proof.KernelIsSpec
import proofs.«152448_g84250078479002_cont_sun_c4_284_34_alg».proof.Proof.Assembly
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Blocks Cert.KernelIdeal.IsSpec
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.Assembly (argsK outArr yembArr real_argsK)

/-! ## The scratch buffers and the blocks, entry by entry -/

/-- The first scratch after the first point is the transposed first projection. -/
theorem s1T_spec (m : (ℓ : Loc nD τ sig) → Buf (Elt Ideal) ℓ) (c : Dev nD) (h : Fin 64) (n : Fin 10000) :
    s1T (F := Ideal) m c (ix2 h n) = Cert.Spec.s1 (argsK m c) n h := by
  have h0 : (0 : ℕ) < 100 := by omega
  have hw : ∀ f h, (iblk m c 4 (pt 0 h0) : S128x64.Idx → Elt Ideal .f32) (ix2 f h) = (argsK m c).gc1w (ix2 f h) :=
    fun f h => congrFun (blk4 m c (pt 0 h0)) (ix2 f h)
  have hy : ∀ n f, (iblk m c 1 (pt 0 h0) : S8000x128.Idx → Elt Ideal .f32) (ix2 n f) = (argsK m c).y (ix2 n f) :=
    fun n f => congrFun (blk1 m c (pt 0 h0)) (ix2 n f)
  have hv : ∀ f k, (iblk m c 2 (pt 0 h0) : S128x256.Idx → Elt Ideal .f32) (ix2 f k) = (argsK m c).fc1w (ix2 f k) :=
    fun f k => congrFun (blk2 m c (pt 0 h0)) (ix2 f k)
  have hx : ∀ n k, (iblk m c 0 (pt 0 h0) : S2000x256.Idx → Elt Ideal .f32) (ix2 n k) = (argsK m c).xe (ix2 n k) :=
    fun n k => congrFun (blk0 m c (pt 0 h0)) (ix2 n k)
  have hb : ∀ f, (iblk m c 3 (pt 0 h0) : S128x1.Idx → Elt Ideal .f32) (ix2 f (0 : Fin 1)) = (argsK m c).fc1b (ix1 f) :=
    fun f => blk3_at m c (pt 0 h0) f
  have key := View.canon_apply_of_pieces (Val := Elt Ideal) (S := S64x10000) (e := .f32)
    (fun y : S64x10000.Idx => Cert.Spec.s1 (argsK m c) ⟨(y 1).val, (y 1).isLt⟩ ⟨(y 0).val, (y 0).isLt⟩)
    (s1Pieces (iblk m c 0 (pt 0 h0)) (iblk m c 1 (pt 0 h0)) (iblk m c 2 (pt 0 h0)) (iblk m c 3 (pt 0 h0)) (iblk m c 4 (pt 0 h0)))
    (by
      intro p hp
      simp only [s1Pieces, List.mem_cons, List.mem_singleton, List.not_mem_nil, or_false] at hp
      rcases hp with rfl | rfl
      · intro (x : S64x2000.Idx)
        obtain ⟨hh, nn, rfl⟩ : ∃ (hh : Fin 64) (nn : Fin 2000), x = ix2 hh nn := ⟨x 0, x 1, eq_ix2 x⟩
        refine (s1t_right (argsK m c) _ _ _ _ hw hv hx hb hh nn).trans ?_
        exact congrArg₂ (Cert.Spec.s1 (argsK m c))
          (Fin.ext (by show 8000 + nn.val = 8000 + 1 * nn.val; omega))
          (Fin.ext (by show hh.val = 0 + 1 * hh.val; omega))
      · intro (x : S64x8000.Idx)
        obtain ⟨hh, nn, rfl⟩ : ∃ (hh : Fin 64) (nn : Fin 8000), x = ix2 hh nn := ⟨x 0, x 1, eq_ix2 x⟩
        refine (s1t_left (argsK m c) _ _ hw hy hh nn).trans ?_
        exact congrArg₂ (Cert.Spec.s1 (argsK m c))
          (Fin.ext (by show nn.val = 0 + 1 * nn.val; omega))
          (Fin.ext (by show hh.val = 0 + 1 * hh.val; omega)))
    (ix2 h n) (s1Pieces_cover _ _ _ _ _ (ix2 h n))
  exact key

/-- The block of the hidden embedding a point of the first phase computes is its 200 rows of the specification's. -/
theorem yembBlk_spec (m : (ℓ : Loc nD τ sig) → Buf (Elt Ideal) ℓ) (c : Dev nD) (t : Fin cfg0.N) (ht : t.val < 50)
    (p : Fin 200) (h : Fin 64) :
    yembBlk (F := Ideal) m c t (ix2 p h) = Cert.Spec.yemb (argsK m c) ⟨200 * t.val + p.val, by omega⟩ h := by
  unfold yembBlk
  exact yemb_blk (argsK m c) (iblk m c 8 t) (s1T m c) (iblk m c 5 t) (200 * t.val) (by omega)
    (fun p n => blk8_at m c t ht p n) (fun h n => s1T_spec m c h n) (fun h => blk5_at m c t h) p h

/-- The second scratch, once filled, is the second projection. -/
theorem s2Full_spec (m : (ℓ : Loc nD τ sig) → Buf (Elt Ideal) ℓ) (c : Dev nD) (n : Fin 10000) (q : Fin 40) :
    s2Full (F := Ideal) m c (ix2 n q) = Cert.Spec.s2 (argsK m c) n q := by
  have hn : n.val < 10000 := n.isLt
  have hlt : n.val / 200 < 100 := by omega
  have ht : (pt (n.val / 200) hlt).val < 50 := by show n.val / 200 < 50; omega
  show s2Blk m c (pt (n.val / 200) hlt) (ix2 (⟨n.val % 200, Nat.mod_lt _ (by omega)⟩ : Fin 200) q) = _
  unfold s2Blk
  refine (s2_blk (argsK m c) (iblk m c 8 (pt (n.val / 200) hlt)) (s1T m c) (iblk m c 5 (pt (n.val / 200) hlt))
    (iblk m c 6 (pt (n.val / 200) hlt)) (200 * (pt (n.val / 200) hlt).val) (by omega)
    (fun p n' => blk8_at m c (pt (n.val / 200) hlt) ht p n') (fun h n' => s1T_spec m c h n')
    (fun h => blk5_at m c (pt (n.val / 200) hlt) h)
    (fun h c' => congrFun (blk6 m c (pt (n.val / 200) hlt)) (ix2 h c'))
    (⟨n.val % 200, Nat.mod_lt _ (by omega)⟩ : Fin 200) q).trans ?_
  exact congrArg (fun r : Fin 10000 => Cert.Spec.s2 (argsK m c) r q)
    (Fin.ext (by show 200 * (n.val / 200) + n.val % 200 = n.val; omega))

/-- The block of scores a point of the second phase computes is its 200 rows of the specification's first result. -/
theorem outBlk_spec [Cert.Pre_finite_inputs.Facts] (m : (ℓ : Loc nD τ sig) → Buf (Elt Ideal) ℓ)
    (hpre : Cert.Pre_KernelIdeal m) (c : Dev nD) (t : Fin cfg0.N) (ht : 50 ≤ t.val) (p : Fin 200) (q : Fin 40) :
    outBlk (F := Ideal) m c t (ix2 p q)
      = Cert.Spec.out (argsK m c) ⟨200 * (t.val - 50) + p.val, by have := lt_of_lt_of_eq t.isLt N_eq; omega⟩ q := by
  have hN := lt_of_lt_of_eq t.isLt N_eq
  unfold outBlk
  exact out_blk (argsK m c) (real_argsK m hpre c) (iblk m c 9 t) (s2Full m c) (iblk m c 7 t) (200 * (t.val - 50)) (by omega)
    (fun p n => blk9_at m c t ht p n) (fun n q => s2Full_spec m c n q) (fun q => blk7_at m c t q) p q

/-! ## The hidden embedding's array -/

/-- Window 11's block index: the point's number capped at 49 along the rows, zero along the columns. -/
theorem idx11 : ∀ t : Fin cfg0.N, win0_11.index t = ![min t.val 49, 0] :=
  (by decide +kernel : ∀ t : Fin grid0.N, win0_11.index t = ![min t.val 49, 0])

/-- What a point writes back into the hidden embedding is its block of the specification's array. -/
theorem flushed11_eq (m : (ℓ : Loc nD τ sig) → Buf (Elt Ideal) ℓ) (c : Dev nD) (t : Fin cfg0.N) :
    (dats (F := Ideal) m 0 c).flushed 11 t = ((cfg0.win 11).blk t).view.read (Elt Ideal) (yembArr (argsK m c)) := by
  have hN := lt_of_lt_of_eq t.isLt N_eq
  show (cfg0.win 11).cut (grid0.coords t) ((dats (F := Ideal) m 0 c).after 11 t) = _
  rw [after_out11]
  refine funext fun (y : S200x64.Idx) => ?_
  obtain ⟨p, h, rfl⟩ : ∃ (p : Fin 200) (h : Fin 64), y = ix2 p h := ⟨y 0, y 1, eq_ix2 y⟩
  show yembBlk (F := Ideal) m c (pt (min t.val 49) (by omega)) (ix2 p h)
    = yembArr (argsK m c) (((cfg0.win 11).blk t).view.emb (ix2 p h))
  rw [yembBlk_spec m c (pt (min t.val 49) (by omega)) (by show min t.val 49 < 50; omega) p h]
  unfold yembArr
  exact congrArg₂ (Cert.Spec.yemb (argsK m c))
    (Fin.ext (by
      show 200 * min t.val 49 + p.val = win0_11.index t (0 : Fin 2) * 200 + 1 * p.val
      rw [idx11 t]; show 200 * min t.val 49 + p.val = min t.val 49 * 200 + 1 * p.val; omega))
    (Fin.ext (by
      show h.val = win0_11.index t (1 : Fin 2) * 64 + 1 * h.val
      rw [idx11 t]; show h.val = 0 * 64 + 1 * h.val; omega))

/-- An index of the hidden embedding is in a point's block iff each coordinate is in the block's range on its axis. -/
theorem mem_blk11 (t : Fin cfg0.N) (i : S10000x64.Idx) :
    i ∈ ((cfg0.win 11).blk t).view.set ↔ ∀ a : Fin 2, win0_11.index t a * S200x64.size a ≤ (i a).val
      ∧ (i a).val < win0_11.index t a * S200x64.size a + S200x64.size a := by
  show i ∈ ((View.whole main_v3_1).slice (win0_11.rect t)).set ↔ _
  rw [View.set_slice_whole, Rect.mem_set_unit]
  exact Iff.rfl

/-- Every row of the hidden embedding is in a block that is written back: row r in the block of point r / 200 when that
    is below 49, and otherwise in the block of the last point, which holds the last 200 rows. -/
theorem cover11 (i : S10000x64.Idx) :
    ∃ t : Fin cfg0.N, (cfg0.win 11).flush t = true ∧ i ∈ ((cfg0.win 11).blk t).view.set := by
  have hi0 : (i 0).val < 10000 := (i 0).isLt
  have hi1 : (i 1).val < 64 := (i 1).isLt
  by_cases hlt : (i 0).val / 200 < 49
  · refine ⟨pt ((i 0).val / 200) (by omega), (flush11_iff _).mpr (Or.inl hlt), ?_⟩
    rw [mem_blk11]
    intro a
    match a with
    | ⟨0, _⟩ =>
      show win0_11.index (pt ((i 0).val / 200) (by omega)) (0 : Fin 2) * 200 ≤ (i 0).val
        ∧ (i 0).val < win0_11.index (pt ((i 0).val / 200) (by omega)) (0 : Fin 2) * 200 + 200
      rw [idx11]
      show min ((i 0).val / 200) 49 * 200 ≤ (i 0).val ∧ (i 0).val < min ((i 0).val / 200) 49 * 200 + 200
      omega
    | ⟨1, _⟩ =>
      show win0_11.index (pt ((i 0).val / 200) (by omega)) (1 : Fin 2) * 64 ≤ (i 1).val
        ∧ (i 1).val < win0_11.index (pt ((i 0).val / 200) (by omega)) (1 : Fin 2) * 64 + 64
      rw [idx11]
      show 0 * 64 ≤ (i 1).val ∧ (i 1).val < 0 * 64 + 64
      omega
  · refine ⟨pt 99 (by omega), (flush11_iff _).mpr (Or.inr rfl), ?_⟩
    rw [mem_blk11]
    intro a
    match a with
    | ⟨0, _⟩ =>
      show win0_11.index (pt 99 (by omega)) (0 : Fin 2) * 200 ≤ (i 0).val
        ∧ (i 0).val < win0_11.index (pt 99 (by omega)) (0 : Fin 2) * 200 + 200
      rw [idx11]
      show min 99 49 * 200 ≤ (i 0).val ∧ (i 0).val < min 99 49 * 200 + 200
      omega
    | ⟨1, _⟩ =>
      show win0_11.index (pt 99 (by omega)) (1 : Fin 2) * 64 ≤ (i 1).val
        ∧ (i 1).val < win0_11.index (pt 99 (by omega)) (1 : Fin 2) * 64 + 64
      rw [idx11]
      show 0 * 64 ≤ (i 1).val ∧ (i 1).val < 0 * 64 + 64
      omega

/-- The hidden embedding's array after the run is the specification's second result. -/
theorem final11 (m : (ℓ : Loc nD τ sig) → Buf (Elt Ideal) ℓ) (c : Dev nD) :
    (dats (F := Ideal) m 0 c).arrAt 11 cfg0.N = yembArr (argsK m c) :=
  (dats (F := Ideal) m 0 c).arrAt_eq_of_cover 11 (yembArr (argsK m c)) (fun t _ => flushed11_eq m c t) cover11

/-! ## The scores' array -/

/-- Window 10's block index: the point's number less 50 (zero before point 50) along the rows, zero along the columns. -/
theorem idx10 : ∀ t : Fin cfg0.N, win0_10.index t = ![t.val - 50, 0] :=
  (by decide +kernel : ∀ t : Fin grid0.N, win0_10.index t = ![t.val - 50, 0])

/-- What a point of the second phase writes back into the scores is its block of the specification's array. -/
theorem flushed10_eq [Cert.Pre_finite_inputs.Facts] (m : (ℓ : Loc nD τ sig) → Buf (Elt Ideal) ℓ)
    (hpre : Cert.Pre_KernelIdeal m) (c : Dev nD) (t : Fin cfg0.N) (ht : 50 ≤ t.val) :
    (dats (F := Ideal) m 0 c).flushed 10 t = ((cfg0.win 10).blk t).view.read (Elt Ideal) (outArr (argsK m c)) := by
  have hN := lt_of_lt_of_eq t.isLt N_eq
  show (cfg0.win 10).cut (grid0.coords t) ((dats (F := Ideal) m 0 c).after 10 t) = _
  rw [after_out10]
  refine funext fun (y : S200x40.Idx) => ?_
  obtain ⟨p, q, rfl⟩ : ∃ (p : Fin 200) (q : Fin 40), y = ix2 p q := ⟨y 0, y 1, eq_ix2 y⟩
  show outBlk (F := Ideal) m c t (ix2 p q) = outArr (argsK m c) (((cfg0.win 10).blk t).view.emb (ix2 p q))
  rw [outBlk_spec m hpre c t ht p q]
  unfold outArr
  exact congrArg₂ (Cert.Spec.out (argsK m c))
    (Fin.ext (by
      show 200 * (t.val - 50) + p.val = win0_10.index t (0 : Fin 2) * 200 + 1 * p.val
      rw [idx10 t]; show 200 * (t.val - 50) + p.val = (t.val - 50) * 200 + 1 * p.val; omega))
    (Fin.ext (by
      show q.val = win0_10.index t (1 : Fin 2) * 40 + 1 * q.val
      rw [idx10 t]; show q.val = 0 * 40 + 1 * q.val; omega))

/-- An index of the scores is in a point's block iff each coordinate is in the block's range on its axis. -/
theorem mem_blk10 (t : Fin cfg0.N) (i : S10000x40.Idx) :
    i ∈ ((cfg0.win 10).blk t).view.set ↔ ∀ a : Fin 2, win0_10.index t a * S200x40.size a ≤ (i a).val
      ∧ (i a).val < win0_10.index t a * S200x40.size a + S200x40.size a := by
  show i ∈ ((View.whole main_v3_0).slice (win0_10.rect t)).set ↔ _
  rw [View.set_slice_whole, Rect.mem_set_unit]
  exact Iff.rfl

/-- Every row of the scores is in a block that is written back: row r in the block of point 50 + r / 200. -/
theorem cover10 (i : S10000x40.Idx) :
    ∃ t : Fin cfg0.N, (cfg0.win 10).flush t = true ∧ i ∈ ((cfg0.win 10).blk t).view.set := by
  have hi0 : (i 0).val < 10000 := (i 0).isLt
  have hi1 : (i 1).val < 40 := (i 1).isLt
  refine ⟨pt (50 + (i 0).val / 200) (by omega), (flush10_iff _).mpr (by show 50 ≤ 50 + (i 0).val / 200; omega), ?_⟩
  rw [mem_blk10]
  intro a
  match a with
  | ⟨0, _⟩ =>
    show win0_10.index (pt (50 + (i 0).val / 200) (by omega)) (0 : Fin 2) * 200 ≤ (i 0).val
      ∧ (i 0).val < win0_10.index (pt (50 + (i 0).val / 200) (by omega)) (0 : Fin 2) * 200 + 200
    rw [idx10]
    show (50 + (i 0).val / 200 - 50) * 200 ≤ (i 0).val ∧ (i 0).val < (50 + (i 0).val / 200 - 50) * 200 + 200
    omega
  | ⟨1, _⟩ =>
    show win0_10.index (pt (50 + (i 0).val / 200) (by omega)) (1 : Fin 2) * 40 ≤ (i 1).val
      ∧ (i 1).val < win0_10.index (pt (50 + (i 0).val / 200) (by omega)) (1 : Fin 2) * 40 + 40
    rw [idx10]
    show 0 * 40 ≤ (i 1).val ∧ (i 1).val < 0 * 40 + 40
    omega

/-- The scores' array after the run is the specification's first result, when the arguments pass the finiteness test. -/
theorem final10 [Cert.Pre_finite_inputs.Facts] (m : (ℓ : Loc nD τ sig) → Buf (Elt Ideal) ℓ)
    (hpre : Cert.Pre_KernelIdeal m) (c : Dev nD) :
    (dats (F := Ideal) m 0 c).arrAt 10 cfg0.N = outArr (argsK m c) :=
  (dats (F := Ideal) m 0 c).arrAt_eq_of_cover 10 (outArr (argsK m c))
    (fun t hf => flushed10_eq m hpre c t ((flush10_iff t).mp hf)) cover10

end Cert.KernelIdeal.Hand

end
-- ==== Proof.KIFinal.lean ====
/-
  The kernel's run at the ideal instance, in the form the algebraic claim is assembled from: under the finiteness
  precondition every weakly fair execution terminates with the two result arrays at the specification's log-softmax of
  the class scores and hidden embedding of the launch arguments, and the ten argument arrays unchanged.

  The run to the pipeline's frame post gives, for each window, its array after the last grid point, and for a buffer no
  window stages its contents at the region's entry. The two output windows' arrays after the last point are the
  specification's two arrays; an input window's array is never written, so it is the array the region found; and no
  host operation before the region writes an argument, so the region found each argument as launched.
-/
import proofs.«152448_g84250078479002_cont_sun_c4_284_34_alg».proof.Proof.KIBody
import proofs.«152448_g84250078479002_cont_sun_c4_284_34_alg».proof.Proof.KIValue
import proofs.«152448_g84250078479002_cont_sun_c4_284_34_alg».proof.Proof.Assembly

set_option maxRecDepth 16384

noncomputable section

namespace Cert.KernelIdeal.Hand

open Idealize.ShloMosaic Idealize.ShloMosaic.TcCoe Idealize.SL.Sem

/-- The kernel's run with both results at the specification's arrays and the arguments unchanged. -/
theorem kernelRun [hKernelIdeal : Cert.KernelIdeal.Facts] [hPre_finite_inputs : Cert.Pre_finite_inputs.Facts] :
    Cert.Assembly.KernelRun := fun m ρ hpre =>
  (θ_run (Cert.KernelIdeal.defs (F := Ideal)) _ _).mono (fun _ h c =>
    ⟨((h c).1 10).trans (Cert.KernelIdeal.Hand.final10 m hpre c),
      ((h c).1 11).trans (Cert.KernelIdeal.Hand.final11 m c),
      ((h c).1 0).trans (((Cert.KernelIdeal.Hand.dats (F := Ideal) m 0 c).arrAt_in 0 rfl _).trans ((Cert.KernelIdeal.Hand.A_eq (F := Ideal) m c 0).trans (Cert.KernelIdeal.Gen.V_main_arg0 m c))),
      ((h c).1 1).trans (((Cert.KernelIdeal.Hand.dats (F := Ideal) m 0 c).arrAt_in 1 rfl _).trans ((Cert.KernelIdeal.Hand.A_eq (F := Ideal) m c 1).trans (Cert.KernelIdeal.Gen.V_main_arg1 m c))),
      ((h c).1 8).trans (((Cert.KernelIdeal.Hand.dats (F := Ideal) m 0 c).arrAt_in 8 rfl _).trans ((Cert.KernelIdeal.Hand.A_eq (F := Ideal) m c 8).trans (Cert.KernelIdeal.Gen.V_main_arg2 m c))),
      ((h c).1 9).trans (((Cert.KernelIdeal.Hand.dats (F := Ideal) m 0 c).arrAt_in 9 rfl _).trans ((Cert.KernelIdeal.Hand.A_eq (F := Ideal) m c 9).trans (Cert.KernelIdeal.Gen.V_main_arg3 m c))),
      ((h c).1 2).trans (((Cert.KernelIdeal.Hand.dats (F := Ideal) m 0 c).arrAt_in 2 rfl _).trans ((Cert.KernelIdeal.Hand.A_eq (F := Ideal) m c 2).trans (Cert.KernelIdeal.Gen.V_main_arg4 m c))),
      ((h c).2 main_arg5 (Pipeline.mem_restRefs_of main_arg5 (by decide) (by decide))).trans (Cert.KernelIdeal.Gen.V_main_arg5 m c),
      ((h c).1 4).trans (((Cert.KernelIdeal.Hand.dats (F := Ideal) m 0 c).arrAt_in 4 rfl _).trans ((Cert.KernelIdeal.Hand.A_eq (F := Ideal) m c 4).trans (Cert.KernelIdeal.Gen.V_main_arg6 m c))),
      ((h c).2 main_arg7 (Pipeline.mem_restRefs_of main_arg7 (by decide) (by decide))).trans (Cert.KernelIdeal.Gen.V_main_arg7 m c),
      ((h c).1 6).trans (((Cert.KernelIdeal.Hand.dats (F := Ideal) m 0 c).arrAt_in 6 rfl _).trans ((Cert.KernelIdeal.Hand.A_eq (F := Ideal) m c 6).trans (Cert.KernelIdeal.Gen.V_main_arg8 m c))),
      ((h c).2 main_arg9 (Pipeline.mem_restRefs_of main_arg9 (by decide) (by decide))).trans (Cert.KernelIdeal.Gen.V_main_arg9 m c)⟩)
    (Cert.KernelIdeal.Hand.run_main (F := Ideal) m ρ)

end Cert.KernelIdeal.Hand

end
-- ==== Proof.lean ====
/-
  The certificate's claim: the word-level kernel and its reading over the extended reals both run and leave their
  arguments unchanged; so does the reference; the idealization rewrote nothing; and at the ideal instance the kernel and
  the reference, from memories that agree on the arguments, end with equal results.

  The two kernel frames come from the pipeline's frame run of each program. The reference's run is read off its straight
  line of operations, stage by stage. For the equality of results both programs are brought to one specification of
  the network — the stacked features, two graph convolutions, the clip at zero and the log-softmax of the rows, every
  matrix product a plain sum —: the reference entry by entry from its operations, the kernel from its tiles' payloads
  under the precondition that every argument entry is a real number.
-/
import proofs.«152448_g84250078479002_cont_sun_c4_284_34_alg».proof.Defs
import proofs.«152448_g84250078479002_cont_sun_c4_284_34_alg».proof.Proof.Gen.Kernel
import proofs.«152448_g84250078479002_cont_sun_c4_284_34_alg».proof.Proof.Gen.KernelIdeal
import proofs.«152448_g84250078479002_cont_sun_c4_284_34_alg».proof.Proof.Gen.ReferenceIdeal
import proofs.«152448_g84250078479002_cont_sun_c4_284_34_alg».proof.Proof.Gen.Pre_finite_inputs
import proofs.«152448_g84250078479002_cont_sun_c4_284_34_alg».proof.Proof.KBody
import proofs.«152448_g84250078479002_cont_sun_c4_284_34_alg».proof.Proof.KIFinal
import proofs.«152448_g84250078479002_cont_sun_c4_284_34_alg».proof.Proof.Assembly
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.Assembly.frame_ri (hReferenceIdeal := Cert.ReferenceIdeal.Gen.facts)
      (hPre_finite_inputs := Cert.Pre_finite_inputs.Gen.facts),
    trivial,
    Cert.Assembly.algebraic_of (hKernelIdeal := Cert.KernelIdeal.Gen.facts) (hReferenceIdeal := Cert.ReferenceIdeal.Gen.facts)
      (hPre_finite_inputs := Cert.Pre_finite_inputs.Gen.facts)
      (Cert.KernelIdeal.Hand.kernelRun (hKernelIdeal := Cert.KernelIdeal.Gen.facts)
        (hPre_finite_inputs := Cert.Pre_finite_inputs.Gen.facts))⟩

end Cert.Proof

end
